-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S800000 : Shape := ⟨1, ![800000]⟩
abbrev S800000x3 : Shape := ⟨2, ![800000, 3]⟩
abbrev S32x32 : Shape := ⟨2, ![32, 32]⟩
abbrev S128x35 : Shape := ⟨2, ![128, 35]⟩
abbrev S128x160 : Shape := ⟨2, ![128, 160]⟩
abbrev S128 : Shape := ⟨1, ![128]⟩
abbrev S2x128x131 : Shape := ⟨3, ![2, 128, 131]⟩
abbrev S2x128x256 : Shape := ⟨3, ![2, 128, 256]⟩
abbrev S2x128 : Shape := ⟨2, ![2, 128]⟩
abbrev S_ : Shape := ⟨0, ![]⟩

class Facts : Prop where
  bcast_S_S800000x3 : S_.BroadcastsInDim S800000x3 (![] : Fin 0 → Fin S800000x3.rank)
  reducesTo_S800000x3_S_d0_1 : S800000x3.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S128x35 : S_.BroadcastsInDim S128x35 (![] : Fin 0 → Fin S128x35.rank)
  reducesTo_S128x35_S_d0_1 : S128x35.ReducesTo [0, 1] S_
  bcast_S_S128x160 : S_.BroadcastsInDim S128x160 (![] : Fin 0 → Fin S128x160.rank)
  reducesTo_S128x160_S_d0_1 : S128x160.ReducesTo [0, 1] S_
  bcast_S_S128 : S_.BroadcastsInDim S128 (![] : Fin 0 → Fin S128.rank)
  reducesTo_S128_S_d0 : S128.ReducesTo [0] S_
  bcast_S_S2x128x131 : S_.BroadcastsInDim S2x128x131 (![] : Fin 0 → Fin S2x128x131.rank)
  reducesTo_S2x128x131_S_d0_1_2 : S2x128x131.ReducesTo [0, 1, 2] S_
  bcast_S_S2x128x256 : S_.BroadcastsInDim S2x128x256 (![] : Fin 0 → Fin S2x128x256.rank)
  reducesTo_S2x128x256_S_d0_1_2 : S2x128x256.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_arg10 : FVec F S2x128 .f32) (main_v33 : IVec S_ 1) : IVec S_ 1 :=
  let main_v34 : FVec F S2x128 .f32 := Host.absf main_arg10
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  main_v38

def fn_part1 {F : FTy → Type} [FloatOps F] (main_arg7 : FVec F S128 .f32) (main_arg8 : FVec F S2x128x131 .f32) (main_arg9 : FVec F S2x128x256 .f32) (main_arg10 : FVec F S2x128 .f32) (main_v13 : IVec S_ 1) (main_v16 : IVec S128x160 1) : IVec S_ 1 :=
  let main_c_5 : IVec S_ 1 := constantI S_ 1 1#1
  let main_v17 : IVec S_ 1 := (fun x v => Host.reduce IntOp.andi x v reducesTo_S128x160_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128x131 .f32 := Host.absf main_arg8
  let main_cst_8 : FVec F S_ .f32 := constant S_ .f32 0x7F800000#32
  let main_v25 : FVec F S2x128x131 .f32 := broadcastInDim S2x128x131 ![] bcast_S_S2x128x131 main_cst_8
  let main_v26 : IVec S2x128x131 1 := cmpf .olt main_v24 main_v25
  let main_c_9 : IVec S_ 1 := constantI S_ 1 1#1
  let main_v27 : IVec S_ 1 := (fun x v => Host.reduce IntOp.andi x v reducesTo_S2x128x131_S_d0_1_2 h_S_) main_v26 main_c_9
  let main_v28 : IVec S_ 1 := andi main_v23 main_v27
  let main_v29 : FVec F S2x128x256 .f32 := Host.absf main_arg9
  let main_cst_10 : FVec F S_ .f32 := constant S_ .f32 0x7F800000#32
  let main_v30 : FVec F S2x128x256 .f32 := broadcastInDim S2x128x256 ![] bcast_S_S2x128x256 main_cst_10
  let main_v31 : IVec S2x128x256 1 := cmpf .olt main_v29 main_v30
  let main_c_11 : IVec S_ 1 := constantI S_ 1 1#1
  let main_v32 : IVec S_ 1 := (fun x v => Host.reduce IntOp.andi x v reducesTo_S2x128x256_S_d0_1_2 h_S_) main_v31 main_c_11
  let main_v33 : IVec S_ 1 := andi main_v28 main_v32
  fn_part2 (F := F) main_arg10 main_v33

def fn {F : FTy → Type} [FloatOps F] (main_arg0 : IVec S50000 32) (main_arg1 : IVec S800000 32) (main_arg2 : IVec S800000 32) (main_arg3 : FVec F S800000x3 .f32) (main_arg4 : FVec F S32x32 .f32) (main_arg5 : FVec F S128x35 .f32) (main_arg6 : FVec F S128x160 .f32) (main_arg7 : FVec F S128 .f32) (main_arg8 : FVec F S2x128x131 .f32) (main_arg9 : FVec F S2x128x256 .f32) (main_arg10 : FVec F S2x128 .f32) : IVec S_ 1 :=
  let main_v0 : FVec F S800000x3 .f32 := Host.absf main_arg3
  let main_cst : FVec F S_ .f32 := constant S_ .f32 0x7F800000#32
  let main_v1 : FVec F S800000x3 .f32 := broadcastInDim S800000x3 ![] bcast_S_S800000x3 main_cst
  let main_v2 : IVec S800000x3 1 := cmpf .olt main_v0 main_v1
  let main_c : IVec S_ 1 := constantI S_ 1 1#1
  let main_v3 : IVec S_ 1 := (fun x v => Host.reduce IntOp.andi x v reducesTo_S800000x3_S_d0_1 h_S_) main_v2 main_c
  let main_v4 : FVec F S32x32 .f32 := Host.absf main_arg4
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S128x35 .f32 := Host.absf main_arg5
  let main_cst_2 : FVec F S_ .f32 := constant S_ .f32 0x7F800000#32
  let main_v10 : FVec F S128x35 .f32 := broadcastInDim S128x35 ![] bcast_S_S128x35 main_cst_2
  let main_v11 : IVec S128x35 1 := cmpf .olt main_v9 main_v10
  let main_c_3 : IVec S_ 1 := constantI S_ 1 1#1
  let main_v12 : IVec S_ 1 := (fun x v => Host.reduce IntOp.andi x v reducesTo_S128x35_S_d0_1 h_S_) main_v11 main_c_3
  let main_v13 : IVec S_ 1 := andi main_v8 main_v12
  let main_v14 : FVec F S128x160 .f32 := Host.absf main_arg6
  let main_cst_4 : FVec F S_ .f32 := constant S_ .f32 0x7F800000#32
  let main_v15 : FVec F S128x160 .f32 := broadcastInDim S128x160 ![] bcast_S_S128x160 main_cst_4
  let main_v16 : IVec S128x160 1 := cmpf .olt main_v14 main_v15
  fn_part1 (F := F) main_arg7 main_arg8 main_arg9 main_arg10 main_v13 main_v16
-- ==== Kernel.lean ====
abbrev S50000 : Shape := ⟨1, ![50000]⟩
abbrev S800000 : Shape := ⟨1, ![800000]⟩
abbrev S800000x3 : Shape := ⟨2, ![800000, 3]⟩
abbrev S32x32 : Shape := ⟨2, ![32, 32]⟩
abbrev S128x35 : Shape := ⟨2, ![128, 35]⟩
abbrev S128x160 : Shape := ⟨2, ![128, 160]⟩
abbrev S128 : Shape := ⟨1, ![128]⟩
abbrev S2x128x131 : Shape := ⟨3, ![2, 128, 131]⟩
abbrev S2x128x256 : Shape := ⟨3, ![2, 128, 256]⟩
abbrev S2x128 : Shape := ⟨2, ![2, 128]⟩
abbrev S_ : Shape := ⟨0, ![]⟩
abbrev S50000x1 : Shape := ⟨2, ![50000, 1]⟩
abbrev S50000x32 : Shape := ⟨2, ![50000, 32]⟩
abbrev S800000x1 : Shape := ⟨2, ![800000, 1]⟩
abbrev S800000x32 : Shape := ⟨2, ![800000, 32]⟩
abbrev S800000x35 : Shape := ⟨2, ![800000, 35]⟩
abbrev S800000x128 : Shape := ⟨2, ![800000, 128]⟩
abbrev S8000x35 : Shape := ⟨2, ![8000, 35]⟩
abbrev S8000x128 : Shape := ⟨2, ![8000, 128]⟩
abbrev S50000x128 : Shape := ⟨2, ![50000, 128]⟩
abbrev S50000x160 : Shape := ⟨2, ![50000, 160]⟩
abbrev S1x128 : Shape := ⟨2, ![1, 128]⟩
abbrev S10000x160 : Shape := ⟨2, ![10000, 160]⟩
abbrev S10000x128 : Shape := ⟨2, ![10000, 128]⟩
abbrev S1x128x131 : Shape := ⟨3, ![1, 128, 131]⟩
abbrev S128x131 : Shape := ⟨2, ![128, 131]⟩
abbrev S1x128x256 : Shape := ⟨3, ![1, 128, 256]⟩
abbrev S128x256 : Shape := ⟨2, ![128, 256]⟩
abbrev S800000x131 : Shape := ⟨2, ![800000, 131]⟩
abbrev S8000x131 : Shape := ⟨2, ![8000, 131]⟩
abbrev S50000x256 : Shape := ⟨2, ![50000, 256]⟩
abbrev S10000x256 : Shape := ⟨2, ![10000, 256]⟩

abbrev nBuf : Space → Nat
  | .hbm => 119
  | .vmem => 33
  | .smem => 0
  | _ => 0

abbrev bufTy : (tb : Table) → Fin (tcTables nBuf tb) → BufTy
  | .hbm, ⟨0, _⟩ => ⟨S50000, .i32⟩
  | .hbm, ⟨1, _⟩ => ⟨S800000, .i32⟩
  | .hbm, ⟨2, _⟩ => ⟨S800000, .i32⟩
  | .hbm, ⟨3, _⟩ => ⟨S800000x3, .f32⟩
  | .hbm, ⟨4, _⟩ => ⟨S32x32, .f32⟩
  | .hbm, ⟨5, _⟩ => ⟨S128x35, .f32⟩
  | .hbm, ⟨6, _⟩ => ⟨S128x160, .f32⟩
  | .hbm, ⟨7, _⟩ => ⟨S128, .f32⟩
  | .hbm, ⟨8, _⟩ => ⟨S2x128x131, .f32⟩
  | .hbm, ⟨9, _⟩ => ⟨S2x128x256, .f32⟩
  | .hbm, ⟨10, _⟩ => ⟨S2x128, .f32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x32, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x32, .f32⟩
  | .hbm, ⟨41, _⟩ => ⟨S800000x35, .f32⟩
  | .hbm, ⟨42, _⟩ => ⟨S800000x35, .bf16⟩
  | .hbm, ⟨43, _⟩ => ⟨S128x35, .bf16⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S50000x1, .f32⟩
  | .hbm, ⟨50, _⟩ => ⟨S50000x128, .f32⟩
  | .hbm, ⟨51, _⟩ => ⟨S50000x128, .f32⟩
  | .hbm, ⟨52, _⟩ => ⟨S50000x160, .f32⟩
  | .hbm, ⟨53, _⟩ => ⟨S50000x160, .bf16⟩
  | .hbm, ⟨54, _⟩ => ⟨S128x160, .bf16⟩
  | .hbm, ⟨55, _⟩ => ⟨S1x128, .f32⟩
  | .hbm, ⟨56, _⟩ => ⟨S50000x128, .f32⟩
  | .hbm, ⟨57, _⟩ => ⟨S1x128x131, .f32⟩
  | .hbm, ⟨58, _⟩ => ⟨S128x131, .f32⟩
  | .hbm, ⟨59, _⟩ => ⟨S1x128x256, .f32⟩
  | .hbm, ⟨60, _⟩ => ⟨S128x256, .f32⟩
  | .hbm, ⟨61, _⟩ => ⟨S1x128, .f32⟩
  | .hbm, ⟨62, _⟩ => ⟨S128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S800000x131, .f32⟩
  | .hbm, ⟨73, _⟩ => ⟨S800000x131, .bf16⟩
  | .hbm, ⟨74, _⟩ => ⟨S128x131, .bf16⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S50000x1, .f32⟩
  | .hbm, ⟨81, _⟩ => ⟨S50000x128, .f32⟩
  | .hbm, ⟨82, _⟩ => ⟨S50000x128, .f32⟩
  | .hbm, ⟨83, _⟩ => ⟨S50000x256, .f32⟩
  | .hbm, ⟨84, _⟩ => ⟨S50000x256, .bf16⟩
  | .hbm, ⟨85, _⟩ => ⟨S128x256, .bf16⟩
  | .hbm, ⟨86, _⟩ => ⟨S1x128, .f32⟩
  | .hbm, ⟨87, _⟩ => ⟨S50000x128, .f32⟩
  | .hbm, ⟨88, _⟩ => ⟨S1x128x131, .f32⟩
  | .hbm, ⟨89, _⟩ => ⟨S128x131, .f32⟩
  | .hbm, ⟨90, _⟩ => ⟨S1x128x256, .f32⟩
  | .hbm, ⟨91, _⟩ => ⟨S128x256, .f32⟩
  | .hbm, ⟨92, _⟩ => ⟨S1x128, .f32⟩
  | .hbm, ⟨93, _⟩ => ⟨S128, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x128, .f32⟩
  | .hbm, ⟨103, _⟩ => ⟨S800000x131, .f32⟩
  | .hbm, ⟨104, _⟩ => ⟨S800000x131, .bf16⟩
  | .hbm, ⟨105, _⟩ => ⟨S128x131, .bf16⟩
  | .hbm, ⟨106, _⟩ => ⟨S800000x128, .f32⟩
  | .hbm, ⟨107, _⟩ => ⟨S_, .f32⟩
  | .hbm, ⟨108, _⟩ => ⟨S50000x128, .f32⟩
  | .hbm, ⟨109, _⟩ => ⟨S800000x1, .i32⟩
  | .hbm, ⟨110, _⟩ => ⟨S50000x128, .f32⟩
  | .hbm, ⟨111, _⟩ => ⟨S50000x1, .f32⟩
  | .hbm, ⟨112, _⟩ => ⟨S50000x128, .f32⟩
  | .hbm, ⟨113, _⟩ => ⟨S50000x128, .f32⟩
  | .hbm, ⟨114, _⟩ => ⟨S50000x256, .f32⟩
  | .hbm, ⟨115, _⟩ => ⟨S50000x256, .bf16⟩
  | .hbm, ⟨116, _⟩ => ⟨S128x256, .bf16⟩
  | .hbm, ⟨117, _⟩ => ⟨S1x128, .f32⟩
  | .hbm, ⟨118, _⟩ => ⟨S50000x128, .f32⟩
  | .local _ .vmem, ⟨0, _⟩ => ⟨S8000x35, .bf16⟩
  | .local _ .vmem, ⟨1, _⟩ => ⟨S8000x35, .bf16⟩
  | .local _ .vmem, ⟨2, _⟩ => ⟨S128x35, .bf16⟩
  | .local _ .vmem, ⟨3, _⟩ => ⟨S8000x128, .f32⟩
  | .local _ .vmem, ⟨4, _⟩ => ⟨S8000x128, .f32⟩
  | .local _ .vmem, ⟨5, _⟩ => ⟨S10000x160, .bf16⟩
  | .local _ .vmem, ⟨6, _⟩ => ⟨S10000x160, .bf16⟩
  | .local _ .vmem, ⟨7, _⟩ => ⟨S128x160, .bf16⟩
  | .local _ .vmem, ⟨8, _⟩ => ⟨S1x128, .f32⟩
  | .local _ .vmem, ⟨9, _⟩ => ⟨S10000x128, .f32⟩
  | .local _ .vmem, ⟨10, _⟩ => ⟨S10000x128, .f32⟩
  | .local _ .vmem, ⟨11, _⟩ => ⟨S8000x131, .bf16⟩
  | .local _ .vmem, ⟨12, _⟩ => ⟨S8000x131, .bf16⟩
  | .local _ .vmem, ⟨13, _⟩ => ⟨S128x131, .bf16⟩
  | .local _ .vmem, ⟨14, _⟩ => ⟨S8000x128, .f32⟩
  | .local _ .vmem, ⟨15, _⟩ => ⟨S8000x128, .f32⟩
  | .local _ .vmem, ⟨16, _⟩ => ⟨S10000x256, .bf16⟩
  | .local _ .vmem, ⟨17, _⟩ => ⟨S10000x256, .bf16⟩
  | .local _ .vmem, ⟨18, _⟩ => ⟨S128x256, .bf16⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S8000x131, .bf16⟩
  | .local _ .vmem, ⟨23, _⟩ => ⟨S8000x131, .bf16⟩
  | .local _ .vmem, ⟨24, _⟩ => ⟨S128x131, .bf16⟩
  | .local _ .vmem, ⟨25, _⟩ => ⟨S8000x128, .f32⟩
  | .local _ .vmem, ⟨26, _⟩ => ⟨S8000x128, .f32⟩
  | .local _ .vmem, ⟨27, _⟩ => ⟨S10000x256, .bf16⟩
  | .local _ .vmem, ⟨28, _⟩ => ⟨S10000x256, .bf16⟩
  | .local _ .vmem, ⟨29, _⟩ => ⟨S128x256, .bf16⟩
  | .local _ .vmem, ⟨30, _⟩ => ⟨S1x128, .f32⟩
  | .local _ .vmem, ⟨31, _⟩ => ⟨S10000x128, .f32⟩
  | .local _ .vmem, ⟨32, _⟩ => ⟨S10000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_10 : Ref sig .tc := ⟨.hbm, 94, rfl⟩
abbrev main_v71 : Ref sig .tc := ⟨.hbm, 95, rfl⟩
abbrev main_v72 : Ref sig .tc := ⟨.hbm, 96, rfl⟩
abbrev main_c_11 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_12 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x35 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x35 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x160 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x160 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x131 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x131 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x131 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x131 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x32_S800000x3_S800000x35_d1 : Shape.Concatenates [S800000x32, S800000x3] S800000x35 1
  bitsLt_bf16_f32 : FTy.bits .bf16 < FTy.bits .f32
  inb_S8000x35_S8000x35_0_0 : ∀ a, (![0, 0] : Fin 2 → Nat) a + S8000x35.size a ≤ S8000x35.size a
  h_S8000x35 : 0 < S8000x35.numel
  shapeCasts_S8000x35_S8000x35 : S8000x35.ShapeCasts S8000x35
  inb_S128x35_S128x35_0_0 : ∀ a, (![0, 0] : Fin 2 → Nat) a + S128x35.size a ≤ S128x35.size a
  h_S128x35 : 0 < S128x35.numel
  shapeCasts_S128x35_S128x35 : S128x35.ShapeCasts S128x35
  inb_S8000x128_S8000x128_0_0 : ∀ a, (![0, 0] : Fin 2 → Nat) a + S8000x128.size a ≤ S8000x128.size a
  h_S8000x128 : 0 < S8000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x32_S50000x128_S50000x160_d1 : Shape.Concatenates [S50000x32, S50000x128] S50000x160 1
  shapeCasts_S128_S1x128 : S128.ShapeCasts S1x128
  inb_S10000x160_S10000x160_0_0 : ∀ a, (![0, 0] : Fin 2 → Nat) a + S10000x160.size a ≤ S10000x160.size a
  h_S10000x160 : 0 < S10000x160.numel
  shapeCasts_S10000x160_S10000x160 : S10000x160.ShapeCasts S10000x160
  inb_S128x160_S128x160_0_0 : ∀ a, (![0, 0] : Fin 2 → Nat) a + S128x160.size a ≤ S128x160.size a
  h_S128x160 : 0 < S128x160.numel
  shapeCasts_S128x160_S128x160 : S128x160.ShapeCasts S128x160
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  slices_S2x128x131_S1x128x131_0_0_0 : S2x128x131.Slices ![0, 0, 0] S1x128x131
  shapeCasts_S1x128x131_S128x131 : S1x128x131.ShapeCasts S128x131
  slices_S2x128x256_S1x128x256_0_0_0 : S2x128x256.Slices ![0, 0, 0] S1x128x256
  shapeCasts_S1x128x256_S128x256 : S1x128x256.ShapeCasts S128x256
  slices_S2x128_S1x128_0_0 : S2x128.Slices ![0, 0] S1x128
  shapeCasts_S1x128_S128 : S1x128.ShapeCasts S128
  concatenates_S800000x128_S800000x3_S800000x131_d1 : Shape.Concatenates [S800000x128, S800000x3] S800000x131 1
  inb_S8000x131_S8000x131_0_0 : ∀ a, (![0, 0] : Fin 2 → Nat) a + S8000x131.size a ≤ S8000x131.size a
  h_S8000x131 : 0 < S8000x131.numel
  shapeCasts_S8000x131_S8000x131 : S8000x131.ShapeCasts S8000x131
  inb_S128x131_S128x131_0_0 : ∀ a, (![0, 0] : Fin 2 → Nat) a + S128x131.size a ≤ S128x131.size a
  h_S128x131 : 0 < S128x131.numel
  shapeCasts_S128x131_S128x131 : S128x131.ShapeCasts S128x131
  concatenates_S50000x128_S50000x128_S50000x256_d1 : Shape.Concatenates [S50000x128, S50000x128] S50000x256 1
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S2x128x131_S1x128x131_1_0_0 : S2x128x131.Slices ![1, 0, 0] S1x128x131
  slices_S2x128x256_S1x128x256_1_0_0 : S2x128x256.Slices ![1, 0, 0] S1x128x256
  slices_S2x128_S1x128_1_0 : S2x128.Slices ![1, 0] S1x128
  gather_S32x32_S50000x1_S50000x32_1_0_n_n_0_1_132_wf : GatherDims.WF S32x32 S50000x1 S50000x32 [1] [0] [] [0] [] 1 ![1, 32]
  scatter_S50000_S800000x1_S800000_n_0_0_1_wf : ScatterDims.WF S50000 S800000x1 S800000 [] [0] [0] 1
  gather_S50000x32_S800000x1_S800000x32_1_0_n_n_0_1_132_wf : GatherDims.WF S50000x32 S800000x1 S800000x32 [1] [0] [] [0] [] 1 ![1, 32]
  dot_S8000x35_S128x35_S8000x128_1_1_0_0_n_n_wf : DotDims.WF S8000x35 S128x35 S8000x128 [1] [1] [0] [0] [] []
  scatter_S50000x128_S800000x1_S800000x128_1_0_0_1_wf : ScatterDims.WF S50000x128 S800000x1 S800000x128 [1] [0] [0] 1
  dot_S10000x160_S128x160_S10000x128_1_1_0_0_n_n_wf : DotDims.WF S10000x160 S128x160 S10000x128 [1] [1] [0] [0] [] []
  gather_S50000x128_S800000x1_S800000x128_1_0_n_n_0_1_1128_wf : GatherDims.WF S50000x128 S800000x1 S800000x128 [1] [0] [] [0] [] 1 ![1, 128]
  dot_S8000x131_S128x131_S8000x128_1_1_0_0_n_n_wf : DotDims.WF S8000x131 S128x131 S8000x128 [1] [1] [0] [0] [] []
  dot_S10000x256_S128x256_S10000x128_1_1_0_0_n_n_wf : DotDims.WF S10000x256 S128x256 S10000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x35.size a ≤ S800000x35.size a
  hwx0_0 : ∀ i : grid0.Coords, EltTy.bits .bf16 = 32 ∨ (Rect.block (s := S800000x35) S8000x35.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x35.size a ≤ S128x35.size a
  hwx0_1 : ∀ i : grid0.Coords, EltTy.bits .bf16 = 32 ∨ (Rect.block (s := S128x35) S128x35.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S800000x128.size a
  hwx0_2 : ∀ i : grid0.Coords, EltTy.bits .f32 = 32 ∨ (Rect.block (s := S800000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x160.size a ≤ S50000x160.size a
  hwx1_0 : ∀ i : grid1.Coords, EltTy.bits .bf16 = 32 ∨ (Rect.block (s := S50000x160) S10000x160.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x160.size a ≤ S128x160.size a
  hwx1_1 : ∀ i : grid1.Coords, EltTy.bits .bf16 = 32 ∨ (Rect.block (s := S128x160) S128x160.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x131.size a ≤ S800000x131.size a
  hwx2_0 : ∀ i : grid2.Coords, EltTy.bits .bf16 = 32 ∨ (Rect.block (s := S800000x131) S8000x131.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x131.size a ≤ S128x131.size a
  hwx2_1 : ∀ i : grid2.Coords, EltTy.bits .bf16 = 32 ∨ (Rect.block (s := S128x131) S128x131.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S800000x128.size a
  hwx2_2 : ∀ i : grid2.Coords, EltTy.bits .f32 = 32 ∨ (Rect.block (s := S800000x128) S8000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x256.size a ≤ S50000x256.size a
  hwx3_0 : ∀ i : grid3.Coords, EltTy.bits .bf16 = 32 ∨ (Rect.block (s := S50000x256) S10000x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .bf16 = 32 ∨ (Rect.block (s := S128x256) S128x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S50000x128.size a
  hwx3_3 : ∀ i : grid3.Coords, EltTy.bits .f32 = 32 ∨ (Rect.block (s := S50000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x131.size a ≤ S800000x131.size a
  hwx4_0 : ∀ i : grid4.Coords, EltTy.bits .bf16 = 32 ∨ (Rect.block (s := S800000x131) S8000x131.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x131.size a ≤ S128x131.size a
  hwx4_1 : ∀ i : grid4.Coords, EltTy.bits .bf16 = 32 ∨ (Rect.block (s := S128x131) S128x131.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S800000x128.size a
  hwx4_2 : ∀ i : grid4.Coords, EltTy.bits .f32 = 32 ∨ (Rect.block (s := S800000x128) S8000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x256.size a ≤ S50000x256.size a
  hwx5_0 : ∀ i : grid5.Coords, EltTy.bits .bf16 = 32 ∨ (Rect.block (s := S50000x256) S10000x256.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x256.size a ≤ S128x256.size a
  hwx5_1 : ∀ i : grid5.Coords, EltTy.bits .bf16 = 32 ∨ (Rect.block (s := S128x256) S128x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S50000x128.size a
  hwx5_3 : ∀ i : grid5.Coords, EltTy.bits .f32 = 32 ∨ (Rect.block (s := S50000x128) S10000x128.size (cc5_transform_3 i) (hinb5_3 i)).WholeWords (EltTy.packing .f32)

variable [Facts₀]

def gather_S32x32_S50000x1_S50000x32_1_0_n_n_0_1_132 : GatherDims S32x32 S50000x1 S50000x32 where
  offsetDims := [1]
  collapsedSliceDims := [0]
  operandBatchingDims := []
  startIndicesBatchingDims := []
  startIndexMap := [0]
  indexVectorDim := 1
  sliceSizes := ![1, 32]
  wf := gather_S32x32_S50000x1_S50000x32_1_0_n_n_0_1_132_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S8000x35_S128x35_S8000x128_1_1_0_0_n_n : DotDims S8000x35 S128x35 S8000x128 where
  lhsContracting := [1]
  rhsContracting := [1]
  lhsNonContracting := [0]
  rhsNonContracting := [0]
  lhsBatch := []
  rhsBatch := []
  wf := dot_S8000x35_S128x35_S8000x128_1_1_0_0_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x160_S128x160_S10000x128_1_1_0_0_n_n : DotDims S10000x160 S128x160 S10000x128 where
  lhsContracting := [1]
  rhsContracting := [1]
  lhsNonContracting := [0]
  rhsNonContracting := [0]
  lhsBatch := []
  rhsBatch := []
  wf := dot_S10000x160_S128x160_S10000x128_1_1_0_0_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x131_S128x131_S8000x128_1_1_0_0_n_n : DotDims S8000x131 S128x131 S8000x128 where
  lhsContracting := [1]
  rhsContracting := [1]
  lhsNonContracting := [0]
  rhsNonContracting := [0]
  lhsBatch := []
  rhsBatch := []
  wf := dot_S8000x131_S128x131_S8000x128_1_1_0_0_n_n_wf
def dot_S10000x256_S128x256_S10000x128_1_1_0_0_n_n : DotDims S10000x256 S128x256 S10000x128 where
  lhsContracting := [1]
  rhsContracting := [1]
  lhsNonContracting := [0]
  rhsNonContracting := [0]
  lhsBatch := []
  rhsBatch := []
  wf := dot_S10000x256_S128x256_S10000x128_1_1_0_0_n_n_wf

abbrev win0_0 : Pipeline.Window sig grid0 :=
  Pipeline.Window.ofSpec (Memref.whole main_v23) S8000x35.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S128x35.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S10000x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S128x160.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v51) S8000x131.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S128x131.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v79) S8000x131.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S128x131.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81) S8000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v89) S10000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v90) S128x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v91) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v92) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000 : Shape := ⟨1, ![50000]⟩
abbrev S800000 : Shape := ⟨1, ![800000]⟩
abbrev S800000x3 : Shape := ⟨2, ![800000, 3]⟩
abbrev S32x32 : Shape := ⟨2, ![32, 32]⟩
abbrev S128x35 : Shape := ⟨2, ![128, 35]⟩
abbrev S128x160 : Shape := ⟨2, ![128, 160]⟩
abbrev S128 : Shape := ⟨1, ![128]⟩
abbrev S2x128x131 : Shape := ⟨3, ![2, 128, 131]⟩
abbrev S2x128x256 : Shape := ⟨3, ![2, 128, 256]⟩
abbrev S2x128 : Shape := ⟨2, ![2, 128]⟩
abbrev S_ : Shape := ⟨0, ![]⟩
abbrev S50000x1 : Shape := ⟨2, ![50000, 1]⟩
abbrev S50000x32 : Shape := ⟨2, ![50000, 32]⟩
abbrev S800000x1 : Shape := ⟨2, ![800000, 1]⟩
abbrev S800000x32 : Shape := ⟨2, ![800000, 32]⟩
abbrev S800000x35 : Shape := ⟨2, ![800000, 35]⟩
abbrev S35x128 : Shape := ⟨2, ![35, 128]⟩
abbrev S800000x128 : Shape := ⟨2, ![800000, 128]⟩
abbrev S50000x128 : Shape := ⟨2, ![50000, 128]⟩
abbrev S50000x160 : Shape := ⟨2, ![50000, 160]⟩
abbrev S160x128 : Shape := ⟨2, ![160, 128]⟩
abbrev S1x128 : Shape := ⟨2, ![1, 128]⟩
abbrev S1x128x131 : Shape := ⟨3, ![1, 128, 131]⟩
abbrev S128x131 : Shape := ⟨2, ![128, 131]⟩
abbrev S1x128x256 : Shape := ⟨3, ![1, 128, 256]⟩
abbrev S128x256 : Shape := ⟨2, ![128, 256]⟩
abbrev S800000x131 : Shape := ⟨2, ![800000, 131]⟩
abbrev S131x128 : Shape := ⟨2, ![131, 128]⟩
abbrev S50000x256 : Shape := ⟨2, ![50000, 256]⟩
abbrev S256x128 : Shape := ⟨2, ![256, 128]⟩

abbrev nBuf : Space → Nat
  | .hbm => 164
  | .vmem => 0
  | .smem => 0
  | _ => 0

abbrev hbmTy0_0 (i : Nat) : BufTy := match i % 128 with
  | 0 => ⟨S50000, .i32⟩
  | 1 => ⟨S800000, .i32⟩
  | 2 => ⟨S800000, .i32⟩
  | 3 => ⟨S800000x3, .f32⟩
  | 4 => ⟨S32x32, .f32⟩
  | 5 => ⟨S128x35, .f32⟩
  | 6 => ⟨S128x160, .f32⟩
  | 7 => ⟨S128, .f32⟩
  | 8 => ⟨S2x128x131, .f32⟩
  | 9 => ⟨S2x128x256, .f32⟩
  | 10 => ⟨S2x128, .f32⟩
  | 11 => ⟨S_, .i32⟩
  | 12 => ⟨S50000, .i32⟩
  | 13 => ⟨S50000, .i1⟩
  | 14 => ⟨S_, .i32⟩
  | 15 => ⟨S50000, .i32⟩
  | 16 => ⟨S50000, .i32⟩
  | 17 => ⟨S50000, .i32⟩
  | 18 => ⟨S50000x1, .i32⟩
  | 19 => ⟨S50000x32, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x32, .f32⟩
  | 29 => ⟨S800000x35, .f32⟩
  | 30 => ⟨S35x128, .f32⟩
  | 31 => ⟨S800000x128, .f32⟩
  | 32 => ⟨S_, .f32⟩
  | 33 => ⟨S800000x128, .f32⟩
  | 34 => ⟨S800000x128, .i1⟩
  | 35 => ⟨S_, .f32⟩
  | 36 => ⟨S800000x128, .f32⟩
  | 37 => ⟨S800000x128, .f32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S_, .f32⟩
  | 44 => ⟨S800000, .f32⟩
  | 45 => ⟨S_, .f32⟩
  | 46 => ⟨S50000, .f32⟩
  | 47 => ⟨S800000x1, .i32⟩
  | 48 => ⟨S50000, .f32⟩
  | 49 => ⟨S_, .f32⟩
  | 50 => ⟨S50000, .f32⟩
  | 51 => ⟨S50000, .f32⟩
  | 52 => ⟨S50000x1, .f32⟩
  | 53 => ⟨S50000x128, .f32⟩
  | 54 => ⟨S50000x128, .f32⟩
  | 55 => ⟨S50000x160, .f32⟩
  | 56 => ⟨S160x128, .f32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S1x128x131, .f32⟩
  | 65 => ⟨S128x131, .f32⟩
  | 66 => ⟨S1x128x256, .f32⟩
  | 67 => ⟨S128x256, .f32⟩
  | 68 => ⟨S1x128, .f32⟩
  | 69 => ⟨S128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S800000x131, .f32⟩
  | 80 => ⟨S131x128, .f32⟩
  | 81 => ⟨S800000x128, .f32⟩
  | 82 => ⟨S_, .f32⟩
  | 83 => ⟨S800000x128, .f32⟩
  | 84 => ⟨S800000x128, .i1⟩
  | 85 => ⟨S_, .f32⟩
  | 86 => ⟨S800000x128, .f32⟩
  | 87 => ⟨S800000x128, .f32⟩
  | 88 => ⟨S800000x128, .f32⟩
  | 89 => ⟨S_, .f32⟩
  | 90 => ⟨S50000x128, .f32⟩
  | 91 => ⟨S800000x1, .i32⟩
  | 92 => ⟨S50000x128, .f32⟩
  | 93 => ⟨S_, .f32⟩
  | 94 => ⟨S800000, .f32⟩
  | 95 => ⟨S_, .f32⟩
  | 96 => ⟨S50000, .f32⟩
  | 97 => ⟨S800000x1, .i32⟩
  | 98 => ⟨S50000, .f32⟩
  | 99 => ⟨S_, .f32⟩
  | 100 => ⟨S50000, .f32⟩
  | 101 => ⟨S50000, .f32⟩
  | 102 => ⟨S50000x1, .f32⟩
  | 103 => ⟨S50000x128, .f32⟩
  | 104 => ⟨S50000x128, .f32⟩
  | 105 => ⟨S50000x256, .f32⟩
  | 106 => ⟨S256x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S1x128x131, .f32⟩
  | 115 => ⟨S128x131, .f32⟩
  | 116 => ⟨S1x128x256, .f32⟩
  | 117 => ⟨S128x256, .f32⟩
  | 118 => ⟨S1x128, .f32⟩
  | 119 => ⟨S128, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000, .i32⟩

abbrev hbmTy0_1 (i : Nat) : BufTy := match i % 128 with
  | 0 => ⟨S800000x128, .f32⟩
  | 1 => ⟨S800000x131, .f32⟩
  | 2 => ⟨S131x128, .f32⟩
  | 3 => ⟨S800000x128, .f32⟩
  | 4 => ⟨S_, .f32⟩
  | 5 => ⟨S800000x128, .f32⟩
  | 6 => ⟨S800000x128, .i1⟩
  | 7 => ⟨S_, .f32⟩
  | 8 => ⟨S800000x128, .f32⟩
  | 9 => ⟨S800000x128, .f32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000x1, .f32⟩
  | 25 => ⟨S50000x128, .f32⟩
  | 26 => ⟨S50000x128, .f32⟩
  | 27 => ⟨S50000x256, .f32⟩
  | 28 => ⟨S256x128, .f32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call1_cst : Ref sig .tc := ⟨.hbm, 61, rfl⟩
abbrev main_call1_v0 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_6 : Ref sig .tc := ⟨.hbm, 70, rfl⟩
abbrev main_v43 : Ref sig .tc := ⟨.hbm, 71, rfl⟩
abbrev main_v44 : Ref sig .tc := ⟨.hbm, 72, rfl⟩
abbrev main_c_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call2_cst : Ref sig .tc := ⟨.hbm, 82, rfl⟩
abbrev main_call2_v0 : Ref sig .tc := ⟨.hbm, 83, rfl⟩
abbrev main_call2_v1 : Ref sig .tc := ⟨.hbm, 84, rfl⟩
abbrev main_call2_cst_0 : Ref sig .tc := ⟨.hbm, 85, rfl⟩
abbrev main_call2_v2 : Ref sig .tc := ⟨.hbm, 86, rfl⟩
abbrev main_call2_v3 : Ref sig .tc := ⟨.hbm, 87, rfl⟩
abbrev main_v53 : Ref sig .tc := ⟨.hbm, 88, rfl⟩
abbrev main_cst_8 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_9 : Ref sig .tc := ⟨.hbm, 93, rfl⟩
abbrev main_v57 : Ref sig .tc := ⟨.hbm, 94, rfl⟩
abbrev main_cst_10 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_11 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_call3_cst : Ref sig .tc := ⟨.hbm, 111, rfl⟩
abbrev main_call3_v0 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_c_12 : Ref sig .tc := ⟨.hbm, 120, rfl⟩
abbrev main_v79 : Ref sig .tc := ⟨.hbm, 121, rfl⟩
abbrev main_v80 : Ref sig .tc := ⟨.hbm, 122, rfl⟩
abbrev main_c_13 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_call4_cst : Ref sig .tc := ⟨.hbm, 132, rfl⟩
abbrev main_call4_v0 : Ref sig .tc := ⟨.hbm, 133, rfl⟩
abbrev main_call4_v1 : Ref sig .tc := ⟨.hbm, 134, rfl⟩
abbrev main_call4_cst_0 : Ref sig .tc := ⟨.hbm, 135, rfl⟩
abbrev main_call4_v2 : Ref sig .tc := ⟨.hbm, 136, rfl⟩
abbrev main_call4_v3 : Ref sig .tc := ⟨.hbm, 137, rfl⟩
abbrev main_v89 : Ref sig .tc := ⟨.hbm, 138, rfl⟩
abbrev main_cst_14 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_15 : Ref sig .tc := ⟨.hbm, 143, rfl⟩
abbrev main_v93 : Ref sig .tc := ⟨.hbm, 144, rfl⟩
abbrev main_cst_16 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_17 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_call5_cst : Ref sig .tc := ⟨.hbm, 161, rfl⟩
abbrev main_call5_v0 : Ref sig .tc := ⟨.hbm, 162, rfl⟩
abbrev main_v108 : Ref sig .tc := ⟨.hbm, 163, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x32_S800000x3_S800000x35_d1 : Shape.Concatenates [S800000x32, S800000x3] S800000x35 1
  transposes_S128x35_S35x128_1_0 : S128x35.Transposes [1, 0] S35x128
  bcast_S_S800000x128 : S_.BroadcastsInDim S800000x128 (![] : Fin 0 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x32_S50000x128_S50000x160_d1 : Shape.Concatenates [S50000x32, S50000x128] S50000x160 1
  transposes_S128x160_S160x128_1_0 : S128x160.Transposes [1, 0] S160x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128x131_S1x128x131_0_0_0 : S2x128x131.Slices ![0, 0, 0] S1x128x131
  shapeCasts_S1x128x131_S128x131 : S1x128x131.ShapeCasts S128x131
  slices_S2x128x256_S1x128x256_0_0_0 : S2x128x256.Slices ![0, 0, 0] S1x128x256
  shapeCasts_S1x128x256_S128x256 : S1x128x256.ShapeCasts S128x256
  slices_S2x128_S1x128_0_0 : S2x128.Slices ![0, 0] S1x128
  shapeCasts_S1x128_S128 : S1x128.ShapeCasts S128
  concatenates_S800000x128_S800000x3_S800000x131_d1 : Shape.Concatenates [S800000x128, S800000x3] S800000x131 1
  transposes_S128x131_S131x128_1_0 : S128x131.Transposes [1, 0] S131x128
  concatenates_S50000x128_S50000x128_S50000x256_d1 : Shape.Concatenates [S50000x128, S50000x128] S50000x256 1
  transposes_S128x256_S256x128_1_0 : S128x256.Transposes [1, 0] S256x128
  slices_S2x128x131_S1x128x131_1_0_0 : S2x128x131.Slices ![1, 0, 0] S1x128x131
  slices_S2x128x256_S1x128x256_1_0_0 : S2x128x256.Slices ![1, 0, 0] S1x128x256
  slices_S2x128_S1x128_1_0 : S2x128.Slices ![1, 0] S1x128
  gather_S32x32_S50000x1_S50000x32_1_0_n_n_0_1_132_wf : GatherDims.WF S32x32 S50000x1 S50000x32 [1] [0] [] [0] [] 1 ![1, 32]
  gather_S50000x32_S800000x1_S800000x32_1_0_n_n_0_1_132_wf : GatherDims.WF S50000x32 S800000x1 S800000x32 [1] [0] [] [0] [] 1 ![1, 32]
  dot_S800000x35_S35x128_S800000x128_1_0_0_1_n_n_wf : DotDims.WF S800000x35 S35x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x160_S160x128_S50000x128_1_0_0_1_n_n_wf : DotDims.WF S50000x160 S160x128 S50000x128 [1] [0] [0] [1] [] []
  gather_S50000x128_S800000x1_S800000x128_1_0_n_n_0_1_1128_wf : GatherDims.WF S50000x128 S800000x1 S800000x128 [1] [0] [] [0] [] 1 ![1, 128]
  dot_S800000x131_S131x128_S800000x128_1_0_0_1_n_n_wf : DotDims.WF S800000x131 S131x128 S800000x128 [1] [0] [0] [1] [] []
  dot_S50000x256_S256x128_S50000x128_1_0_0_1_n_n_wf : DotDims.WF S50000x256 S256x128 S50000x128 [1] [0] [0] [1] [] []

variable [Facts₀]

def gather_S32x32_S50000x1_S50000x32_1_0_n_n_0_1_132 : GatherDims S32x32 S50000x1 S50000x32 where
  offsetDims := [1]
  collapsedSliceDims := [0]
  operandBatchingDims := []
  startIndicesBatchingDims := []
  startIndexMap := [0]
  indexVectorDim := 1
  sliceSizes := ![1, 32]
  wf := gather_S32x32_S50000x1_S50000x32_1_0_n_n_0_1_132_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S800000x35_S35x128_S800000x128_1_0_0_1_n_n : DotDims S800000x35 S35x128 S800000x128 where
  lhsContracting := [1]
  rhsContracting := [0]
  lhsNonContracting := [0]
  rhsNonContracting := [1]
  lhsBatch := []
  rhsBatch := []
  wf := dot_S800000x35_S35x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x160_S160x128_S50000x128_1_0_0_1_n_n : DotDims S50000x160 S160x128 S50000x128 where
  lhsContracting := [1]
  rhsContracting := [0]
  lhsNonContracting := [0]
  rhsNonContracting := [1]
  lhsBatch := []
  rhsBatch := []
  wf := dot_S50000x160_S160x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x131_S131x128_S800000x128_1_0_0_1_n_n : DotDims S800000x131 S131x128 S800000x128 where
  lhsContracting := [1]
  rhsContracting := [0]
  lhsNonContracting := [0]
  rhsNonContracting := [1]
  lhsBatch := []
  rhsBatch := []
  wf := dot_S800000x131_S131x128_S800000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.RefRun.lean ====
/- The reference program's @main as a LIST of its host operations, and its run read back: every weakly fair
   execution terminates with the result buffer at the fold of the operations over the launch contents and the
   eleven arguments unchanged. The three outlined functions (leaky_relu, its select, relu) are listed inline at
   their call sites over each call's buffer record. -/
import proofs.«165154_j28441273434752_1_alg».proof.ReferenceIdeal
import proofs.«165154_j28441273434752_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 60 of @main: the embedding gather, the first layer, the second layer's weights and its gather. -/
abbrev ops0 : List (HloOp τ sig (Elt F)) :=
  [
    StableHlo.nullary main_c (constantI S_ 32 0#32),
    StableHlo.unary main_c main_v0 (broadcastInDim S50000 ![] bcast_S_S50000 : (⟨S_, .i32⟩ : BufTy).Contents (Elt F) → (⟨S50000, .i32⟩ : BufTy).Contents (Elt F)),
    StableHlo.binary main_arg0 main_v0 main_v1 (cmpi .slt : (⟨S50000, .i32⟩ : BufTy).Contents (Elt F) → (⟨S50000, .i32⟩ : BufTy).Contents (Elt F) → (⟨S50000, .i1⟩ : BufTy).Contents (Elt F)),
    StableHlo.nullary main_c_0 (constantI S_ 32 32#32),
    StableHlo.unary main_c_0 main_v2 (broadcastInDim S50000 ![] bcast_S_S50000 : (⟨S_, .i32⟩ : BufTy).Contents (Elt F) → (⟨S50000, .i32⟩ : BufTy).Contents (Elt F)),
    StableHlo.binary main_arg0 main_v2 main_v3 (addi : (⟨S50000, .i32⟩ : BufTy).Contents (Elt F) → (⟨S50000, .i32⟩ : BufTy).Contents (Elt F) → (⟨S50000, .i32⟩ : BufTy).Contents (Elt F)),
    StableHlo.ternary main_v1 main_v3 main_arg0 main_v4 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v4 main_v5 (broadcastInDim S50000x1 ![0] bcast_S50000_S50000x1_0 : (⟨S50000, .i32⟩ : BufTy).Contents (Elt F) → (⟨S50000x1, .i32⟩ : BufTy).Contents (Elt F)),
    StableHlo.binary main_arg4 main_v5 main_v6 ((fun x i => Host.gather gather_S32x32_S50000x1_S50000x32_1_0_n_n_0_1_132 x i) : (⟨S32x32, .f32⟩ : BufTy).Contents (Elt F) → (⟨S50000x1, .i32⟩ : BufTy).Contents (Elt F) → (⟨S50000x32, .f32⟩ : BufTy).Contents (Elt F)),
    StableHlo.nullary main_c_1 (constantI S_ 32 0#32),
    StableHlo.unary main_c_1 main_v7 (broadcastInDim S800000 ![] bcast_S_S800000 : (⟨S_, .i32⟩ : BufTy).Contents (Elt F) → (⟨S800000, .i32⟩ : BufTy).Contents (Elt F)),
    StableHlo.binary main_arg1 main_v7 main_v8 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v9 (broadcastInDim S800000 ![] bcast_S_S800000 : (⟨S_, .i32⟩ : BufTy).Contents (Elt F) → (⟨S800000, .i32⟩ : BufTy).Contents (Elt F)),
    StableHlo.binary main_arg1 main_v9 main_v10 (addi : (⟨S800000, .i32⟩ : BufTy).Contents (Elt F) → (⟨S800000, .i32⟩ : BufTy).Contents (Elt F) → (⟨S800000, .i32⟩ : BufTy).Contents (Elt F)),
    StableHlo.ternary main_v8 main_v10 main_arg1 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v11 main_v12 (broadcastInDim S800000x1 ![0] bcast_S800000_S800000x1_0 : (⟨S800000, .i32⟩ : BufTy).Contents (Elt F) → (⟨S800000x1, .i32⟩ : BufTy).Contents (Elt F)),
    StableHlo.binary main_v6 main_v12 main_v13 ((fun x i => Host.gather gather_S50000x32_S800000x1_S800000x32_1_0_n_n_0_1_132 x i) : (⟨S50000x32, .f32⟩ : BufTy).Contents (Elt F) → (⟨S800000x1, .i32⟩ : BufTy).Contents (Elt F) → (⟨S800000x32, .f32⟩ : BufTy).Contents (Elt F)),
    StableHlo.binary main_v13 main_arg3 main_v14 ((fun a b => concatenate S800000x35 1 [⟨S800000x32, a⟩, ⟨S800000x3, b⟩] concatenates_S800000x32_S800000x3_S800000x35_d1) : (⟨S800000x32, .f32⟩ : BufTy).Contents (Elt F) → (⟨S800000x3, .f32⟩ : BufTy).Contents (Elt F) → (⟨S800000x35, .f32⟩ : BufTy).Contents (Elt F)),
    StableHlo.unary main_arg5 main_v15 ((transpose S35x128 [1, 0] · transposes_S128x35_S35x128_1_0) : (⟨S128x35, .f32⟩ : BufTy).Contents (Elt F) → (⟨S35x128, .f32⟩ : BufTy).Contents (Elt F)),
    StableHlo.binary main_v14 main_v15 main_v16 ((fun l r => Host.dotGeneral dot_S800000x35_S35x128_S800000x128_1_0_0_1_n_n none l r) : (⟨S800000x35, .f32⟩ : BufTy).Contents (Elt F) → (⟨S35x128, .f32⟩ : BufTy).Contents (Elt F) → (⟨S800000x128, .f32⟩ : BufTy).Contents (Elt F)),
    StableHlo.TRef.nullary main_call0.cst (constant S_ .f32 0x00000000#32),
    StableHlo.TRef.unary main_call0.cst main_call0.v0 (broadcastInDim S800000x128 ![] bcast_S_S800000x128),
    StableHlo.TRef.binary (.of main_v16 : StableHlo.TRef sig ⟨S800000x128, .f32⟩) main_call0.v0 main_call0.v1 (cmpf .oge),
    StableHlo.TRef.nullary main_call0.cst_0 (constant S_ .f32 0x3C23D70A#32),
    StableHlo.TRef.unary main_call0.cst_0 main_call0.v2 (broadcastInDim S800000x128 ![] bcast_S_S800000x128),
    StableHlo.TRef.binary main_call0.v2 (.of main_v16 : StableHlo.TRef sig ⟨S800000x128, .f32⟩) main_call0.v3 mulf,
    StableHlo.TRef.ternary main_call0.v1 (.of main_v16 : StableHlo.TRef sig ⟨S800000x128, .f32⟩) main_call0.v3 main_call0.call0.v0 select,
    StableHlo.nullary main_cst (constant S_ .f32 0x00000000#32),
    StableHlo.unary main_cst main_v18 (broadcastInDim S50000x128 ![] bcast_S_S50000x128 : (⟨S_, .f32⟩ : BufTy).Contents (Elt F) → (⟨S50000x128, .f32⟩ : BufTy).Contents (Elt F)),
    StableHlo.unary main_arg2 main_v19 (broadcastInDim S800000x1 ![0] bcast_S800000_S800000x1_0 : (⟨S800000, .i32⟩ : BufTy).Contents (Elt F) → (⟨S800000x1, .i32⟩ : BufTy).Contents (Elt F)),
    StableHlo.ternary main_v18 main_v19 main_v17 main_v20 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_3 (constant S_ .f32 0x3F800000#32),
    StableHlo.unary main_cst_3 main_v21 (broadcastInDim S800000 ![] bcast_S_S800000 : (⟨S_, .f32⟩ : BufTy).Contents (Elt F) → (⟨S800000, .f32⟩ : BufTy).Contents (Elt F)),
    StableHlo.nullary main_cst_4 (constant S_ .f32 0x00000000#32),
    StableHlo.unary main_cst_4 main_v22 (broadcastInDim S50000 ![] bcast_S_S50000 : (⟨S_, .f32⟩ : BufTy).Contents (Elt F) → (⟨S50000, .f32⟩ : BufTy).Contents (Elt F)),
    StableHlo.unary main_arg2 main_v23 (broadcastInDim S800000x1 ![0] bcast_S800000_S800000x1_0 : (⟨S800000, .i32⟩ : BufTy).Contents (Elt F) → (⟨S800000x1, .i32⟩ : BufTy).Contents (Elt F)),
    StableHlo.ternary main_v22 main_v23 main_v21 main_v24 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_5 (constant S_ .f32 0x3F800000#32),
    StableHlo.unary main_cst_5 main_v25 (broadcastInDim S50000 ![] bcast_S_S50000 : (⟨S_, .f32⟩ : BufTy).Contents (Elt F) → (⟨S50000, .f32⟩ : BufTy).Contents (Elt F)),
    StableHlo.binary main_v24 main_v25 main_v26 (maximumf : (⟨S50000, .f32⟩ : BufTy).Contents (Elt F) → (⟨S50000, .f32⟩ : BufTy).Contents (Elt F) → (⟨S50000, .f32⟩ : BufTy).Contents (Elt F)),
    StableHlo.unary main_v26 main_v27 (broadcastInDim S50000x1 ![0] bcast_S50000_S50000x1_0 : (⟨S50000, .f32⟩ : BufTy).Contents (Elt F) → (⟨S50000x1, .f32⟩ : BufTy).Contents (Elt F)),
    StableHlo.unary main_v27 main_v28 (broadcastInDim S50000x128 ![0, 1] bcast_S50000x1_S50000x128_0_1 : (⟨S50000x1, .f32⟩ : BufTy).Contents (Elt F) → (⟨S50000x128, .f32⟩ : BufTy).Contents (Elt F)),
    StableHlo.binary main_v20 main_v28 main_v29 (Host.divf : (⟨S50000x128, .f32⟩ : BufTy).Contents (Elt F) → (⟨S50000x128, .f32⟩ : BufTy).Contents (Elt F) → (⟨S50000x128, .f32⟩ : BufTy).Contents (Elt F)),
    StableHlo.binary main_v6 main_v29 main_v30 ((fun a b => concatenate S50000x160 1 [⟨S50000x32, a⟩, ⟨S50000x128, b⟩] concatenates_S50000x32_S50000x128_S50000x160_d1) : (⟨S50000x32, .f32⟩ : BufTy).Contents (Elt F) → (⟨S50000x128, .f32⟩ : BufTy).Contents (Elt F) → (⟨S50000x160, .f32⟩ : BufTy).Contents (Elt F)),
    StableHlo.unary main_arg6 main_v31 ((transpose S160x128 [1, 0] · transposes_S128x160_S160x128_1_0) : (⟨S128x160, .f32⟩ : BufTy).Contents (Elt F) → (⟨S160x128, .f32⟩ : BufTy).Contents (Elt F)),
    StableHlo.binary main_v30 main_v31 main_v32 ((fun l r => Host.dotGeneral dot_S50000x160_S160x128_S50000x128_1_0_0_1_n_n none l r) : (⟨S50000x160, .f32⟩ : BufTy).Contents (Elt F) → (⟨S160x128, .f32⟩ : BufTy).Contents (Elt F) → (⟨S50000x128, .f32⟩ : BufTy).Contents (Elt F)),
    StableHlo.unary main_arg7 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S50000x128 ![0, 1] bcast_S1x128_S50000x128_0_1 : (⟨S1x128, .f32⟩ : BufTy).Contents (Elt F) → (⟨S50000x128, .f32⟩ : BufTy).Contents (Elt F)),
    StableHlo.binary main_v32 main_v34 main_v35 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v35 : StableHlo.TRef sig ⟨S50000x128, .f32⟩) main_call1.v0 main_call1.v1 maximumf,
    StableHlo.unary main_arg8 main_v37 ((extractStridedSlice S1x128x131 ![0, 0, 0] · slices_S2x128x131_S1x128x131_0_0_0) : (⟨S2x128x131, .f32⟩ : BufTy).Contents (Elt F) → (⟨S1x128x131, .f32⟩ : BufTy).Contents (Elt F)),
    StableHlo.reshape main_v37 main_v38 rfl shapeCasts_S1x128x131_S128x131,
    StableHlo.unary main_arg9 main_v39 ((extractStridedSlice S1x128x256 ![0, 0, 0] · slices_S2x128x256_S1x128x256_0_0_0) : (⟨S2x128x256, .f32⟩ : BufTy).Contents (Elt F) → (⟨S1x128x256, .f32⟩ : BufTy).Contents (Elt F)),
    StableHlo.reshape main_v39 main_v40 rfl shapeCasts_S1x128x256_S128x256,
    StableHlo.unary main_arg10 main_v41 ((extractStridedSlice S1x128 ![0, 0] · slices_S2x128_S1x128_0_0) : (⟨S2x128, .f32⟩ : BufTy).Contents (Elt F) → (⟨S1x128, .f32⟩ : BufTy).Contents (Elt F)),
    StableHlo.reshape main_v41 main_v42 rfl shapeCasts_S1x128_S128,
    StableHlo.nullary main_c_6 (constantI S_ 32 0#32),
    StableHlo.unary main_c_6 main_v43 (broadcastInDim S800000 ![] bcast_S_S800000 : (⟨S_, .i32⟩ : BufTy).Contents (Elt F) → (⟨S800000, .i32⟩ : BufTy).Contents (Elt F)),
    StableHlo.binary main_arg1 main_v43 main_v44 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v45 (broadcastInDim S800000 ![] bcast_S_S800000 : (⟨S_, .i32⟩ : BufTy).Contents (Elt F) → (⟨S800000, .i32⟩ : BufTy).Contents (Elt F)),
    StableHlo.binary main_arg1 main_v45 main_v46 (addi : (⟨S800000, .i32⟩ : BufTy).Contents (Elt F) → (⟨S800000, .i32⟩ : BufTy).Contents (Elt F) → (⟨S800000, .i32⟩ : BufTy).Contents (Elt F)),
    StableHlo.ternary main_v44 main_v46 main_arg1 main_v47 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v47 main_v48 (broadcastInDim S800000x1 ![0] bcast_S800000_S800000x1_0 : (⟨S800000, .i32⟩ : BufTy).Contents (Elt F) → (⟨S800000x1, .i32⟩ : BufTy).Contents (Elt F)),
    StableHlo.binary main_v36 main_v48 main_v49 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- Statements 61 … 120 of @main: the second layer from its concatenation on, the third layer up to the count's broadcast. -/
abbrev ops1 : List (HloOp τ sig (Elt F)) :=
  [
    StableHlo.binary main_v49 main_arg3 main_v50 ((fun a b => concatenate S800000x131 1 [⟨S800000x128, a⟩, ⟨S800000x3, b⟩] concatenates_S800000x128_S800000x3_S800000x131_d1) : (⟨S800000x128, .f32⟩ : BufTy).Contents (Elt F) → (⟨S800000x3, .f32⟩ : BufTy).Contents (Elt F) → (⟨S800000x131, .f32⟩ : BufTy).Contents (Elt F)),
    StableHlo.unary main_v38 main_v51 ((transpose S131x128 [1, 0] · transposes_S128x131_S131x128_1_0) : (⟨S128x131, .f32⟩ : BufTy).Contents (Elt F) → (⟨S131x128, .f32⟩ : BufTy).Contents (Elt F)),
    StableHlo.binary main_v50 main_v51 main_v52 ((fun l r => Host.dotGeneral dot_S800000x131_S131x128_S800000x128_1_0_0_1_n_n none l r) : (⟨S800000x131, .f32⟩ : BufTy).Contents (Elt F) → (⟨S131x128, .f32⟩ : BufTy).Contents (Elt F) → (⟨S800000x128, .f32⟩ : BufTy).Contents (Elt F)),
    StableHlo.TRef.nullary main_call2.cst (constant S_ .f32 0x00000000#32),
    StableHlo.TRef.unary main_call2.cst main_call2.v0 (broadcastInDim S800000x128 ![] bcast_S_S800000x128),
    StableHlo.TRef.binary (.of main_v52 : StableHlo.TRef sig ⟨S800000x128, .f32⟩) main_call2.v0 main_call2.v1 (cmpf .oge),
    StableHlo.TRef.nullary main_call2.cst_0 (constant S_ .f32 0x3C23D70A#32),
    StableHlo.TRef.unary main_call2.cst_0 main_call2.v2 (broadcastInDim S800000x128 ![] bcast_S_S800000x128),
    StableHlo.TRef.binary main_call2.v2 (.of main_v52 : StableHlo.TRef sig ⟨S800000x128, .f32⟩) main_call2.v3 mulf,
    StableHlo.TRef.ternary main_call2.v1 (.of main_v52 : StableHlo.TRef sig ⟨S800000x128, .f32⟩) main_call2.v3 main_call2.call0.v0 select,
    StableHlo.nullary main_cst_8 (constant S_ .f32 0x00000000#32),
    StableHlo.unary main_cst_8 main_v54 (broadcastInDim S50000x128 ![] bcast_S_S50000x128 : (⟨S_, .f32⟩ : BufTy).Contents (Elt F) → (⟨S50000x128, .f32⟩ : BufTy).Contents (Elt F)),
    StableHlo.unary main_arg2 main_v55 (broadcastInDim S800000x1 ![0] bcast_S800000_S800000x1_0 : (⟨S800000, .i32⟩ : BufTy).Contents (Elt F) → (⟨S800000x1, .i32⟩ : BufTy).Contents (Elt F)),
    StableHlo.ternary main_v54 main_v55 main_v53 main_v56 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_9 (constant S_ .f32 0x3F800000#32),
    StableHlo.unary main_cst_9 main_v57 (broadcastInDim S800000 ![] bcast_S_S800000 : (⟨S_, .f32⟩ : BufTy).Contents (Elt F) → (⟨S800000, .f32⟩ : BufTy).Contents (Elt F)),
    StableHlo.nullary main_cst_10 (constant S_ .f32 0x00000000#32),
    StableHlo.unary main_cst_10 main_v58 (broadcastInDim S50000 ![] bcast_S_S50000 : (⟨S_, .f32⟩ : BufTy).Contents (Elt F) → (⟨S50000, .f32⟩ : BufTy).Contents (Elt F)),
    StableHlo.unary main_arg2 main_v59 (broadcastInDim S800000x1 ![0] bcast_S800000_S800000x1_0 : (⟨S800000, .i32⟩ : BufTy).Contents (Elt F) → (⟨S800000x1, .i32⟩ : BufTy).Contents (Elt F)),
    StableHlo.ternary main_v58 main_v59 main_v57 main_v60 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_11 (constant S_ .f32 0x3F800000#32),
    StableHlo.unary main_cst_11 main_v61 (broadcastInDim S50000 ![] bcast_S_S50000 : (⟨S_, .f32⟩ : BufTy).Contents (Elt F) → (⟨S50000, .f32⟩ : BufTy).Contents (Elt F)),
    StableHlo.binary main_v60 main_v61 main_v62 (maximumf : (⟨S50000, .f32⟩ : BufTy).Contents (Elt F) → (⟨S50000, .f32⟩ : BufTy).Contents (Elt F) → (⟨S50000, .f32⟩ : BufTy).Contents (Elt F)),
    StableHlo.unary main_v62 main_v63 (broadcastInDim S50000x1 ![0] bcast_S50000_S50000x1_0 : (⟨S50000, .f32⟩ : BufTy).Contents (Elt F) → (⟨S50000x1, .f32⟩ : BufTy).Contents (Elt F)),
    StableHlo.unary main_v63 main_v64 (broadcastInDim S50000x128 ![0, 1] bcast_S50000x1_S50000x128_0_1 : (⟨S50000x1, .f32⟩ : BufTy).Contents (Elt F) → (⟨S50000x128, .f32⟩ : BufTy).Contents (Elt F)),
    StableHlo.binary main_v56 main_v64 main_v65 (Host.divf : (⟨S50000x128, .f32⟩ : BufTy).Contents (Elt F) → (⟨S50000x128, .f32⟩ : BufTy).Contents (Elt F) → (⟨S50000x128, .f32⟩ : BufTy).Contents (Elt F)),
    StableHlo.binary main_v36 main_v65 main_v66 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.unary main_v40 main_v67 ((transpose S256x128 [1, 0] · transposes_S128x256_S256x128_1_0) : (⟨S128x256, .f32⟩ : BufTy).Contents (Elt F) → (⟨S256x128, .f32⟩ : BufTy).Contents (Elt F)),
    StableHlo.binary main_v66 main_v67 main_v68 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_v42 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v70 main_v71 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v71 : StableHlo.TRef sig ⟨S50000x128, .f32⟩) main_call3.v0 main_call3.v1 maximumf,
    StableHlo.unary main_arg8 main_v73 ((extractStridedSlice S1x128x131 ![1, 0, 0] · slices_S2x128x131_S1x128x131_1_0_0) : (⟨S2x128x131, .f32⟩ : BufTy).Contents (Elt F) → (⟨S1x128x131, .f32⟩ : BufTy).Contents (Elt F)),
    StableHlo.reshape main_v73 main_v74 rfl shapeCasts_S1x128x131_S128x131,
    StableHlo.unary main_arg9 main_v75 ((extractStridedSlice S1x128x256 ![1, 0, 0] · slices_S2x128x256_S1x128x256_1_0_0) : (⟨S2x128x256, .f32⟩ : BufTy).Contents (Elt F) → (⟨S1x128x256, .f32⟩ : BufTy).Contents (Elt F)),
    StableHlo.reshape main_v75 main_v76 rfl shapeCasts_S1x128x256_S128x256,
    StableHlo.unary main_arg10 main_v77 ((extractStridedSlice S1x128 ![1, 0] · slices_S2x128_S1x128_1_0) : (⟨S2x128, .f32⟩ : BufTy).Contents (Elt F) → (⟨S1x128, .f32⟩ : BufTy).Contents (Elt F)),
    StableHlo.reshape main_v77 main_v78 rfl shapeCasts_S1x128_S128,
    StableHlo.nullary main_c_12 (constantI S_ 32 0#32),
    StableHlo.unary main_c_12 main_v79 (broadcastInDim S800000 ![] bcast_S_S800000 : (⟨S_, .i32⟩ : BufTy).Contents (Elt F) → (⟨S800000, .i32⟩ : BufTy).Contents (Elt F)),
    StableHlo.binary main_arg1 main_v79 main_v80 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v81 (broadcastInDim S800000 ![] bcast_S_S800000 : (⟨S_, .i32⟩ : BufTy).Contents (Elt F) → (⟨S800000, .i32⟩ : BufTy).Contents (Elt F)),
    StableHlo.binary main_arg1 main_v81 main_v82 (addi : (⟨S800000, .i32⟩ : BufTy).Contents (Elt F) → (⟨S800000, .i32⟩ : BufTy).Contents (Elt F) → (⟨S800000, .i32⟩ : BufTy).Contents (Elt F)),
    StableHlo.ternary main_v80 main_v82 main_arg1 main_v83 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v83 main_v84 (broadcastInDim S800000x1 ![0] bcast_S800000_S800000x1_0 : (⟨S800000, .i32⟩ : BufTy).Contents (Elt F) → (⟨S800000x1, .i32⟩ : BufTy).Contents (Elt F)),
    StableHlo.binary main_v72 main_v84 main_v85 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v85 main_arg3 main_v86 ((fun a b => concatenate S800000x131 1 [⟨S800000x128, a⟩, ⟨S800000x3, b⟩] concatenates_S800000x128_S800000x3_S800000x131_d1) : (⟨S800000x128, .f32⟩ : BufTy).Contents (Elt F) → (⟨S800000x3, .f32⟩ : BufTy).Contents (Elt F) → (⟨S800000x131, .f32⟩ : BufTy).Contents (Elt F)),
    StableHlo.unary main_v74 main_v87 ((transpose S131x128 [1, 0] · transposes_S128x131_S131x128_1_0) : (⟨S128x131, .f32⟩ : BufTy).Contents (Elt F) → (⟨S131x128, .f32⟩ : BufTy).Contents (Elt F)),
    StableHlo.binary main_v86 main_v87 main_v88 ((fun l r => Host.dotGeneral dot_S800000x131_S131x128_S800000x128_1_0_0_1_n_n none l r) : (⟨S800000x131, .f32⟩ : BufTy).Contents (Elt F) → (⟨S131x128, .f32⟩ : BufTy).Contents (Elt F) → (⟨S800000x128, .f32⟩ : BufTy).Contents (Elt F)),
    StableHlo.TRef.nullary main_call4.cst (constant S_ .f32 0x00000000#32),
    StableHlo.TRef.unary main_call4.cst main_call4.v0 (broadcastInDim S800000x128 ![] bcast_S_S800000x128),
    StableHlo.TRef.binary (.of main_v88 : StableHlo.TRef sig ⟨S800000x128, .f32⟩) main_call4.v0 main_call4.v1 (cmpf .oge),
    StableHlo.TRef.nullary main_call4.cst_0 (constant S_ .f32 0x3C23D70A#32),
    StableHlo.TRef.unary main_call4.cst_0 main_call4.v2 (broadcastInDim S800000x128 ![] bcast_S_S800000x128),
    StableHlo.TRef.binary main_call4.v2 (.of main_v88 : StableHlo.TRef sig ⟨S800000x128, .f32⟩) main_call4.v3 mulf,
    StableHlo.TRef.ternary main_call4.v1 (.of main_v88 : StableHlo.TRef sig ⟨S800000x128, .f32⟩) main_call4.v3 main_call4.call0.v0 select,
    StableHlo.nullary main_cst_14 (constant S_ .f32 0x00000000#32),
    StableHlo.unary main_cst_14 main_v90 (broadcastInDim S50000x128 ![] bcast_S_S50000x128 : (⟨S_, .f32⟩ : BufTy).Contents (Elt F) → (⟨S50000x128, .f32⟩ : BufTy).Contents (Elt F)),
    StableHlo.unary main_arg2 main_v91 (broadcastInDim S800000x1 ![0] bcast_S800000_S800000x1_0 : (⟨S800000, .i32⟩ : BufTy).Contents (Elt F) → (⟨S800000x1, .i32⟩ : BufTy).Contents (Elt F)),
    StableHlo.ternary main_v90 main_v91 main_v89 main_v92 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_15 (constant S_ .f32 0x3F800000#32),
    StableHlo.unary main_cst_15 main_v93 (broadcastInDim S800000 ![] bcast_S_S800000 : (⟨S_, .f32⟩ : BufTy).Contents (Elt F) → (⟨S800000, .f32⟩ : BufTy).Contents (Elt F)),
    StableHlo.nullary main_cst_16 (constant S_ .f32 0x00000000#32),
    StableHlo.unary main_cst_16 main_v94 (broadcastInDim S50000 ![] bcast_S_S50000 : (⟨S_, .f32⟩ : BufTy).Contents (Elt F) → (⟨S50000, .f32⟩ : BufTy).Contents (Elt F)),
    StableHlo.unary main_arg2 main_v95 (broadcastInDim S800000x1 ![0] bcast_S800000_S800000x1_0 : (⟨S800000, .i32⟩ : BufTy).Contents (Elt F) → (⟨S800000x1, .i32⟩ : BufTy).Contents (Elt F)),
    StableHlo.ternary main_v94 main_v95 main_v93 main_v96 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_17 (constant S_ .f32 0x3F800000#32),
    StableHlo.unary main_cst_17 main_v97 (broadcastInDim S50000 ![] bcast_S_S50000 : (⟨S_, .f32⟩ : BufTy).Contents (Elt F) → (⟨S50000, .f32⟩ : BufTy).Contents (Elt F)),
    StableHlo.binary main_v96 main_v97 main_v98 (maximumf : (⟨S50000, .f32⟩ : BufTy).Contents (Elt F) → (⟨S50000, .f32⟩ : BufTy).Contents (Elt F) → (⟨S50000, .f32⟩ : BufTy).Contents (Elt F)),
    StableHlo.unary main_v98 main_v99 (broadcastInDim S50000x1 ![0] bcast_S50000_S50000x1_0 : (⟨S50000, .f32⟩ : BufTy).Contents (Elt F) → (⟨S50000x1, .f32⟩ : BufTy).Contents (Elt F)) ]

/-- Statements 121 … 130 of @main: the third layer's mean, node product, bias and relu. -/
abbrev ops2 : List (HloOp τ sig (Elt F)) :=
  [
    StableHlo.unary main_v99 main_v100 (broadcastInDim S50000x128 ![0, 1] bcast_S50000x1_S50000x128_0_1 : (⟨S50000x1, .f32⟩ : BufTy).Contents (Elt F) → (⟨S50000x128, .f32⟩ : BufTy).Contents (Elt F)),
    StableHlo.binary main_v92 main_v100 main_v101 (Host.divf : (⟨S50000x128, .f32⟩ : BufTy).Contents (Elt F) → (⟨S50000x128, .f32⟩ : BufTy).Contents (Elt F) → (⟨S50000x128, .f32⟩ : BufTy).Contents (Elt F)),
    StableHlo.binary main_v72 main_v101 main_v102 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.unary main_v76 main_v103 ((transpose S256x128 [1, 0] · transposes_S128x256_S256x128_1_0) : (⟨S128x256, .f32⟩ : BufTy).Contents (Elt F) → (⟨S256x128, .f32⟩ : BufTy).Contents (Elt F)),
    StableHlo.binary main_v102 main_v103 main_v104 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_v78 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S50000x128 ![0, 1] bcast_S1x128_S50000x128_0_1 : (⟨S1x128, .f32⟩ : BufTy).Contents (Elt F) → (⟨S50000x128, .f32⟩ : BufTy).Contents (Elt F)),
    StableHlo.binary main_v104 main_v106 main_v107 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v107 : StableHlo.TRef sig ⟨S50000x128, .f32⟩) main_call5.v0 main_call5.v1 maximumf ]

/-- @main's 153 operations, in order. -/
abbrev ops : List (HloOp τ sig (Elt F)) := ops0 ++ (ops1 ++ ops2)

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V : Valuation τ sig (Elt F)) : after ops V = after ops2 (after ops1 (after ops0 V)) := by
  rw [ops, after_append, after_append]

/-- Each window is the straight line of its operations: the functions' definitions unfolded at their calls and
    the records at their fields, both sides are one chain of `hlo` steps once sequencing is reassociated. -/
theorem part0_eq (c : Dev nD) : main_part0 (F := F) c = seq ops0 := by
  simp only [main_part0, fn_leaky_relu.body, fn_where.body, fn_relu.body, seq, bind_assoc, pure_bind, bind_pure_unit]

theorem part1_eq (c : Dev nD) : main_part1 (F := F) c = seq ops1 := by
  simp only [main_part1, fn_leaky_relu.body, fn_where.body, fn_relu.body, seq, bind_assoc, pure_bind, bind_pure_unit]

theorem part2_eq (c : Dev nD) : main_part2 (F := F) c = seq ops2 := by
  simp only [main_part2, fn_leaky_relu.body, fn_where.body, fn_relu.body, seq, bind_assoc, pure_bind, bind_pure_unit]

theorem main_eq (c : Dev nD) : main (F := F) c = seq ops := by
  rw [ops, seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub .., unary_bufs_sub .., binary_bufs_sub .., unary_bufs_sub ..,
    unary_bufs_sub .., binary_bufs_sub .., nullary_bufs_sub .., unary_bufs_sub .., binary_bufs_sub .., unary_bufs_sub ..,
    reshape_bufs_sub .., unary_bufs_sub .., reshape_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub ..⟩

theorem ops1_sub : (ops1 : List (HloOp τ sig (Elt F))).Forall fun op => op.bufs ⊆ tcRefs τ sig :=
  ⟨binary_bufs_sub .., unary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub .., unary_bufs_sub .., binary_bufs_sub .., unary_bufs_sub ..,
    unary_bufs_sub .., binary_bufs_sub .., nullary_bufs_sub .., unary_bufs_sub .., binary_bufs_sub .., unary_bufs_sub ..,
    reshape_bufs_sub .., unary_bufs_sub .., reshape_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub .., binary_bufs_sub .., nullary_bufs_sub ..,
    unary_bufs_sub .., binary_bufs_sub .., nullary_bufs_sub .., unary_bufs_sub .., binary_bufs_sub .., ternary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub ..⟩

theorem ops2_sub : (ops2 : List (HloOp τ sig (Elt F))).Forall fun op => op.bufs ⊆ tcRefs τ sig :=
  ⟨unary_bufs_sub .., binary_bufs_sub .., binary_bufs_sub .., unary_bufs_sub .., binary_bufs_sub .., unary_bufs_sub ..,
    unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_append.mpr ⟨ops0_sub, List.forall_append.mpr ⟨ops1_sub, ops2_sub⟩⟩

theorem ops0_fresh : ∀ op ∈ (ops0 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩

theorem ops1_fresh : ∀ op ∈ (ops1 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

theorem ops2_fresh : ∀ op ∈ (ops2 : List (HloOp τ sig (Elt F))), op.fresh = ∅ :=
  List.forall_iff_forall_mem.mp ⟨rfl, rfl, rfl, rfl, rfl, rfl, rfl, rfl, rfl, rfl, rfl⟩

theorem ops_fresh : ∀ op ∈ (ops : List (HloOp τ sig (Elt F))), op.fresh = ∅ :=
  List.forall_mem_append.mpr ⟨ops0_fresh, List.forall_mem_append.mpr ⟨ops1_fresh, ops2_fresh⟩⟩

theorem ops0_main_arg0 (V : Valuation τ sig (Elt F)) : after ops0 V (Proc.devRef .tc main_arg0) = V (Proc.devRef .tc main_arg0) := by after_results_simp
theorem ops0_main_arg1 (V : Valuation τ sig (Elt F)) : after ops0 V (Proc.devRef .tc main_arg1) = V (Proc.devRef .tc main_arg1) := by after_results_simp
theorem ops0_main_arg2 (V : Valuation τ sig (Elt F)) : after ops0 V (Proc.devRef .tc main_arg2) = V (Proc.devRef .tc main_arg2) := by after_results_simp
theorem ops0_main_arg3 (V : Valuation τ sig (Elt F)) : after ops0 V (Proc.devRef .tc main_arg3) = V (Proc.devRef .tc main_arg3) := by after_results_simp
theorem ops0_main_arg4 (V : Valuation τ sig (Elt F)) : after ops0 V (Proc.devRef .tc main_arg4) = V (Proc.devRef .tc main_arg4) := by after_results_simp
theorem ops0_main_arg5 (V : Valuation τ sig (Elt F)) : after ops0 V (Proc.devRef .tc main_arg5) = V (Proc.devRef .tc main_arg5) := by after_results_simp
theorem ops0_main_arg6 (V : Valuation τ sig (Elt F)) : after ops0 V (Proc.devRef .tc main_arg6) = V (Proc.devRef .tc main_arg6) := by after_results_simp
theorem ops0_main_arg7 (V : Valuation τ sig (Elt F)) : after ops0 V (Proc.devRef .tc main_arg7) = V (Proc.devRef .tc main_arg7) := by after_results_simp
theorem ops0_main_arg8 (V : Valuation τ sig (Elt F)) : after ops0 V (Proc.devRef .tc main_arg8) = V (Proc.devRef .tc main_arg8) := by after_results_simp
theorem ops0_main_arg9 (V : Valuation τ sig (Elt F)) : after ops0 V (Proc.devRef .tc main_arg9) = V (Proc.devRef .tc main_arg9) := by after_results_simp
theorem ops0_main_arg10 (V : Valuation τ sig (Elt F)) : after ops0 V (Proc.devRef .tc main_arg10) = V (Proc.devRef .tc main_arg10) := by after_results_simp

theorem ops1_main_arg0 (V : Valuation τ sig (Elt F)) : after ops1 V (Proc.devRef .tc main_arg0) = V (Proc.devRef .tc main_arg0) := by after_results_simp
theorem ops1_main_arg1 (V : Valuation τ sig (Elt F)) : after ops1 V (Proc.devRef .tc main_arg1) = V (Proc.devRef .tc main_arg1) := by after_results_simp
theorem ops1_main_arg2 (V : Valuation τ sig (Elt F)) : after ops1 V (Proc.devRef .tc main_arg2) = V (Proc.devRef .tc main_arg2) := by after_results_simp
theorem ops1_main_arg3 (V : Valuation τ sig (Elt F)) : after ops1 V (Proc.devRef .tc main_arg3) = V (Proc.devRef .tc main_arg3) := by after_results_simp
theorem ops1_main_arg4 (V : Valuation τ sig (Elt F)) : after ops1 V (Proc.devRef .tc main_arg4) = V (Proc.devRef .tc main_arg4) := by after_results_simp
theorem ops1_main_arg5 (V : Valuation τ sig (Elt F)) : after ops1 V (Proc.devRef .tc main_arg5) = V (Proc.devRef .tc main_arg5) := by after_results_simp
theorem ops1_main_arg6 (V : Valuation τ sig (Elt F)) : after ops1 V (Proc.devRef .tc main_arg6) = V (Proc.devRef .tc main_arg6) := by after_results_simp
theorem ops1_main_arg7 (V : Valuation τ sig (Elt F)) : after ops1 V (Proc.devRef .tc main_arg7) = V (Proc.devRef .tc main_arg7) := by after_results_simp
theorem ops1_main_arg8 (V : Valuation τ sig (Elt F)) : after ops1 V (Proc.devRef .tc main_arg8) = V (Proc.devRef .tc main_arg8) := by after_results_simp
theorem ops1_main_arg9 (V : Valuation τ sig (Elt F)) : after ops1 V (Proc.devRef .tc main_arg9) = V (Proc.devRef .tc main_arg9) := by after_results_simp
theorem ops1_main_arg10 (V : Valuation τ sig (Elt F)) : after ops1 V (Proc.devRef .tc main_arg10) = V (Proc.devRef .tc main_arg10) := by after_results_simp

theorem ops2_main_arg0 (V : Valuation τ sig (Elt F)) : after ops2 V (Proc.devRef .tc main_arg0) = V (Proc.devRef .tc main_arg0) := by after_results_simp
theorem ops2_main_arg1 (V : Valuation τ sig (Elt F)) : after ops2 V (Proc.devRef .tc main_arg1) = V (Proc.devRef .tc main_arg1) := by after_results_simp
theorem ops2_main_arg2 (V : Valuation τ sig (Elt F)) : after ops2 V (Proc.devRef .tc main_arg2) = V (Proc.devRef .tc main_arg2) := by after_results_simp
theorem ops2_main_arg3 (V : Valuation τ sig (Elt F)) : after ops2 V (Proc.devRef .tc main_arg3) = V (Proc.devRef .tc main_arg3) := by after_results_simp
theorem ops2_main_arg4 (V : Valuation τ sig (Elt F)) : after ops2 V (Proc.devRef .tc main_arg4) = V (Proc.devRef .tc main_arg4) := by after_results_simp
theorem ops2_main_arg5 (V : Valuation τ sig (Elt F)) : after ops2 V (Proc.devRef .tc main_arg5) = V (Proc.devRef .tc main_arg5) := by after_results_simp
theorem ops2_main_arg6 (V : Valuation τ sig (Elt F)) : after ops2 V (Proc.devRef .tc main_arg6) = V (Proc.devRef .tc main_arg6) := by after_results_simp
theorem ops2_main_arg7 (V : Valuation τ sig (Elt F)) : after ops2 V (Proc.devRef .tc main_arg7) = V (Proc.devRef .tc main_arg7) := by after_results_simp
theorem ops2_main_arg8 (V : Valuation τ sig (Elt F)) : after ops2 V (Proc.devRef .tc main_arg8) = V (Proc.devRef .tc main_arg8) := by after_results_simp
theorem ops2_main_arg9 (V : Valuation τ sig (Elt F)) : after ops2 V (Proc.devRef .tc main_arg9) = V (Proc.devRef .tc main_arg9) := by after_results_simp
theorem ops2_main_arg10 (V : Valuation τ sig (Elt F)) : after ops2 V (Proc.devRef .tc main_arg10) = V (Proc.devRef .tc main_arg10) := by after_results_simp

theorem ops_main_arg0 (V : Valuation τ sig (Elt F)) : after ops V (Proc.devRef .tc main_arg0) = V (Proc.devRef .tc main_arg0) := by
  rw [after_ops, ops2_main_arg0, ops1_main_arg0, ops0_main_arg0]
theorem ops_main_arg1 (V : Valuation τ sig (Elt F)) : after ops V (Proc.devRef .tc main_arg1) = V (Proc.devRef .tc main_arg1) := by
  rw [after_ops, ops2_main_arg1, ops1_main_arg1, ops0_main_arg1]
theorem ops_main_arg2 (V : Valuation τ sig (Elt F)) : after ops V (Proc.devRef .tc main_arg2) = V (Proc.devRef .tc main_arg2) := by
  rw [after_ops, ops2_main_arg2, ops1_main_arg2, ops0_main_arg2]
theorem ops_main_arg3 (V : Valuation τ sig (Elt F)) : after ops V (Proc.devRef .tc main_arg3) = V (Proc.devRef .tc main_arg3) := by
  rw [after_ops, ops2_main_arg3, ops1_main_arg3, ops0_main_arg3]
theorem ops_main_arg4 (V : Valuation τ sig (Elt F)) : after ops V (Proc.devRef .tc main_arg4) = V (Proc.devRef .tc main_arg4) := by
  rw [after_ops, ops2_main_arg4, ops1_main_arg4, ops0_main_arg4]
theorem ops_main_arg5 (V : Valuation τ sig (Elt F)) : after ops V (Proc.devRef .tc main_arg5) = V (Proc.devRef .tc main_arg5) := by
  rw [after_ops, ops2_main_arg5, ops1_main_arg5, ops0_main_arg5]
theorem ops_main_arg6 (V : Valuation τ sig (Elt F)) : after ops V (Proc.devRef .tc main_arg6) = V (Proc.devRef .tc main_arg6) := by
  rw [after_ops, ops2_main_arg6, ops1_main_arg6, ops0_main_arg6]
theorem ops_main_arg7 (V : Valuation τ sig (Elt F)) : after ops V (Proc.devRef .tc main_arg7) = V (Proc.devRef .tc main_arg7) := by
  rw [after_ops, ops2_main_arg7, ops1_main_arg7, ops0_main_arg7]
theorem ops_main_arg8 (V : Valuation τ sig (Elt F)) : after ops V (Proc.devRef .tc main_arg8) = V (Proc.devRef .tc main_arg8) := by
  rw [after_ops, ops2_main_arg8, ops1_main_arg8, ops0_main_arg8]
theorem ops_main_arg9 (V : Valuation τ sig (Elt F)) : after ops V (Proc.devRef .tc main_arg9) = V (Proc.devRef .tc main_arg9) := by
  rw [after_ops, ops2_main_arg9, ops1_main_arg9, ops0_main_arg9]
theorem ops_main_arg10 (V : Valuation τ sig (Elt F)) : after ops V (Proc.devRef .tc main_arg10) = V (Proc.devRef .tc main_arg10) := by
  rw [after_ops, ops2_main_arg10, ops1_main_arg10, ops0_main_arg10]

/-- On every device, for any float values, from any memory with zero counters: every weakly fair execution of
    @main terminates with the result buffer at the operations' fold over the launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v108) = StableHlo.after ops (fun b => m (c, b)) (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨h c main_v108,
      (h c main_arg0).trans (ops_main_arg0 _),
      (h c main_arg1).trans (ops_main_arg1 _),
      (h c main_arg2).trans (ops_main_arg2 _),
      (h c main_arg3).trans (ops_main_arg3 _),
      (h c main_arg4).trans (ops_main_arg4 _),
      (h c main_arg5).trans (ops_main_arg5 _),
      (h c main_arg6).trans (ops_main_arg6 _),
      (h c main_arg7).trans (ops_main_arg7 _),
      (h c main_arg8).trans (ops_main_arg8 _),
      (h c main_arg9).trans (ops_main_arg9 _),
      (h c main_arg10).trans (ops_main_arg10 _)⟩)
    (run_seq scopedRefs_eq scopedSems_eq defs main (fun _ => ops) main_eq (fun _ => ops_sub) m ρ (fun _ => ops_fresh))

end Cert.ReferenceIdeal.RefRun

end
-- ==== Proof.Frames.lean ====
/-
  The three frame claims and the (empty) idealization ledger. Each kernel program's frame is its generated frame
  certificate; the reference has no kernel, and its frame is its run with the result forgotten.
-/
import proofs.«165154_j28441273434752_1_alg».proof.Defs
import proofs.«165154_j28441273434752_1_alg».proof.Proof.Gen.Kernel.Frame
import proofs.«165154_j28441273434752_1_alg».proof.Proof.Gen.KernelIdeal.Frame
import proofs.«165154_j28441273434752_1_alg».proof.Proof.Gen.ReferenceIdeal
import proofs.«165154_j28441273434752_1_alg».proof.Proof.Gen.Pre_finite_inputs
import proofs.«165154_j28441273434752_1_alg».proof.Proof.RefRun

noncomputable section

namespace Cert.Proof.Frames

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

end Cert.Proof.Frames

end
-- ==== Proof.KernelRun.lean ====
import proofs.«165154_j28441273434752_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- The run of @main with its result named: from any memory with zero counters every weakly fair execution on the
    TensorCores terminates, nothing faulting, and every final state holds, at the result buffer, the last boundary's
    contents `W12` there, and every argument array as launched. The same launch over the same segments as the frame
    claim; the final thread state is read at one more buffer. -/
theorem run : θ_run defs (onTc (τ := τ) (main (F := F))) ⟨m, fun _ => 0, ρ⟩ (fun r => ∀ c : Dev nD,
      r.2.mem ((c.tc : Thread nD τ).loc main_v92) = W12 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v92 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.KRun

end
-- ==== Proof.KernelChainDefs.lean ====
import proofs.«165154_j28441273434752_1_alg».proof.Proof.Gen.KernelIdeal

/-! # The kernel program's value as one pure term

The host operations between the six regions, composed: each region's output array is an arbitrary function of the
region's input arrays (`E0 N1 E2 N3 E4 N5`), and everything the host computes from the eleven arguments and those
outputs is spelt with the program's own operations. A three-layer message-passing network: layer 0 gathers the
embedding table's rows by node type, each layer gathers the node rows by an edge's source, appends the edge's
weights, applies the edge function, sums the results over each destination, scales by the reciprocal in-degree
(at least one), appends the mean to the node rows and applies the node function. -/

noncomputable section

namespace Cert.KernelIdeal.KChain

open Idealize.ShloMosaic
open Cert.KernelIdeal Cert.KernelIdeal.Gen

variable {F : FTy → Type} [FloatOps F]

/-! ## Shared by the layers -/

/-- The node types as a column of row numbers into the 32-row embedding table, a negative one counted from the end. -/
def kIdx50000 (a0 : (⟨S50000, .i32⟩ : BufTy).Contents (Elt F)) : (⟨S50000x1, .i32⟩ : BufTy).Contents (Elt F) :=
  broadcastInDim S50000x1 ![0] bcast_S50000_S50000x1_0
    (select (cmpi .slt a0 (broadcastInDim S50000 ![] bcast_S_S50000 (constantI S_ 32 0#32 : (⟨S_, .i32⟩ : BufTy).Contents (Elt F))))
      (addi a0 (broadcastInDim S50000 ![] bcast_S_S50000 (constantI S_ 32 32#32 : (⟨S_, .i32⟩ : BufTy).Contents (Elt F)))) a0)

/-- The initial node rows: the embedding table's row of each node's type. -/
def kH0 (a0 : (⟨S50000, .i32⟩ : BufTy).Contents (Elt F)) (a4 : (⟨S32x32, .f32⟩ : BufTy).Contents (Elt F)) : (⟨S50000x32, .f32⟩ : BufTy).Contents (Elt F) :=
  Host.gather gather_S32x32_S50000x1_S50000x32_1_0_n_n_0_1_132 a4 (kIdx50000 a0)

/-- The edges' sources as a column of row numbers into the 50000 node rows, a negative one counted from the end. -/
def kIdx800000 (a1 : (⟨S800000, .i32⟩ : BufTy).Contents (Elt F)) : (⟨S800000x1, .i32⟩ : BufTy).Contents (Elt F) :=
  broadcastInDim S800000x1 ![0] bcast_S800000_S800000x1_0
    (select (cmpi .slt a1 (broadcastInDim S800000 ![] bcast_S_S800000 (constantI S_ 32 0#32 : (⟨S_, .i32⟩ : BufTy).Contents (Elt F))))
      (addi a1 (broadcastInDim S800000 ![] bcast_S_S800000 (constantI S_ 32 50000#32 : (⟨S_, .i32⟩ : BufTy).Contents (Elt F)))) a1)

/-- The edges' destinations as a column. -/
def kDst (a2 : (⟨S800000, .i32⟩ : BufTy).Contents (Elt F)) : (⟨S800000x1, .i32⟩ : BufTy).Contents (Elt F) :=
  broadcastInDim S800000x1 ![0] bcast_S800000_S800000x1_0 a2

/-- The reciprocal of each node's in-degree, the in-degree taken as at least one: one over the larger of one and the
    number of edges that end at the node. -/
def kCntInv (a2 : (⟨S800000, .i32⟩ : BufTy).Contents (Elt F)) : (⟨S50000, .f32⟩ : BufTy).Contents (Elt F) :=
  Host.divf (broadcastInDim S50000 ![] bcast_S_S50000 (constant S_ .f32 0x3F800000#32 : (⟨S_, .f32⟩ : BufTy).Contents (Elt F)))
    (maximumf
      (Host.scatterAdd scatter_S50000_S800000x1_S800000_n_0_0_1 (broadcastInDim S50000 ![] bcast_S_S50000 (constant S_ .f32 0x00000000#32 : (⟨S_, .f32⟩ : BufTy).Contents (Elt F))) (kDst a2)
        (broadcastInDim S800000 ![] bcast_S_S800000 (constant S_ .f32 0x3F800000#32 : (⟨S_, .f32⟩ : BufTy).Contents (Elt F))))
      (broadcastInDim S50000 ![] bcast_S_S50000 (constant S_ .f32 0x3F800000#32 : (⟨S_, .f32⟩ : BufTy).Contents (Elt F))))

/-- The edge results summed over each destination node, from zero. -/
def kSum128 (a2 : (⟨S800000, .i32⟩ : BufTy).Contents (Elt F)) (r : (⟨S800000x128, .f32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant S_ .f32 0x00000000#32 : (⟨S_, .f32⟩ : BufTy).Contents (Elt F))) (kDst a2) r

/-- A per-node sum scaled by the node's reciprocal in-degree, the same factor along the row. -/
def kMean (s : (⟨S50000x128, .f32⟩ : BufTy).Contents (Elt F)) (cinv : (⟨S50000, .f32⟩ : BufTy).Contents (Elt F)) : (⟨S50000x128, .f32⟩ : BufTy).Contents (Elt F) :=
  mulf s (broadcastInDim S50000x128 ![0, 1] bcast_S50000x1_S50000x128_0_1
    (broadcastInDim S50000x1 ![0] bcast_S50000_S50000x1_0 cinv))

/-- A bias vector as a one-row matrix. -/
def kBias (b : (⟨S128, .f32⟩ : BufTy).Contents (Elt F)) : (⟨S1x128, .f32⟩ : BufTy).Contents (Elt F) := shapeCast S1x128 b shapeCasts_S128_S1x128

/-! ## Layer 0: node rows of width 32 -/

/-- The first edge region's left operand: each edge's source row beside the edge's three weights, rounded to bf16. -/
def kEdgeIn35 (h : (⟨S50000x32, .f32⟩ : BufTy).Contents (Elt F)) (a1 : (⟨S800000, .i32⟩ : BufTy).Contents (Elt F)) (a3 : (⟨S800000x3, .f32⟩ : BufTy).Contents (Elt F)) : (⟨S800000x35, .bf16⟩ : BufTy).Contents (Elt F) :=
  truncf .bf16 (concatenate S800000x35 1 [⟨S800000x32, Host.gather gather_S50000x32_S800000x1_S800000x32_1_0_n_n_0_1_132 h (kIdx800000 a1)⟩, ⟨S800000x3, a3⟩]
    concatenates_S800000x32_S800000x3_S800000x35_d1) bitsLt_bf16_f32

/-- The first node region's left operand: each node's row beside its mean message, rounded to bf16. -/
def kNodeIn160 (h : (⟨S50000x32, .f32⟩ : BufTy).Contents (Elt F)) (mean : (⟨S50000x128, .f32⟩ : BufTy).Contents (Elt F)) : (⟨S50000x160, .bf16⟩ : BufTy).Contents (Elt F) :=
  truncf .bf16 (concatenate S50000x160 1 [⟨S50000x32, h⟩, ⟨S50000x128, mean⟩] concatenates_S50000x32_S50000x128_S50000x160_d1) bitsLt_bf16_f32

/-- The first edge weight matrix rounded to bf16. -/
def kW35 (a5 : (⟨S128x35, .f32⟩ : BufTy).Contents (Elt F)) : (⟨S128x35, .bf16⟩ : BufTy).Contents (Elt F) := truncf .bf16 a5 bitsLt_bf16_f32
/-- The first node weight matrix rounded to bf16. -/
def kW160 (a6 : (⟨S128x160, .f32⟩ : BufTy).Contents (Elt F)) : (⟨S128x160, .bf16⟩ : BufTy).Contents (Elt F) := truncf .bf16 a6 bitsLt_bf16_f32

/-- Layer 0's node rows, for arbitrary edge and node functions. -/
def kLayer0 (E : (⟨S800000x35, .bf16⟩ : BufTy).Contents (Elt F) → (⟨S128x35, .bf16⟩ : BufTy).Contents (Elt F) → (⟨S800000x128, .f32⟩ : BufTy).Contents (Elt F))
    (N : (⟨S50000x160, .bf16⟩ : BufTy).Contents (Elt F) → (⟨S128x160, .bf16⟩ : BufTy).Contents (Elt F) → (⟨S1x128, .f32⟩ : BufTy).Contents (Elt F) → (⟨S50000x128, .f32⟩ : BufTy).Contents (Elt F))
    (h : (⟨S50000x32, .f32⟩ : BufTy).Contents (Elt F)) (a1 a2 : (⟨S800000, .i32⟩ : BufTy).Contents (Elt F)) (a3 : (⟨S800000x3, .f32⟩ : BufTy).Contents (Elt F)) (cinv : (⟨S50000, .f32⟩ : BufTy).Contents (Elt F))
    (a5 : (⟨S128x35, .f32⟩ : BufTy).Contents (Elt F)) (a6 : (⟨S128x160, .f32⟩ : BufTy).Contents (Elt F)) (a7 : (⟨S128, .f32⟩ : BufTy).Contents (Elt F)) : (⟨S50000x128, .f32⟩ : BufTy).Contents (Elt F) :=
  N (kNodeIn160 h (kMean (kSum128 a2 (E (kEdgeIn35 h a1 a3) (kW35 a5))) cinv)) (kW160 a6) (kBias a7)

/-! ## Layers 1 and 2: node rows of width 128, the weights the two slices of stacked arrays -/

/-- A later edge region's left operand: each edge's source row beside the edge's three weights, rounded to bf16. -/
def kEdgeIn131 (h : (⟨S50000x128, .f32⟩ : BufTy).Contents (Elt F)) (a1 : (⟨S800000, .i32⟩ : BufTy).Contents (Elt F)) (a3 : (⟨S800000x3, .f32⟩ : BufTy).Contents (Elt F)) : (⟨S800000x131, .bf16⟩ : BufTy).Contents (Elt F) :=
  truncf .bf16 (concatenate S800000x131 1 [⟨S800000x128, Host.gather gather_S50000x128_S800000x1_S800000x128_1_0_n_n_0_1_1128 h (kIdx800000 a1)⟩, ⟨S800000x3, a3⟩]
    concatenates_S800000x128_S800000x3_S800000x131_d1) bitsLt_bf16_f32

/-- A later node region's left operand: each node's row beside its mean message, rounded to bf16. -/
def kNodeIn256 (h : (⟨S50000x128, .f32⟩ : BufTy).Contents (Elt F)) (mean : (⟨S50000x128, .f32⟩ : BufTy).Contents (Elt F)) : (⟨S50000x256, .bf16⟩ : BufTy).Contents (Elt F) :=
  truncf .bf16 (concatenate S50000x256 1 [⟨S50000x128, h⟩, ⟨S50000x128, mean⟩] concatenates_S50000x128_S50000x128_S50000x256_d1) bitsLt_bf16_f32

/-- Slice 0 of the stacked edge weights, as a matrix (before rounding). -/
def kSl131_0 (a8 : (⟨S2x128x131, .f32⟩ : BufTy).Contents (Elt F)) : (⟨S128x131, .f32⟩ : BufTy).Contents (Elt F) :=
  shapeCast S128x131 (extractStridedSlice S1x128x131 ![0, 0, 0] a8 slices_S2x128x131_S1x128x131_0_0_0) shapeCasts_S1x128x131_S128x131
/-- Slice 1 of the stacked edge weights, as a matrix (before rounding). -/
def kSl131_1 (a8 : (⟨S2x128x131, .f32⟩ : BufTy).Contents (Elt F)) : (⟨S128x131, .f32⟩ : BufTy).Contents (Elt F) :=
  shapeCast S128x131 (extractStridedSlice S1x128x131 ![1, 0, 0] a8 slices_S2x128x131_S1x128x131_1_0_0) shapeCasts_S1x128x131_S128x131
/-- Slice 0 of the stacked node weights, as a matrix (before rounding). -/
def kSl256_0 (a9 : (⟨S2x128x256, .f32⟩ : BufTy).Contents (Elt F)) : (⟨S128x256, .f32⟩ : BufTy).Contents (Elt F) :=
  shapeCast S128x256 (extractStridedSlice S1x128x256 ![0, 0, 0] a9 slices_S2x128x256_S1x128x256_0_0_0) shapeCasts_S1x128x256_S128x256
/-- Slice 1 of the stacked node weights, as a matrix (before rounding). -/
def kSl256_1 (a9 : (⟨S2x128x256, .f32⟩ : BufTy).Contents (Elt F)) : (⟨S128x256, .f32⟩ : BufTy).Contents (Elt F) :=
  shapeCast S128x256 (extractStridedSlice S1x128x256 ![1, 0, 0] a9 slices_S2x128x256_S1x128x256_1_0_0) shapeCasts_S1x128x256_S128x256
/-- Row 0 of the stacked biases, as a vector. -/
def kSlB_0 (a10 : (⟨S2x128, .f32⟩ : BufTy).Contents (Elt F)) : (⟨S128, .f32⟩ : BufTy).Contents (Elt F) :=
  shapeCast S128 (extractStridedSlice S1x128 ![0, 0] a10 slices_S2x128_S1x128_0_0) shapeCasts_S1x128_S128
/-- Row 1 of the stacked biases, as a vector. -/
def kSlB_1 (a10 : (⟨S2x128, .f32⟩ : BufTy).Contents (Elt F)) : (⟨S128, .f32⟩ : BufTy).Contents (Elt F) :=
  shapeCast S128 (extractStridedSlice S1x128 ![1, 0] a10 slices_S2x128_S1x128_1_0) shapeCasts_S1x128_S128

/-- An edge weight matrix rounded to bf16. -/
def kW131 (w : (⟨S128x131, .f32⟩ : BufTy).Contents (Elt F)) : (⟨S128x131, .bf16⟩ : BufTy).Contents (Elt F) := truncf .bf16 w bitsLt_bf16_f32
/-- A node weight matrix rounded to bf16. -/
def kW256 (w : (⟨S128x256, .f32⟩ : BufTy).Contents (Elt F)) : (⟨S128x256, .bf16⟩ : BufTy).Contents (Elt F) := truncf .bf16 w bitsLt_bf16_f32

/-- A later layer's node rows from the previous layer's, for arbitrary edge and node functions and given weights. -/
def kLayer (E : (⟨S800000x131, .bf16⟩ : BufTy).Contents (Elt F) → (⟨S128x131, .bf16⟩ : BufTy).Contents (Elt F) → (⟨S800000x128, .f32⟩ : BufTy).Contents (Elt F))
    (N : (⟨S50000x256, .bf16⟩ : BufTy).Contents (Elt F) → (⟨S128x256, .bf16⟩ : BufTy).Contents (Elt F) → (⟨S1x128, .f32⟩ : BufTy).Contents (Elt F) → (⟨S50000x128, .f32⟩ : BufTy).Contents (Elt F))
    (h : (⟨S50000x128, .f32⟩ : BufTy).Contents (Elt F)) (a1 a2 : (⟨S800000, .i32⟩ : BufTy).Contents (Elt F)) (a3 : (⟨S800000x3, .f32⟩ : BufTy).Contents (Elt F)) (cinv : (⟨S50000, .f32⟩ : BufTy).Contents (Elt F))
    (w131 : (⟨S128x131, .f32⟩ : BufTy).Contents (Elt F)) (w256 : (⟨S128x256, .f32⟩ : BufTy).Contents (Elt F)) (b : (⟨S128, .f32⟩ : BufTy).Contents (Elt F)) : (⟨S50000x128, .f32⟩ : BufTy).Contents (Elt F) :=
  N (kNodeIn256 h (kMean (kSum128 a2 (E (kEdgeIn131 h a1 a3) (kW131 w131))) cinv)) (kW256 w256) (kBias b)

/-! ## The whole program -/

/-- The node rows after layer 0. -/
def kR1
    (E0 : (⟨S800000x35, .bf16⟩ : BufTy).Contents (Elt F) → (⟨S128x35, .bf16⟩ : BufTy).Contents (Elt F) → (⟨S800000x128, .f32⟩ : BufTy).Contents (Elt F))
    (N1 : (⟨S50000x160, .bf16⟩ : BufTy).Contents (Elt F) → (⟨S128x160, .bf16⟩ : BufTy).Contents (Elt F) → (⟨S1x128, .f32⟩ : BufTy).Contents (Elt F) → (⟨S50000x128, .f32⟩ : BufTy).Contents (Elt F))
    (a0 : (⟨S50000, .i32⟩ : BufTy).Contents (Elt F)) (a1 a2 : (⟨S800000, .i32⟩ : BufTy).Contents (Elt F)) (a3 : (⟨S800000x3, .f32⟩ : BufTy).Contents (Elt F)) (a4 : (⟨S32x32, .f32⟩ : BufTy).Contents (Elt F))
    (a5 : (⟨S128x35, .f32⟩ : BufTy).Contents (Elt F)) (a6 : (⟨S128x160, .f32⟩ : BufTy).Contents (Elt F)) (a7 : (⟨S128, .f32⟩ : BufTy).Contents (Elt F)) : (⟨S50000x128, .f32⟩ : BufTy).Contents (Elt F) :=
  kLayer0 E0 N1 (kH0 a0 a4) a1 a2 a3 (kCntInv a2) a5 a6 a7

/-- The node rows after layer 1. -/
def kR3
    (E0 : (⟨S800000x35, .bf16⟩ : BufTy).Contents (Elt F) → (⟨S128x35, .bf16⟩ : BufTy).Contents (Elt F) → (⟨S800000x128, .f32⟩ : BufTy).Contents (Elt F))
    (N1 : (⟨S50000x160, .bf16⟩ : BufTy).Contents (Elt F) → (⟨S128x160, .bf16⟩ : BufTy).Contents (Elt F) → (⟨S1x128, .f32⟩ : BufTy).Contents (Elt F) → (⟨S50000x128, .f32⟩ : BufTy).Contents (Elt F))
    (E2 : (⟨S800000x131, .bf16⟩ : BufTy).Contents (Elt F) → (⟨S128x131, .bf16⟩ : BufTy).Contents (Elt F) → (⟨S800000x128, .f32⟩ : BufTy).Contents (Elt F))
    (N3 : (⟨S50000x256, .bf16⟩ : BufTy).Contents (Elt F) → (⟨S128x256, .bf16⟩ : BufTy).Contents (Elt F) → (⟨S1x128, .f32⟩ : BufTy).Contents (Elt F) → (⟨S50000x128, .f32⟩ : BufTy).Contents (Elt F))
    (a0 : (⟨S50000, .i32⟩ : BufTy).Contents (Elt F)) (a1 a2 : (⟨S800000, .i32⟩ : BufTy).Contents (Elt F)) (a3 : (⟨S800000x3, .f32⟩ : BufTy).Contents (Elt F)) (a4 : (⟨S32x32, .f32⟩ : BufTy).Contents (Elt F))
    (a5 : (⟨S128x35, .f32⟩ : BufTy).Contents (Elt F)) (a6 : (⟨S128x160, .f32⟩ : BufTy).Contents (Elt F)) (a7 : (⟨S128, .f32⟩ : BufTy).Contents (Elt F))
    (a8 : (⟨S2x128x131, .f32⟩ : BufTy).Contents (Elt F)) (a9 : (⟨S2x128x256, .f32⟩ : BufTy).Contents (Elt F)) (a10 : (⟨S2x128, .f32⟩ : BufTy).Contents (Elt F)) : (⟨S50000x128, .f32⟩ : BufTy).Contents (Elt F) :=
  kLayer E2 N3 (kR1 E0 N1 a0 a1 a2 a3 a4 a5 a6 a7) a1 a2 a3 (kCntInv a2) (kSl131_0 a8) (kSl256_0 a9) (kSlB_0 a10)

/-- The program's result from its eleven arguments, the six regions arbitrary functions of their input arrays. -/
def kerVal
    (E0 : (⟨S800000x35, .bf16⟩ : BufTy).Contents (Elt F) → (⟨S128x35, .bf16⟩ : BufTy).Contents (Elt F) → (⟨S800000x128, .f32⟩ : BufTy).Contents (Elt F))
    (N1 : (⟨S50000x160, .bf16⟩ : BufTy).Contents (Elt F) → (⟨S128x160, .bf16⟩ : BufTy).Contents (Elt F) → (⟨S1x128, .f32⟩ : BufTy).Contents (Elt F) → (⟨S50000x128, .f32⟩ : BufTy).Contents (Elt F))
    (E2 : (⟨S800000x131, .bf16⟩ : BufTy).Contents (Elt F) → (⟨S128x131, .bf16⟩ : BufTy).Contents (Elt F) → (⟨S800000x128, .f32⟩ : BufTy).Contents (Elt F))
    (N3 : (⟨S50000x256, .bf16⟩ : BufTy).Contents (Elt F) → (⟨S128x256, .bf16⟩ : BufTy).Contents (Elt F) → (⟨S1x128, .f32⟩ : BufTy).Contents (Elt F) → (⟨S50000x128, .f32⟩ : BufTy).Contents (Elt F))
    (E4 : (⟨S800000x131, .bf16⟩ : BufTy).Contents (Elt F) → (⟨S128x131, .bf16⟩ : BufTy).Contents (Elt F) → (⟨S800000x128, .f32⟩ : BufTy).Contents (Elt F))
    (N5 : (⟨S50000x256, .bf16⟩ : BufTy).Contents (Elt F) → (⟨S128x256, .bf16⟩ : BufTy).Contents (Elt F) → (⟨S1x128, .f32⟩ : BufTy).Contents (Elt F) → (⟨S50000x128, .f32⟩ : BufTy).Contents (Elt F))
    (a0 : (⟨S50000, .i32⟩ : BufTy).Contents (Elt F)) (a1 a2 : (⟨S800000, .i32⟩ : BufTy).Contents (Elt F)) (a3 : (⟨S800000x3, .f32⟩ : BufTy).Contents (Elt F)) (a4 : (⟨S32x32, .f32⟩ : BufTy).Contents (Elt F))
    (a5 : (⟨S128x35, .f32⟩ : BufTy).Contents (Elt F)) (a6 : (⟨S128x160, .f32⟩ : BufTy).Contents (Elt F)) (a7 : (⟨S128, .f32⟩ : BufTy).Contents (Elt F))
    (a8 : (⟨S2x128x131, .f32⟩ : BufTy).Contents (Elt F)) (a9 : (⟨S2x128x256, .f32⟩ : BufTy).Contents (Elt F)) (a10 : (⟨S2x128, .f32⟩ : BufTy).Contents (Elt F)) : (⟨S50000x128, .f32⟩ : BufTy).Contents (Elt F) :=
  kLayer E4 N5 (kR3 E0 N1 E2 N3 a0 a1 a2 a3 a4 a5 a6 a7 a8 a9 a10) a1 a2 a3 (kCntInv a2) (kSl131_1 a8) (kSl256_1 a9) (kSlB_1 a10)

end Cert.KernelIdeal.KChain

end
-- ==== Proof.KernelChainHost0.lean ====
import proofs.«165154_j28441273434752_1_alg».proof.Proof.KernelChainDefs
import proofs.«165154_j28441273434752_1_alg».proof.Proof.Gen.KernelIdeal.Launch

set_option maxRecDepth 16384

/-! # Host stretch 0, read at the buffers later segments take

The stretch from ARBITRARY buffer contents `X`: what it leaves at each buffer a later region or stretch reads, as the
program's operations applied to `X` at the buffers the stretch reads; and the list of the buffers it writes, for the
buffers it leaves alone. -/

noncomputable section

namespace Cert.KernelIdeal.KChain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxHeartbeats 1000000

theorem s0_v6 (X : Valuation τ sig (Elt F)) : StableHlo.after hostOps0 X (Proc.devRef .tc main_v6)
    = kH0 (X (Proc.devRef .tc main_arg0)) (X (Proc.devRef .tc main_arg4)) := by
  dsimp only [hostOps0]; after_results_simp; rfl
theorem s0_v14 (X : Valuation τ sig (Elt F)) : StableHlo.after hostOps0 X (Proc.devRef .tc main_v14)
    = kCntInv (X (Proc.devRef .tc main_arg2)) := by
  dsimp only [hostOps0]; after_results_simp; rfl
theorem s0_v23 (X : Valuation τ sig (Elt F)) : StableHlo.after hostOps0 X (Proc.devRef .tc main_v23)
    = kEdgeIn35 (kH0 (X (Proc.devRef .tc main_arg0)) (X (Proc.devRef .tc main_arg4))) (X (Proc.devRef .tc main_arg1)) (X (Proc.devRef .tc main_arg3)) := by
  dsimp only [hostOps0]; after_results_simp; rfl
theorem s0_v24 (X : Valuation τ sig (Elt F)) : StableHlo.after hostOps0 X (Proc.devRef .tc main_v24)
    = kW35 (X (Proc.devRef .tc main_arg5)) := by
  dsimp only [hostOps0]; after_results_simp; rfl

/-- The buffers stretch 0's operations write. -/
abbrev host0_W : List (Ref sig .tc) := [main_c, main_v0, main_v1, main_c_0, main_v2, main_v3, main_v4, main_v5, main_v6, main_cst, main_v7, main_cst_1, main_v8, main_v9, main_v10, main_cst_2, main_v11, main_v12, main_cst_3, main_v13, main_v14, main_c_4, main_v15, main_v16, main_c_5, main_v17, main_v18, main_v19, main_v20, main_v21, main_v22, main_v23, main_v24]
theorem host0_writes : (hostOps0 : List (HloOp τ sig (Elt F))).Forall fun op => op.writes ⊆ (host0_W.map (Proc.devRef (τ := τ) .tc)).toFinset := by
  simp only [hostOps0, List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)
/-- A buffer stretch 0 does not write keeps its contents. -/
theorem skip0 (X : Valuation τ sig (Elt F)) (r : Ref sig .tc) (h : r ∉ host0_W) :
    StableHlo.after hostOps0 X (Proc.devRef .tc r) = X (Proc.devRef .tc r) :=
  StableHlo.after_of_writes_sub hostOps0 X host0_writes h

end Cert.KernelIdeal.KChain

end
-- ==== Proof.KernelChainHost1.lean ====
import proofs.«165154_j28441273434752_1_alg».proof.Proof.KernelChainDefs
import proofs.«165154_j28441273434752_1_alg».proof.Proof.Gen.KernelIdeal.Launch

set_option maxRecDepth 16384

/-! # Host stretch 1, read at the buffers later segments take

The stretch from ARBITRARY buffer contents `X`: what it leaves at each buffer a later region or stretch reads, as the
program's operations applied to `X` at the buffers the stretch reads; and the list of the buffers it writes, for the
buffers it leaves alone. -/

noncomputable section

namespace Cert.KernelIdeal.KChain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem s1_v33 (X : Valuation τ sig (Elt F)) : StableHlo.after hostOps1 X (Proc.devRef .tc main_v33)
    = kNodeIn160 (X (Proc.devRef .tc main_v6)) (kMean (kSum128 (X (Proc.devRef .tc main_arg2)) (X (Proc.devRef .tc main_v25))) (X (Proc.devRef .tc main_v14))) := by
  dsimp only [hostOps1]; after_results; rfl
theorem s1_v34 (X : Valuation τ sig (Elt F)) : StableHlo.after hostOps1 X (Proc.devRef .tc main_v34)
    = kW160 (X (Proc.devRef .tc main_arg6)) := by
  dsimp only [hostOps1]; after_results; rfl
theorem s1_v35 (X : Valuation τ sig (Elt F)) : StableHlo.after hostOps1 X (Proc.devRef .tc main_v35)
    = kBias (X (Proc.devRef .tc main_arg7)) := by
  dsimp only [hostOps1]; after_results; rfl

/-- The buffers stretch 1's operations write. -/
abbrev host1_W : List (Ref sig .tc) := [main_cst_6, main_v26, main_v27, main_v28, main_v29, main_v30, main_v31, main_v32, main_v33, main_v34, main_v35]
theorem host1_writes : (hostOps1 : List (HloOp τ sig (Elt F))).Forall fun op => op.writes ⊆ (host1_W.map (Proc.devRef (τ := τ) .tc)).toFinset := by
  simp only [hostOps1, List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)
/-- A buffer stretch 1 does not write keeps its contents. -/
theorem skip1 (X : Valuation τ sig (Elt F)) (r : Ref sig .tc) (h : r ∉ host1_W) :
    StableHlo.after hostOps1 X (Proc.devRef .tc r) = X (Proc.devRef .tc r) :=
  StableHlo.after_of_writes_sub hostOps1 X host1_writes h

end Cert.KernelIdeal.KChain

end
-- ==== Proof.KernelChainHost2.lean ====
import proofs.«165154_j28441273434752_1_alg».proof.Proof.KernelChainDefs
import proofs.«165154_j28441273434752_1_alg».proof.Proof.Gen.KernelIdeal.Launch

set_option maxRecDepth 16384

/-! # Host stretch 2, read at the buffers later segments take

The stretch from ARBITRARY buffer contents `X`: what it leaves at each buffer a later region or stretch reads, as the
program's operations applied to `X` at the buffers the stretch reads; and the list of the buffers it writes, for the
buffers it leaves alone. -/

noncomputable section

namespace Cert.KernelIdeal.KChain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxHeartbeats 1000000

theorem s2_v51 (X : Valuation τ sig (Elt F)) : StableHlo.after hostOps2 X (Proc.devRef .tc main_v51)
    = kEdgeIn131 (X (Proc.devRef .tc main_v36)) (X (Proc.devRef .tc main_arg1)) (X (Proc.devRef .tc main_arg3)) := by
  dsimp only [hostOps2]; after_results_simp; rfl
theorem s2_v52 (X : Valuation τ sig (Elt F)) : StableHlo.after hostOps2 X (Proc.devRef .tc main_v52)
    = kW131 (kSl131_0 (X (Proc.devRef .tc main_arg8))) := by
  dsimp only [hostOps2]; after_results_simp; rfl
theorem s2_v40 (X : Valuation τ sig (Elt F)) : StableHlo.after hostOps2 X (Proc.devRef .tc main_v40)
    = kSl256_0 (X (Proc.devRef .tc main_arg9)) := by
  dsimp only [hostOps2]; after_results_simp; rfl
theorem s2_v42 (X : Valuation τ sig (Elt F)) : StableHlo.after hostOps2 X (Proc.devRef .tc main_v42)
    = kSlB_0 (X (Proc.devRef .tc main_arg10)) := by
  dsimp only [hostOps2]; after_results_simp; rfl

/-- The buffers stretch 2's operations write. -/
abbrev host2_W : List (Ref sig .tc) := [main_v37, main_v38, main_v39, main_v40, main_v41, main_v42, main_c_7, main_v43, main_v44, main_c_8, main_v45, main_v46, main_v47, main_v48, main_v49, main_v50, main_v51, main_v52]
theorem host2_writes : (hostOps2 : List (HloOp τ sig (Elt F))).Forall fun op => op.writes ⊆ (host2_W.map (Proc.devRef (τ := τ) .tc)).toFinset := by
  simp only [hostOps2, List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)
/-- A buffer stretch 2 does not write keeps its contents. -/
theorem skip2 (X : Valuation τ sig (Elt F)) (r : Ref sig .tc) (h : r ∉ host2_W) :
    StableHlo.after hostOps2 X (Proc.devRef .tc r) = X (Proc.devRef .tc r) :=
  StableHlo.after_of_writes_sub hostOps2 X host2_writes h

end Cert.KernelIdeal.KChain

end
-- ==== Proof.KernelChainHost3.lean ====
import proofs.«165154_j28441273434752_1_alg».proof.Proof.KernelChainDefs
import proofs.«165154_j28441273434752_1_alg».proof.Proof.Gen.KernelIdeal.Launch

set_option maxRecDepth 16384

/-! # Host stretch 3, read at the buffers later segments take

The stretch from ARBITRARY buffer contents `X`: what it leaves at each buffer a later region or stretch reads, as the
program's operations applied to `X` at the buffers the stretch reads; and the list of the buffers it writes, for the
buffers it leaves alone. -/

noncomputable section

namespace Cert.KernelIdeal.KChain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem s3_v61 (X : Valuation τ sig (Elt F)) : StableHlo.after hostOps3 X (Proc.devRef .tc main_v61)
    = kNodeIn256 (X (Proc.devRef .tc main_v36)) (kMean (kSum128 (X (Proc.devRef .tc main_arg2)) (X (Proc.devRef .tc main_v53))) (X (Proc.devRef .tc main_v14))) := by
  dsimp only [hostOps3]; after_results; rfl
theorem s3_v62 (X : Valuation τ sig (Elt F)) : StableHlo.after hostOps3 X (Proc.devRef .tc main_v62)
    = kW256 (X (Proc.devRef .tc main_v40)) := by
  dsimp only [hostOps3]; after_results; rfl
theorem s3_v63 (X : Valuation τ sig (Elt F)) : StableHlo.after hostOps3 X (Proc.devRef .tc main_v63)
    = kBias (X (Proc.devRef .tc main_v42)) := by
  dsimp only [hostOps3]; after_results; rfl

/-- The buffers stretch 3's operations write. -/
abbrev host3_W : List (Ref sig .tc) := [main_cst_9, main_v54, main_v55, main_v56, main_v57, main_v58, main_v59, main_v60, main_v61, main_v62, main_v63]
theorem host3_writes : (hostOps3 : List (HloOp τ sig (Elt F))).Forall fun op => op.writes ⊆ (host3_W.map (Proc.devRef (τ := τ) .tc)).toFinset := by
  simp only [hostOps3, List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)
/-- A buffer stretch 3 does not write keeps its contents. -/
theorem skip3 (X : Valuation τ sig (Elt F)) (r : Ref sig .tc) (h : r ∉ host3_W) :
    StableHlo.after hostOps3 X (Proc.devRef .tc r) = X (Proc.devRef .tc r) :=
  StableHlo.after_of_writes_sub hostOps3 X host3_writes h

end Cert.KernelIdeal.KChain

end
-- ==== Proof.KernelChainHost4.lean ====
import proofs.«165154_j28441273434752_1_alg».proof.Proof.KernelChainDefs
import proofs.«165154_j28441273434752_1_alg».proof.Proof.Gen.KernelIdeal.Launch

set_option maxRecDepth 16384

/-! # Host stretch 4, read at the buffers later segments take

The stretch from ARBITRARY buffer contents `X`: what it leaves at each buffer a later region or stretch reads, as the
program's operations applied to `X` at the buffers the stretch reads; and the list of the buffers it writes, for the
buffers it leaves alone. -/

noncomputable section

namespace Cert.KernelIdeal.KChain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxHeartbeats 1000000

theorem s4_v79 (X : Valuation τ sig (Elt F)) : StableHlo.after hostOps4 X (Proc.devRef .tc main_v79)
    = kEdgeIn131 (X (Proc.devRef .tc main_v64)) (X (Proc.devRef .tc main_arg1)) (X (Proc.devRef .tc main_arg3)) := by
  dsimp only [hostOps4]; after_results_simp; rfl
theorem s4_v80 (X : Valuation τ sig (Elt F)) : StableHlo.after hostOps4 X (Proc.devRef .tc main_v80)
    = kW131 (kSl131_1 (X (Proc.devRef .tc main_arg8))) := by
  dsimp only [hostOps4]; after_results_simp; rfl
theorem s4_v68 (X : Valuation τ sig (Elt F)) : StableHlo.after hostOps4 X (Proc.devRef .tc main_v68)
    = kSl256_1 (X (Proc.devRef .tc main_arg9)) := by
  dsimp only [hostOps4]; after_results_simp; rfl
theorem s4_v70 (X : Valuation τ sig (Elt F)) : StableHlo.after hostOps4 X (Proc.devRef .tc main_v70)
    = kSlB_1 (X (Proc.devRef .tc main_arg10)) := by
  dsimp only [hostOps4]; after_results_simp; rfl

/-- The buffers stretch 4's operations write. -/
abbrev host4_W : List (Ref sig .tc) := [main_v65, main_v66, main_v67, main_v68, main_v69, main_v70, main_c_10, main_v71, main_v72, main_c_11, main_v73, main_v74, main_v75, main_v76, main_v77, main_v78, main_v79, main_v80]
theorem host4_writes : (hostOps4 : List (HloOp τ sig (Elt F))).Forall fun op => op.writes ⊆ (host4_W.map (Proc.devRef (τ := τ) .tc)).toFinset := by
  simp only [hostOps4, List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)
/-- A buffer stretch 4 does not write keeps its contents. -/
theorem skip4 (X : Valuation τ sig (Elt F)) (r : Ref sig .tc) (h : r ∉ host4_W) :
    StableHlo.after hostOps4 X (Proc.devRef .tc r) = X (Proc.devRef .tc r) :=
  StableHlo.after_of_writes_sub hostOps4 X host4_writes h

end Cert.KernelIdeal.KChain

end
-- ==== Proof.KernelChainHost5.lean ====
import proofs.«165154_j28441273434752_1_alg».proof.Proof.KernelChainDefs
import proofs.«165154_j28441273434752_1_alg».proof.Proof.Gen.KernelIdeal.Launch

set_option maxRecDepth 16384

/-! # Host stretch 5, read at the buffers later segments take

The stretch from ARBITRARY buffer contents `X`: what it leaves at each buffer a later region or stretch reads, as the
program's operations applied to `X` at the buffers the stretch reads; and the list of the buffers it writes, for the
buffers it leaves alone. -/

noncomputable section

namespace Cert.KernelIdeal.KChain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem s5_v89 (X : Valuation τ sig (Elt F)) : StableHlo.after hostOps5 X (Proc.devRef .tc main_v89)
    = kNodeIn256 (X (Proc.devRef .tc main_v64)) (kMean (kSum128 (X (Proc.devRef .tc main_arg2)) (X (Proc.devRef .tc main_v81))) (X (Proc.devRef .tc main_v14))) := by
  dsimp only [hostOps5]; after_results; rfl
theorem s5_v90 (X : Valuation τ sig (Elt F)) : StableHlo.after hostOps5 X (Proc.devRef .tc main_v90)
    = kW256 (X (Proc.devRef .tc main_v68)) := by
  dsimp only [hostOps5]; after_results; rfl
theorem s5_v91 (X : Valuation τ sig (Elt F)) : StableHlo.after hostOps5 X (Proc.devRef .tc main_v91)
    = kBias (X (Proc.devRef .tc main_v70)) := by
  dsimp only [hostOps5]; after_results; rfl

/-- The buffers stretch 5's operations write. -/
abbrev host5_W : List (Ref sig .tc) := [main_cst_12, main_v82, main_v83, main_v84, main_v85, main_v86, main_v87, main_v88, main_v89, main_v90, main_v91]
theorem host5_writes : (hostOps5 : List (HloOp τ sig (Elt F))).Forall fun op => op.writes ⊆ (host5_W.map (Proc.devRef (τ := τ) .tc)).toFinset := by
  simp only [hostOps5, List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)
/-- A buffer stretch 5 does not write keeps its contents. -/
theorem skip5 (X : Valuation τ sig (Elt F)) (r : Ref sig .tc) (h : r ∉ host5_W) :
    StableHlo.after hostOps5 X (Proc.devRef .tc r) = X (Proc.devRef .tc r) :=
  StableHlo.after_of_writes_sub hostOps5 X host5_writes h

end Cert.KernelIdeal.KChain

end
-- ==== Proof.KernelChain.lean ====
import proofs.«165154_j28441273434752_1_alg».proof.Proof.Gen.KernelIdeal.Frame
import proofs.«165154_j28441273434752_1_alg».proof.Proof.KernelChainHost0
import proofs.«165154_j28441273434752_1_alg».proof.Proof.KernelChainHost1
import proofs.«165154_j28441273434752_1_alg».proof.Proof.KernelChainHost2
import proofs.«165154_j28441273434752_1_alg».proof.Proof.KernelChainHost3
import proofs.«165154_j28441273434752_1_alg».proof.Proof.KernelChainHost4
import proofs.«165154_j28441273434752_1_alg».proof.Proof.KernelChainHost5

set_option maxRecDepth 16384

/-! # The result buffer's contents at the last boundary, as the composed term

The buffer contents at the twelve segment boundaries are a fold from the launch memory. Walked backwards from the
result buffer: a region's output array is the region's function of its input arrays at the region's entry; an input
array at a region's entry is a host stretch's term over the contents at the stretch's entry; a buffer a segment does
not write holds what it held before the segment. Each region's function is a parameter, with the hypothesis that the
region's output array after its last write-back is that function of the input arrays. -/

noncomputable section

namespace Cert.KernelIdeal.KChain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## What is assumed of each region

At ANY contents `V` at the region's entry, the output array after the last grid point's write-back is a given function
of the input arrays as `V` has them. -/

def Region0Is (E0 : (⟨S800000x35, .bf16⟩ : BufTy).Contents (Elt F) → (⟨S128x35, .bf16⟩ : BufTy).Contents (Elt F) → (⟨S800000x128, .f32⟩ : BufTy).Contents (Elt F)) : Prop :=
  ∀ (V : (c : Dev nD) → (b : Ref sig .tc) → Buf (Elt F) ((c : Thread nD τ).loc b)) (c : Dev nD), (dat0 V c).arrAt 2 cfg0.N = E0 (V c main_v23) (V c main_v24)
def Region1Is (N1 : (⟨S50000x160, .bf16⟩ : BufTy).Contents (Elt F) → (⟨S128x160, .bf16⟩ : BufTy).Contents (Elt F) → (⟨S1x128, .f32⟩ : BufTy).Contents (Elt F) → (⟨S50000x128, .f32⟩ : BufTy).Contents (Elt F)) : Prop :=
  ∀ (V : (c : Dev nD) → (b : Ref sig .tc) → Buf (Elt F) ((c : Thread nD τ).loc b)) (c : Dev nD), (dat1 V c).arrAt 3 cfg1.N = N1 (V c main_v33) (V c main_v34) (V c main_v35)
def Region2Is (E2 : (⟨S800000x131, .bf16⟩ : BufTy).Contents (Elt F) → (⟨S128x131, .bf16⟩ : BufTy).Contents (Elt F) → (⟨S800000x128, .f32⟩ : BufTy).Contents (Elt F)) : Prop :=
  ∀ (V : (c : Dev nD) → (b : Ref sig .tc) → Buf (Elt F) ((c : Thread nD τ).loc b)) (c : Dev nD), (dat2 V c).arrAt 2 cfg2.N = E2 (V c main_v51) (V c main_v52)
def Region3Is (N3 : (⟨S50000x256, .bf16⟩ : BufTy).Contents (Elt F) → (⟨S128x256, .bf16⟩ : BufTy).Contents (Elt F) → (⟨S1x128, .f32⟩ : BufTy).Contents (Elt F) → (⟨S50000x128, .f32⟩ : BufTy).Contents (Elt F)) : Prop :=
  ∀ (V : (c : Dev nD) → (b : Ref sig .tc) → Buf (Elt F) ((c : Thread nD τ).loc b)) (c : Dev nD), (dat3 V c).arrAt 3 cfg3.N = N3 (V c main_v61) (V c main_v62) (V c main_v63)
def Region4Is (E4 : (⟨S800000x131, .bf16⟩ : BufTy).Contents (Elt F) → (⟨S128x131, .bf16⟩ : BufTy).Contents (Elt F) → (⟨S800000x128, .f32⟩ : BufTy).Contents (Elt F)) : Prop :=
  ∀ (V : (c : Dev nD) → (b : Ref sig .tc) → Buf (Elt F) ((c : Thread nD τ).loc b)) (c : Dev nD), (dat4 V c).arrAt 2 cfg4.N = E4 (V c main_v79) (V c main_v80)
def Region5Is (N5 : (⟨S50000x256, .bf16⟩ : BufTy).Contents (Elt F) → (⟨S128x256, .bf16⟩ : BufTy).Contents (Elt F) → (⟨S1x128, .f32⟩ : BufTy).Contents (Elt F) → (⟨S50000x128, .f32⟩ : BufTy).Contents (Elt F)) : Prop :=
  ∀ (V : (c : Dev nD) → (b : Ref sig .tc) → Buf (Elt F) ((c : Thread nD τ).loc b)) (c : Dev nD), (dat5 V c).arrAt 3 cfg5.N = N5 (V c main_v89) (V c main_v90) (V c main_v91)

/-! ## The later stretches from known contents

A stretch's result when the contents it starts from are known, by equations, at the buffers it reads. -/

theorem s1_v33_of (X : Valuation τ sig (Elt F)) {h : (⟨S50000x32, .f32⟩ : BufTy).Contents (Elt F)} {s : (⟨S800000x128, .f32⟩ : BufTy).Contents (Elt F)} {a2 : (⟨S800000, .i32⟩ : BufTy).Contents (Elt F)} {ci : (⟨S50000, .f32⟩ : BufTy).Contents (Elt F)}
    (e1 : X (Proc.devRef .tc main_v6) = h) (e2 : X (Proc.devRef .tc main_arg2) = a2) (e3 : X (Proc.devRef .tc main_v25) = s) (e4 : X (Proc.devRef .tc main_v14) = ci) :
    StableHlo.after hostOps1 X (Proc.devRef .tc main_v33) = kNodeIn160 h (kMean (kSum128 a2 s) ci) := by
  subst e1 e2 e3 e4; exact s1_v33 X
theorem s1_v34_of (X : Valuation τ sig (Elt F)) {w : (⟨S128x160, .f32⟩ : BufTy).Contents (Elt F)} (e : X (Proc.devRef .tc main_arg6) = w) :
    StableHlo.after hostOps1 X (Proc.devRef .tc main_v34) = kW160 w := by
  subst e; exact s1_v34 X
theorem s1_v35_of (X : Valuation τ sig (Elt F)) {b : (⟨S128, .f32⟩ : BufTy).Contents (Elt F)} (e : X (Proc.devRef .tc main_arg7) = b) :
    StableHlo.after hostOps1 X (Proc.devRef .tc main_v35) = kBias b := by
  subst e; exact s1_v35 X

theorem s2_v51_of (X : Valuation τ sig (Elt F)) {h : (⟨S50000x128, .f32⟩ : BufTy).Contents (Elt F)} {a1 : (⟨S800000, .i32⟩ : BufTy).Contents (Elt F)} {a3 : (⟨S800000x3, .f32⟩ : BufTy).Contents (Elt F)}
    (e1 : X (Proc.devRef .tc main_v36) = h) (e2 : X (Proc.devRef .tc main_arg1) = a1) (e3 : X (Proc.devRef .tc main_arg3) = a3) :
    StableHlo.after hostOps2 X (Proc.devRef .tc main_v51) = kEdgeIn131 h a1 a3 := by
  subst e1 e2 e3; exact s2_v51 X
theorem s2_v52_of (X : Valuation τ sig (Elt F)) {a8 : (⟨S2x128x131, .f32⟩ : BufTy).Contents (Elt F)} (e : X (Proc.devRef .tc main_arg8) = a8) :
    StableHlo.after hostOps2 X (Proc.devRef .tc main_v52) = kW131 (kSl131_0 a8) := by
  subst e; exact s2_v52 X

theorem s3_v61_of (X : Valuation τ sig (Elt F)) {h : (⟨S50000x128, .f32⟩ : BufTy).Contents (Elt F)} {s : (⟨S800000x128, .f32⟩ : BufTy).Contents (Elt F)} {a2 : (⟨S800000, .i32⟩ : BufTy).Contents (Elt F)} {ci : (⟨S50000, .f32⟩ : BufTy).Contents (Elt F)}
    (e1 : X (Proc.devRef .tc main_v36) = h) (e2 : X (Proc.devRef .tc main_arg2) = a2) (e3 : X (Proc.devRef .tc main_v53) = s) (e4 : X (Proc.devRef .tc main_v14) = ci) :
    StableHlo.after hostOps3 X (Proc.devRef .tc main_v61) = kNodeIn256 h (kMean (kSum128 a2 s) ci) := by
  subst e1 e2 e3 e4; exact s3_v61 X
theorem s3_v62_of (X : Valuation τ sig (Elt F)) {w : (⟨S128x256, .f32⟩ : BufTy).Contents (Elt F)} (e : X (Proc.devRef .tc main_v40) = w) :
    StableHlo.after hostOps3 X (Proc.devRef .tc main_v62) = kW256 w := by
  subst e; exact s3_v62 X
theorem s3_v63_of (X : Valuation τ sig (Elt F)) {b : (⟨S128, .f32⟩ : BufTy).Contents (Elt F)} (e : X (Proc.devRef .tc main_v42) = b) :
    StableHlo.after hostOps3 X (Proc.devRef .tc main_v63) = kBias b := by
  subst e; exact s3_v63 X

theorem s4_v79_of (X : Valuation τ sig (Elt F)) {h : (⟨S50000x128, .f32⟩ : BufTy).Contents (Elt F)} {a1 : (⟨S800000, .i32⟩ : BufTy).Contents (Elt F)} {a3 : (⟨S800000x3, .f32⟩ : BufTy).Contents (Elt F)}
    (e1 : X (Proc.devRef .tc main_v64) = h) (e2 : X (Proc.devRef .tc main_arg1) = a1) (e3 : X (Proc.devRef .tc main_arg3) = a3) :
    StableHlo.after hostOps4 X (Proc.devRef .tc main_v79) = kEdgeIn131 h a1 a3 := by
  subst e1 e2 e3; exact s4_v79 X
theorem s4_v80_of (X : Valuation τ sig (Elt F)) {a8 : (⟨S2x128x131, .f32⟩ : BufTy).Contents (Elt F)} (e : X (Proc.devRef .tc main_arg8) = a8) :
    StableHlo.after hostOps4 X (Proc.devRef .tc main_v80) = kW131 (kSl131_1 a8) := by
  subst e; exact s4_v80 X

theorem s5_v89_of (X : Valuation τ sig (Elt F)) {h : (⟨S50000x128, .f32⟩ : BufTy).Contents (Elt F)} {s : (⟨S800000x128, .f32⟩ : BufTy).Contents (Elt F)} {a2 : (⟨S800000, .i32⟩ : BufTy).Contents (Elt F)} {ci : (⟨S50000, .f32⟩ : BufTy).Contents (Elt F)}
    (e1 : X (Proc.devRef .tc main_v64) = h) (e2 : X (Proc.devRef .tc main_arg2) = a2) (e3 : X (Proc.devRef .tc main_v81) = s) (e4 : X (Proc.devRef .tc main_v14) = ci) :
    StableHlo.after hostOps5 X (Proc.devRef .tc main_v89) = kNodeIn256 h (kMean (kSum128 a2 s) ci) := by
  subst e1 e2 e3 e4; exact s5_v89 X
theorem s5_v90_of (X : Valuation τ sig (Elt F)) {w : (⟨S128x256, .f32⟩ : BufTy).Contents (Elt F)} (e : X (Proc.devRef .tc main_v68) = w) :
    StableHlo.after hostOps5 X (Proc.devRef .tc main_v90) = kW256 w := by
  subst e; exact s5_v90 X
theorem s5_v91_of (X : Valuation τ sig (Elt F)) {b : (⟨S128, .f32⟩ : BufTy).Contents (Elt F)} (e : X (Proc.devRef .tc main_v70) = b) :
    StableHlo.after hostOps5 X (Proc.devRef .tc main_v91) = kBias b := by
  subst e; exact s5_v91 X

variable (m : (ℓ : Loc nD τ sig) → Buf (Elt F) ℓ) (ρ : Dev nD → PrngReg)

/-! ## A buffer neither a stretch nor the region after it writes -/

theorem down0 (c : Dev nD) (r : Ref sig .tc) (h : r ∉ host0_W) (g : ∀ w, Pipeline.arrRef spec0 w ≠ r) :
    W2 m ρ c (Proc.devRef .tc r) = W0 m ρ c (Proc.devRef .tc r) :=
  (W2_of_ne m ρ c r g).trans (skip0 (W0 m ρ c) r h)
theorem down1 (c : Dev nD) (r : Ref sig .tc) (h : r ∉ host1_W) (g : ∀ w, Pipeline.arrRef spec1 w ≠ r) :
    W4 m ρ c (Proc.devRef .tc r) = W2 m ρ c (Proc.devRef .tc r) :=
  (W4_of_ne m ρ c r g).trans (skip1 (W2 m ρ c) r h)
theorem down2 (c : Dev nD) (r : Ref sig .tc) (h : r ∉ host2_W) (g : ∀ w, Pipeline.arrRef spec2 w ≠ r) :
    W6 m ρ c (Proc.devRef .tc r) = W4 m ρ c (Proc.devRef .tc r) :=
  (W6_of_ne m ρ c r g).trans (skip2 (W4 m ρ c) r h)
theorem down3 (c : Dev nD) (r : Ref sig .tc) (h : r ∉ host3_W) (g : ∀ w, Pipeline.arrRef spec3 w ≠ r) :
    W8 m ρ c (Proc.devRef .tc r) = W6 m ρ c (Proc.devRef .tc r) :=
  (W8_of_ne m ρ c r g).trans (skip3 (W6 m ρ c) r h)
theorem down4 (c : Dev nD) (r : Ref sig .tc) (h : r ∉ host4_W) (g : ∀ w, Pipeline.arrRef spec4 w ≠ r) :
    W10 m ρ c (Proc.devRef .tc r) = W8 m ρ c (Proc.devRef .tc r) :=
  (W10_of_ne m ρ c r g).trans (skip4 (W8 m ρ c) r h)

/-! ## A buffer nothing has written yet holds the launch contents -/

theorem W2_at (c : Dev nD) (r : Ref sig .tc) (h0 : r ∉ host0_W) (g0 : ∀ w, Pipeline.arrRef spec0 w ≠ r) :
    W2 m ρ c (Proc.devRef .tc r) = m ((c.tc : Thread nD τ).loc r) := (down0 m ρ c r h0 g0).trans rfl
theorem W4_at (c : Dev nD) (r : Ref sig .tc) (h0 : r ∉ host0_W) (g0 : ∀ w, Pipeline.arrRef spec0 w ≠ r) (h1 : r ∉ host1_W) (g1 : ∀ w, Pipeline.arrRef spec1 w ≠ r) :
    W4 m ρ c (Proc.devRef .tc r) = m ((c.tc : Thread nD τ).loc r) :=
  (down1 m ρ c r h1 g1).trans (W2_at m ρ c r h0 g0)
theorem W6_at (c : Dev nD) (r : Ref sig .tc) (h0 : r ∉ host0_W) (g0 : ∀ w, Pipeline.arrRef spec0 w ≠ r) (h1 : r ∉ host1_W) (g1 : ∀ w, Pipeline.arrRef spec1 w ≠ r) (h2 : r ∉ host2_W) (g2 : ∀ w, Pipeline.arrRef spec2 w ≠ r) :
    W6 m ρ c (Proc.devRef .tc r) = m ((c.tc : Thread nD τ).loc r) :=
  (down2 m ρ c r h2 g2).trans (W4_at m ρ c r h0 g0 h1 g1)
theorem W8_at (c : Dev nD) (r : Ref sig .tc) (h0 : r ∉ host0_W) (g0 : ∀ w, Pipeline.arrRef spec0 w ≠ r) (h1 : r ∉ host1_W) (g1 : ∀ w, Pipeline.arrRef spec1 w ≠ r) (h2 : r ∉ host2_W) (g2 : ∀ w, Pipeline.arrRef spec2 w ≠ r) (h3 : r ∉ host3_W) (g3 : ∀ w, Pipeline.arrRef spec3 w ≠ r) :
    W8 m ρ c (Proc.devRef .tc r) = m ((c.tc : Thread nD τ).loc r) :=
  (down3 m ρ c r h3 g3).trans (W6_at m ρ c r h0 g0 h1 g1 h2 g2)
theorem W10_at (c : Dev nD) (r : Ref sig .tc) (h0 : r ∉ host0_W) (g0 : ∀ w, Pipeline.arrRef spec0 w ≠ r) (h1 : r ∉ host1_W) (g1 : ∀ w, Pipeline.arrRef spec1 w ≠ r) (h2 : r ∉ host2_W) (g2 : ∀ w, Pipeline.arrRef spec2 w ≠ r) (h3 : r ∉ host3_W) (g3 : ∀ w, Pipeline.arrRef spec3 w ≠ r) (h4 : r ∉ host4_W) (g4 : ∀ w, Pipeline.arrRef spec4 w ≠ r) :
    W10 m ρ c (Proc.devRef .tc r) = m ((c.tc : Thread nD τ).loc r) :=
  (down4 m ρ c r h4 g4).trans (W8_at m ρ c r h0 g0 h1 g1 h2 g2 h3 g3)

/-! ## What stretch 0 computes once, read at the later boundaries -/

theorem W2_v6 (c : Dev nD) : W2 m ρ c (Proc.devRef .tc main_v6) = kH0 (m ((c.tc : Thread nD τ).loc main_arg0)) (m ((c.tc : Thread nD τ).loc main_arg4)) :=
  (W2_of_ne m ρ c main_v6 (by decide)).trans ((s0_v6 (W0 m ρ c)).trans rfl)
theorem W2_v14 (c : Dev nD) : W2 m ρ c (Proc.devRef .tc main_v14) = kCntInv (m ((c.tc : Thread nD τ).loc main_arg2)) :=
  (W2_of_ne m ρ c main_v14 (by decide)).trans ((s0_v14 (W0 m ρ c)).trans rfl)
theorem W4_v14 (c : Dev nD) : W4 m ρ c (Proc.devRef .tc main_v14) = kCntInv (m ((c.tc : Thread nD τ).loc main_arg2)) :=
  (down1 m ρ c main_v14 (by decide) (by decide)).trans (W2_v14 m ρ c)
theorem W6_v14 (c : Dev nD) : W6 m ρ c (Proc.devRef .tc main_v14) = kCntInv (m ((c.tc : Thread nD τ).loc main_arg2)) :=
  (down2 m ρ c main_v14 (by decide) (by decide)).trans (W4_v14 m ρ c)
theorem W8_v14 (c : Dev nD) : W8 m ρ c (Proc.devRef .tc main_v14) = kCntInv (m ((c.tc : Thread nD τ).loc main_arg2)) :=
  (down3 m ρ c main_v14 (by decide) (by decide)).trans (W6_v14 m ρ c)
theorem W10_v14 (c : Dev nD) : W10 m ρ c (Proc.devRef .tc main_v14) = kCntInv (m ((c.tc : Thread nD τ).loc main_arg2)) :=
  (down4 m ρ c main_v14 (by decide) (by decide)).trans (W8_v14 m ρ c)

section Regions

variable (E0 : (⟨S800000x35, .bf16⟩ : BufTy).Contents (Elt F) → (⟨S128x35, .bf16⟩ : BufTy).Contents (Elt F) → (⟨S800000x128, .f32⟩ : BufTy).Contents (Elt F)) (N1 : (⟨S50000x160, .bf16⟩ : BufTy).Contents (Elt F) → (⟨S128x160, .bf16⟩ : BufTy).Contents (Elt F) → (⟨S1x128, .f32⟩ : BufTy).Contents (Elt F) → (⟨S50000x128, .f32⟩ : BufTy).Contents (Elt F)) (E2 : (⟨S800000x131, .bf16⟩ : BufTy).Contents (Elt F) → (⟨S128x131, .bf16⟩ : BufTy).Contents (Elt F) → (⟨S800000x128, .f32⟩ : BufTy).Contents (Elt F)) (N3 : (⟨S50000x256, .bf16⟩ : BufTy).Contents (Elt F) → (⟨S128x256, .bf16⟩ : BufTy).Contents (Elt F) → (⟨S1x128, .f32⟩ : BufTy).Contents (Elt F) → (⟨S50000x128, .f32⟩ : BufTy).Contents (Elt F)) (E4 : (⟨S800000x131, .bf16⟩ : BufTy).Contents (Elt F) → (⟨S128x131, .bf16⟩ : BufTy).Contents (Elt F) → (⟨S800000x128, .f32⟩ : BufTy).Contents (Elt F)) (N5 : (⟨S50000x256, .bf16⟩ : BufTy).Contents (Elt F) → (⟨S128x256, .bf16⟩ : BufTy).Contents (Elt F) → (⟨S1x128, .f32⟩ : BufTy).Contents (Elt F) → (⟨S50000x128, .f32⟩ : BufTy).Contents (Elt F))
  (hf0 : Region0Is E0) (hf1 : Region1Is N1) (hf2 : Region2Is E2) (hf3 : Region3Is N3) (hf4 : Region4Is E4) (hf5 : Region5Is N5)

/-! ## Layer 0 -/

include hf0 in
theorem W2_v25 (c : Dev nD) : W2 m ρ c (Proc.devRef .tc main_v25) = E0 (kEdgeIn35 (kH0 (m ((c.tc : Thread nD τ).loc main_arg0)) (m ((c.tc : Thread nD τ).loc main_arg4))) (m ((c.tc : Thread nD τ).loc main_arg1)) (m ((c.tc : Thread nD τ).loc main_arg3))) (kW35 (m ((c.tc : Thread nD τ).loc main_arg5))) :=
  (W2_arr m ρ c 2).trans <| (hf0 (V1 m ρ) c).trans <|
    congrArg₂ E0 ((s0_v23 (W0 m ρ c)).trans rfl) ((s0_v24 (W0 m ρ c)).trans rfl)

include hf0 hf1 in
theorem W4_v36 (c : Dev nD) : W4 m ρ c (Proc.devRef .tc main_v36) = (kR1 E0 N1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (W4_arr m ρ c 3).trans <| (hf1 (V3 m ρ) c).trans <| (congr (congr (congrArg N1
      (s1_v33_of (W2 m ρ c) (W2_v6 m ρ c) (W2_at m ρ c main_arg2 (by decide) (by decide)) (W2_v25 m ρ E0 hf0 c) (W2_v14 m ρ c)))
    (s1_v34_of (W2 m ρ c) (W2_at m ρ c main_arg6 (by decide) (by decide)))) (s1_v35_of (W2 m ρ c) (W2_at m ρ c main_arg7 (by decide) (by decide)))).trans rfl

/-! ## Layer 1 -/

include hf0 hf1 hf2 in
theorem W6_v53 (c : Dev nD) : W6 m ρ c (Proc.devRef .tc main_v53) = E2 (kEdgeIn131 (kR1 E0 N1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1)) (m ((c.tc : Thread nD τ).loc main_arg3))) (kW131 (kSl131_0 (m ((c.tc : Thread nD τ).loc main_arg8)))) :=
  (W6_arr m ρ c 2).trans <| (hf2 (V5 m ρ) c).trans <| congrArg₂ E2
    (s2_v51_of (W4 m ρ c) (W4_v36 m ρ E0 N1 hf0 hf1 c) (W4_at m ρ c main_arg1 (by decide) (by decide) (by decide) (by decide)) (W4_at m ρ c main_arg3 (by decide) (by decide) (by decide) (by decide)))
    (s2_v52_of (W4 m ρ c) (W4_at m ρ c main_arg8 (by decide) (by decide) (by decide) (by decide)))

include hf0 hf1 in
theorem W6_v36 (c : Dev nD) : W6 m ρ c (Proc.devRef .tc main_v36) = (kR1 E0 N1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (down2 m ρ c main_v36 (by decide) (by decide)).trans (W4_v36 m ρ E0 N1 hf0 hf1 c)
theorem W6_v40 (c : Dev nD) : W6 m ρ c (Proc.devRef .tc main_v40) = kSl256_0 (m ((c.tc : Thread nD τ).loc main_arg9)) :=
  (W6_of_ne m ρ c main_v40 (by decide)).trans ((s2_v40 (W4 m ρ c)).trans (congrArg kSl256_0 (W4_at m ρ c main_arg9 (by decide) (by decide) (by decide) (by decide))))
theorem W6_v42 (c : Dev nD) : W6 m ρ c (Proc.devRef .tc main_v42) = kSlB_0 (m ((c.tc : Thread nD τ).loc main_arg10)) :=
  (W6_of_ne m ρ c main_v42 (by decide)).trans ((s2_v42 (W4 m ρ c)).trans (congrArg kSlB_0 (W4_at m ρ c main_arg10 (by decide) (by decide) (by decide) (by decide))))

include hf0 hf1 hf2 hf3 in
theorem W8_v64 (c : Dev nD) : W8 m ρ c (Proc.devRef .tc main_v64) = (kR3 E0 N1 E2 N3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :=
  (W8_arr m ρ c 3).trans <| (hf3 (V7 m ρ) c).trans <| (congr (congr (congrArg N3
      (s3_v61_of (W6 m ρ c) (W6_v36 m ρ E0 N1 hf0 hf1 c) (W6_at m ρ c main_arg2 (by decide) (by decide) (by decide) (by decide) (by decide) (by decide)) (W6_v53 m ρ E0 N1 E2 hf0 hf1 hf2 c) (W6_v14 m ρ c)))
    (s3_v62_of (W6 m ρ c) (W6_v40 m ρ c))) (s3_v63_of (W6 m ρ c) (W6_v42 m ρ c))).trans rfl

/-! ## Layer 2 -/

include hf0 hf1 hf2 hf3 hf4 in
theorem W10_v81 (c : Dev nD) : W10 m ρ c (Proc.devRef .tc main_v81) = E4 (kEdgeIn131 (kR3 E0 N1 E2 N3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg1)) (m ((c.tc : Thread nD τ).loc main_arg3))) (kW131 (kSl131_1 (m ((c.tc : Thread nD τ).loc main_arg8)))) :=
  (W10_arr m ρ c 2).trans <| (hf4 (V9 m ρ) c).trans <| congrArg₂ E4
    (s4_v79_of (W8 m ρ c) (W8_v64 m ρ E0 N1 E2 N3 hf0 hf1 hf2 hf3 c) (W8_at m ρ c main_arg1 (by decide) (by decide) (by decide) (by decide) (by decide) (by decide) (by decide) (by decide)) (W8_at m ρ c main_arg3 (by decide) (by decide) (by decide) (by decide) (by decide) (by decide) (by decide) (by decide)))
    (s4_v80_of (W8 m ρ c) (W8_at m ρ c main_arg8 (by decide) (by decide) (by decide) (by decide) (by decide) (by decide) (by decide) (by decide)))

include hf0 hf1 hf2 hf3 in
theorem W10_v64 (c : Dev nD) : W10 m ρ c (Proc.devRef .tc main_v64) = (kR3 E0 N1 E2 N3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :=
  (down4 m ρ c main_v64 (by decide) (by decide)).trans (W8_v64 m ρ E0 N1 E2 N3 hf0 hf1 hf2 hf3 c)
theorem W10_v68 (c : Dev nD) : W10 m ρ c (Proc.devRef .tc main_v68) = kSl256_1 (m ((c.tc : Thread nD τ).loc main_arg9)) :=
  (W10_of_ne m ρ c main_v68 (by decide)).trans ((s4_v68 (W8 m ρ c)).trans (congrArg kSl256_1 (W8_at m ρ c main_arg9 (by decide) (by decide) (by decide) (by decide) (by decide) (by decide) (by decide) (by decide))))
theorem W10_v70 (c : Dev nD) : W10 m ρ c (Proc.devRef .tc main_v70) = kSlB_1 (m ((c.tc : Thread nD τ).loc main_arg10)) :=
  (W10_of_ne m ρ c main_v70 (by decide)).trans ((s4_v70 (W8 m ρ c)).trans (congrArg kSlB_1 (W8_at m ρ c main_arg10 (by decide) (by decide) (by decide) (by decide) (by decide) (by decide) (by decide) (by decide))))

include hf0 hf1 hf2 hf3 hf4 hf5 in
/-- The result buffer at the last boundary is the composed term of the program at the launch arguments. -/
theorem chain (c : Dev nD) : W12 m ρ c (Proc.devRef .tc main_v92) = kerVal E0 N1 E2 N3 E4 N5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (W12_arr m ρ c 3).trans <| (hf5 (V11 m ρ) c).trans <| (congr (congr (congrArg N5
      (s5_v89_of (W10 m ρ c) (W10_v64 m ρ E0 N1 E2 N3 hf0 hf1 hf2 hf3 c) (W10_at m ρ c main_arg2 (by decide) (by decide) (by decide) (by decide) (by decide) (by decide) (by decide) (by decide) (by decide) (by decide))
        (W10_v81 m ρ E0 N1 E2 N3 E4 hf0 hf1 hf2 hf3 hf4 c) (W10_v14 m ρ c)))
    (s5_v90_of (W10 m ρ c) (W10_v68 m ρ c))) (s5_v91_of (W10 m ρ c) (W10_v70 m ρ c))).trans rfl

end Regions

end Cert.KernelIdeal.KChain

end
-- ==== Proof.LibRowDot.lean ====
/-
  Sums that read a matrix product at an entry, at the ideal values. For an m×k matrix A and an n×k matrix B the
  product "rows of A against rows of B" at (a, b) is the sum over the shared coordinate c of A(a,c)·B(b,c); for an
  m×k matrix against a k×n matrix it is the sum of A(a,c)·B(c,b). Both are stated for ANY dimension-number record
  whose axis lists are those of the form in question, so that a printed record is used by naming its lists.
-/
import Idealize.ShloMosaic.PureOps.Ideal.Laws
import Idealize.ShloMosaic.Lib.ValueIdx
import Idealize.ShloMosaic.Lib.ValueLayout
import Idealize.ShloMosaic.Lib.StackMember
import Idealize.ShloMosaic.Lib.Pipeline.Value

noncomputable section

open scoped BigOperators

namespace Cert.RowDot

open Idealize.ShloMosaic Idealize.ShloMosaic.ValueIdx

/-- Dimension numbers that contract the last axis of both operands, with no batch axis, are those of the
    "rows against rows" product. -/
theorem dotDims_eq_transposedRhs {m k n : Nat} (D : DotDims ⟨2, ![m, k]⟩ ⟨2, ![n, k]⟩ ⟨2, ![m, n]⟩)
    (hlc : D.lhsContracting = [1]) (hrc : D.rhsContracting = [1]) (hln : D.lhsNonContracting = [0])
    (hrn : D.rhsNonContracting = [0]) (hlb : D.lhsBatch = []) (hrb : D.rhsBatch = []) :
    D = DotDims.transposedRhs m k n := by
  obtain ⟨lc, rc, ln, rn, lb, rb, wf⟩ := D
  dsimp only at hlc hrc hln hrn hlb hrb
  subst hlc hrc hln hrn hlb hrb
  rfl

/-- Dimension numbers that contract the left operand's last axis with the right operand's first, with no batch
    axis, are those of the plain product. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The "rows against rows" contraction at (a, b): the sum over the shared coordinate. -/
theorem sum_transposedRhs {m k n : Nat} (A : (⟨2, ![m, k]⟩ : Shape).Idx → EReal) (B : (⟨2, ![n, k]⟩ : Shape).Idx → EReal)
    (a : Fin m) (b : Fin n) :
    ∑ q : (DotDims.transposedRhs m k n).contr.Idx,
        A ((DotDims.transposedRhs m k n).lhsIdx (ix2 a b) q) * B ((DotDims.transposedRhs m k n).rhsIdx (ix2 a b) q)
      = ∑ c : Fin k, A (ix2 a c) * B (ix2 b c) := by
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- A matrix unit's product of rows against rows, accumulated into zero, at (a, b). -/
theorem matmul_rows_zero {m k n : Nat} {φ₁ φ₂ : FTy} (D : DotDims ⟨2, ![m, k]⟩ ⟨2, ![n, k]⟩ ⟨2, ![m, n]⟩)
    (hD : D = DotDims.transposedRhs m k n) (prec : Option ContractPrecision)
    (A : FVec Ideal ⟨2, ![m, k]⟩ φ₁) (B : FVec Ideal ⟨2, ![n, k]⟩ φ₂) (a : Fin m) (b : Fin n) :
    matmul D prec A B (constant ⟨2, ![m, n]⟩ .f32 0x00000000#32) (ix2 a b) = ∑ c : Fin k, A (ix2 a c) * B (ix2 b c) := by
  subst hD
  show FloatOps.matmul _ prec A B _ (ix2 a b) = _
  exact (Ideal.matmul_constant_zero_apply _ prec A B (ix2 a b)).trans (sum_transposedRhs A B a b)

/-- The host's plain product of a matrix with a transposed matrix, at (a, b): again rows against rows. -/
theorem dotGeneral_transpose {m k n : Nat} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral D prec A (transpose ⟨2, ![k, n]⟩ [1, 0] B h) (ix2 a b) = ∑ c : Fin k, A (ix2 a c) * B (ix2 b c) := by
  subst hD
  rw [StackMember.dotGeneral_plain_apply]
  exact Finset.sum_congr rfl fun c _ => by rw [transpose_ix2_apply]

end Cert.RowDot

end
-- ==== Proof.Spec.lean ====
/-
  The two row-local stages of one layer, as functions of whole arrays on the extended reals.
  For an m×k array A and an n×k array B, rowsDot A B at (a, b) is the sum over c of A(a,c)·B(b,c): row a of A
  against row b of B. The edge stage is the leaky rectifier of that sum (slope 0.01 as its binary32 word denotes it);
  the node stage adds a bias row b(0, ·) and takes the maximum with zero.
-/
import Idealize.ShloMosaic.PureOps.Ideal.Laws
import Idealize.ShloMosaic.Lib.ValueIdx

noncomputable section

open scoped BigOperators

namespace Cert.Spec

open Idealize.ShloMosaic Idealize.ShloMosaic.ValueIdx

/-- Row a of A against row b of B. -/
def rowsDot {m k n : Nat} (A : (⟨2, ![m, k]⟩ : Shape).Idx → EReal) (B : (⟨2, ![n, k]⟩ : Shape).Idx → EReal) :
    (⟨2, ![m, n]⟩ : Shape).Idx → EReal :=
  fun i => ∑ c : Fin k, A (ix2 (i 0) c) * B (ix2 (i 1) c)

/-- The leaky rectifier: t where t is above zero, 0.01·t elsewhere. -/
def leaky (t : EReal) : EReal :=
  Scalar.select (Ideal.cmp .ogt t (Ideal.ofBits .f32 0x00000000#32)) t (Ideal.ofBits .f32 0x3C23D70A#32 * t)

/-- The edge stage: the leaky rectifier of rows against rows. -/
def edge {m k n : Nat} (A : (⟨2, ![m, k]⟩ : Shape).Idx → EReal) (B : (⟨2, ![n, k]⟩ : Shape).Idx → EReal) :
    (⟨2, ![m, n]⟩ : Shape).Idx → EReal :=
  fun i => leaky (rowsDot A B i)

/-- The node stage: rows against rows, plus the bias row, cut off below at zero. -/
def node {m k n : Nat} (A : (⟨2, ![m, k]⟩ : Shape).Idx → EReal) (B : (⟨2, ![n, k]⟩ : Shape).Idx → EReal)
    (b : (⟨2, ![1, n]⟩ : Shape).Idx → EReal) : (⟨2, ![m, n]⟩ : Shape).Idx → EReal :=
  fun i => max (rowsDot A B i + b (ix2 (0 : Fin 1) (i 1))) (Ideal.ofBits .f32 0x00000000#32)

end Cert.Spec

end
-- ==== Proof.Edge0.lean ====
/-
  The first edge region. Its grid has 100 points; point t stages rows 8000·t … 8000·t + 7999 of the edge features
  (window 0), the whole weight matrix (window 1), and writes rows 8000·t … of the result (window 2). The body's one
  store is the leaky rectifier of the staged rows against the weight rows, so the block a point writes back is that
  block of ONE function of the whole arrays, Spec.edge; the 100 blocks cover the result array.
-/
import proofs.«165154_j28441273434752_1_alg».proof.Proof.Gen.KernelIdeal.Frame
import proofs.«165154_j28441273434752_1_alg».proof.Proof.LibRowDot
import proofs.«165154_j28441273434752_1_alg».proof.Proof.Spec
import Idealize.ShloMosaic.Lib.Pipeline.Value
import Idealize.ShloMosaic.Lib.ValueIdx

set_option maxRecDepth 16384

noncomputable section

open scoped BigOperators

namespace Cert.KernelIdeal.Edge0

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The body's stored value at (p, q): the leaky rectifier of staged row p against weight row q. -/
theorem pay_apply (x0 : FVec Ideal S8000x35 .bf16) (x1 : FVec Ideal S128x35 .bf16) (p : Fin 8000) (q : Fin 128) :
    k0_pay1 (F := Ideal) x0 x1 (ix2 p q) = Spec.leaky (∑ c : Fin 35, x0 (ix2 p c) * x1 (ix2 q c)) := by
  have hm := Cert.RowDot.matmul_rows_zero dot_S8000x35_S128x35_S8000x128_1_1_0_0_n_n
    (Cert.RowDot.dotDims_eq_transposedRhs _ rfl rfl rfl rfl rfl rfl) none x0 x1 p q
  unfold k0_pay1 Spec.leaky
  simp only [shapeCast_self]
  show Scalar.select (Ideal.cmp .ogt (matmul dot_S8000x35_S128x35_S8000x128_1_1_0_0_n_n none x0 x1 (constant S8000x128 .f32 0x00000000#32) (ix2 p q)) _)
      (matmul dot_S8000x35_S128x35_S8000x128_1_1_0_0_n_n none x0 x1 (constant S8000x128 .f32 0x00000000#32) (ix2 p q))
      (_ * matmul dot_S8000x35_S128x35_S8000x128_1_1_0_0_n_n none x0 x1 (constant S8000x128 .f32 0x00000000#32) (ix2 p q)) = _
  rw [hm]
  rfl

/-- The printed index maps over the grid: the staged rows move with the written rows; everything else stays at 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

variable (V : (c : Dev nD) → (b : Ref sig .tc) → Buf (Elt Ideal) ((c : Thread nD τ).loc b))

/-- What point t writes back is block t of Spec.edge of the two input arrays as the region finds them. -/
theorem flushed_eq (c : Dev nD) (t : Fin cfg0.N) :
    (dat0 V c).flushed 2 t = ((cfg0.win 2).blk t).view.read (Elt Ideal)
      (Spec.edge (m := 800000) (k := 35) (n := 128) (V c main_v23) (V c main_v24)) := by
  show (cfg0.win 2).cut (grid0.coords t) ((dat0 V c).after 2 t) = _
  rw [after0_2]
  unfold out0_2
  rw [View.canon_unit_zero hz]
  simp only [View.ld_unit_zero (S := S8000x35) hz, View.ld_unit_zero (S := S128x35) hz]
  obtain ⟨e0, e1, e2, e3, e4, e5⟩ := idx_facts t
  funext j
  obtain ⟨p, q, rfl⟩ : ∃ (p : Fin 8000) (q : Fin 128), j = ix2 p q := ⟨j 0, j 1, eq_ix2 j⟩
  show k0_pay1 (F := Ideal) (iblk0 V c 0 t) (iblk0 V c 1 t) (ix2 p q)
    = Spec.edge (m := 800000) (k := 35) (n := 128) (V c main_v23) (V c main_v24) (((cfg0.win 2).blk t).view.emb (ix2 p q))
  refine (pay_apply (iblk0 V c 0 t) (iblk0 V c 1 t) p q).trans ?_
  refine congrArg Spec.leaky (Finset.sum_congr rfl fun c' _ => ?_)
  have h0 : ((cfg0.win 0).blk t).view.emb (ix2 p c') = ix2 (((cfg0.win 2).blk t).view.emb (ix2 p q) 0) c' := by
    funext a; apply Fin.ext
    match a with
    | ⟨0, _⟩ => show win0_0.index t (0 : Fin 2) * 8000 + 1 * p.val = win0_2.index t (0 : Fin 2) * 8000 + 1 * p.val; omega
    | ⟨1, _⟩ => show win0_0.index t (1 : Fin 2) * 35 + 1 * c'.val = c'.val; omega
  have h1 : ((cfg0.win 1).blk t).view.emb (ix2 q c') = ix2 (((cfg0.win 2).blk t).view.emb (ix2 p q) 1) c' := by
    funext a; apply Fin.ext
    match a with
    | ⟨0, _⟩ => show win0_1.index t (0 : Fin 2) * 128 + 1 * q.val = win0_2.index t (1 : Fin 2) * 128 + 1 * q.val; omega
    | ⟨1, _⟩ => show win0_1.index t (1 : Fin 2) * 35 + 1 * c'.val = c'.val; omega
  have r0 : iblk0 V c 0 t (ix2 p c') = V c main_v23 (ix2 (((cfg0.win 2).blk t).view.emb (ix2 p q) 0) c') := by
    show V c main_v23 (((cfg0.win 0).blk t).view.emb (ix2 p c')) = _
    exact congrArg (V c main_v23) h0
  have r1 : iblk0 V c 1 t (ix2 q c') = V c main_v24 (ix2 (((cfg0.win 2).blk t).view.emb (ix2 p q) 1) c') := by
    show V c main_v24 (((cfg0.win 1).blk t).view.emb (ix2 q c')) = _
    exact congrArg (V c main_v24) h1
  rw [r0, r1]

/-- An index of the result is in point t's block iff each coordinate is in the block's range on its axis. -/
theorem mem_blk (t : Fin cfg0.N) (i : S800000x128.Idx) :
    i ∈ ((cfg0.win 2).blk t).view.set ↔ ∀ a : Fin 2, win0_2.index t a * S8000x128.size a ≤ (i a).val ∧ (i a).val < win0_2.index t a * S8000x128.size a + S8000x128.size a := by
  show i ∈ ((View.whole main_v25).slice (win0_2.rect t)).set ↔ _
  rw [View.set_slice_whole, Rect.mem_set_unit]
  exact Iff.rfl

/-- The point that covers row r is r / 8000. -/
theorem cover (i : S800000x128.Idx) : ∃ t : Fin cfg0.N, (cfg0.win 2).flush t = true ∧ i ∈ ((cfg0.win 2).blk t).view.set := by
  have hi0 : (i 0).val < 800000 := (i 0).isLt
  have hi1 : (i 1).val < 128 := (i 1).isLt
  have hN : cfg0.N = 100 := N_0
  let t : Fin cfg0.N := ⟨(i 0).val / 8000, by rw [hN]; omega⟩
  obtain ⟨e0, e1, e2, e3, e4, e5⟩ := idx_facts t
  have e5' : win0_2.index t (0 : Fin 2) = (i 0).val / 8000 := e5
  refine ⟨t, flush0_2 t, ?_⟩
  rw [mem_blk]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 128 ≤ (i 1).val ∧ (i 1).val < win0_2.index t (1 : Fin 2) * 128 + 128; omega

/-- The result array after the region: Spec.edge of the two input arrays as the region finds them. -/
theorem final (c : Dev nD) : (dat0 V c).arrAt 2 cfg0.N
    = Spec.edge (m := 800000) (k := 35) (n := 128) (V c main_v23) (V c main_v24) :=
  (dat0 V c).arrAt_eq_of_cover 2 _ (fun t _ => flushed_eq V c t) cover

end Cert.KernelIdeal.Edge0

end
-- ==== Proof.Edge2.lean ====
/-
  The second edge region. Its grid has 100 points; point t stages rows 8000·t … 8000·t + 7999 of the edge features
  (window 0), the whole weight matrix (window 1), and writes rows 8000·t … of the result (window 2). The body's one
  store is the leaky rectifier of the staged rows against the weight rows, so the block a point writes back is that
  block of ONE function of the whole arrays, Spec.edge; the 100 blocks cover the result array.
-/
import proofs.«165154_j28441273434752_1_alg».proof.Proof.Gen.KernelIdeal.Frame
import proofs.«165154_j28441273434752_1_alg».proof.Proof.LibRowDot
import proofs.«165154_j28441273434752_1_alg».proof.Proof.Spec
import Idealize.ShloMosaic.Lib.Pipeline.Value
import Idealize.ShloMosaic.Lib.ValueIdx

set_option maxRecDepth 16384

noncomputable section

open scoped BigOperators

namespace Cert.KernelIdeal.Edge2

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The body's stored value at (p, q): the leaky rectifier of staged row p against weight row q. -/
theorem pay_apply (x0 : FVec Ideal S8000x131 .bf16) (x1 : FVec Ideal S128x131 .bf16) (p : Fin 8000) (q : Fin 128) :
    k2_pay1 (F := Ideal) x0 x1 (ix2 p q) = Spec.leaky (∑ c : Fin 131, x0 (ix2 p c) * x1 (ix2 q c)) := by
  have hm := Cert.RowDot.matmul_rows_zero dot_S8000x131_S128x131_S8000x128_1_1_0_0_n_n
    (Cert.RowDot.dotDims_eq_transposedRhs _ rfl rfl rfl rfl rfl rfl) none x0 x1 p q
  unfold k2_pay1 Spec.leaky
  simp only [shapeCast_self]
  show Scalar.select (Ideal.cmp .ogt (matmul dot_S8000x131_S128x131_S8000x128_1_1_0_0_n_n none x0 x1 (constant S8000x128 .f32 0x00000000#32) (ix2 p q)) _)
      (matmul dot_S8000x131_S128x131_S8000x128_1_1_0_0_n_n none x0 x1 (constant S8000x128 .f32 0x00000000#32) (ix2 p q))
      (_ * matmul dot_S8000x131_S128x131_S8000x128_1_1_0_0_n_n none x0 x1 (constant S8000x128 .f32 0x00000000#32) (ix2 p q)) = _
  rw [hm]
  rfl

/-- The printed index maps over the grid: the staged rows move with the written rows; everything else stays at 0. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

variable (V : (c : Dev nD) → (b : Ref sig .tc) → Buf (Elt Ideal) ((c : Thread nD τ).loc b))

/-- What point t writes back is block t of Spec.edge of the two input arrays as the region finds them. -/
theorem flushed_eq (c : Dev nD) (t : Fin cfg2.N) :
    (dat2 V c).flushed 2 t = ((cfg2.win 2).blk t).view.read (Elt Ideal)
      (Spec.edge (m := 800000) (k := 131) (n := 128) (V c main_v51) (V c main_v52)) := by
  show (cfg2.win 2).cut (grid2.coords t) ((dat2 V c).after 2 t) = _
  rw [after2_2]
  unfold out2_2
  rw [View.canon_unit_zero hz]
  simp only [View.ld_unit_zero (S := S8000x131) hz, View.ld_unit_zero (S := S128x131) hz]
  obtain ⟨e0, e1, e2, e3, e4, e5⟩ := idx_facts t
  funext j
  obtain ⟨p, q, rfl⟩ : ∃ (p : Fin 8000) (q : Fin 128), j = ix2 p q := ⟨j 0, j 1, eq_ix2 j⟩
  show k2_pay1 (F := Ideal) (iblk2 V c 0 t) (iblk2 V c 1 t) (ix2 p q)
    = Spec.edge (m := 800000) (k := 131) (n := 128) (V c main_v51) (V c main_v52) (((cfg2.win 2).blk t).view.emb (ix2 p q))
  refine (pay_apply (iblk2 V c 0 t) (iblk2 V c 1 t) p q).trans ?_
  refine congrArg Spec.leaky (Finset.sum_congr rfl fun c' _ => ?_)
  have h0 : ((cfg2.win 0).blk t).view.emb (ix2 p c') = ix2 (((cfg2.win 2).blk t).view.emb (ix2 p q) 0) c' := by
    funext a; apply Fin.ext
    match a with
    | ⟨0, _⟩ => show win2_0.index t (0 : Fin 2) * 8000 + 1 * p.val = win2_2.index t (0 : Fin 2) * 8000 + 1 * p.val; omega
    | ⟨1, _⟩ => show win2_0.index t (1 : Fin 2) * 131 + 1 * c'.val = c'.val; omega
  have h1 : ((cfg2.win 1).blk t).view.emb (ix2 q c') = ix2 (((cfg2.win 2).blk t).view.emb (ix2 p q) 1) c' := by
    funext a; apply Fin.ext
    match a with
    | ⟨0, _⟩ => show win2_1.index t (0 : Fin 2) * 128 + 1 * q.val = win2_2.index t (1 : Fin 2) * 128 + 1 * q.val; omega
    | ⟨1, _⟩ => show win2_1.index t (1 : Fin 2) * 131 + 1 * c'.val = c'.val; omega
  have r0 : iblk2 V c 0 t (ix2 p c') = V c main_v51 (ix2 (((cfg2.win 2).blk t).view.emb (ix2 p q) 0) c') := by
    show V c main_v51 (((cfg2.win 0).blk t).view.emb (ix2 p c')) = _
    exact congrArg (V c main_v51) h0
  have r1 : iblk2 V c 1 t (ix2 q c') = V c main_v52 (ix2 (((cfg2.win 2).blk t).view.emb (ix2 p q) 1) c') := by
    show V c main_v52 (((cfg2.win 1).blk t).view.emb (ix2 q c')) = _
    exact congrArg (V c main_v52) h1
  rw [r0, r1]

/-- An index of the result is in point t's block iff each coordinate is in the block's range on its axis. -/
theorem mem_blk (t : Fin cfg2.N) (i : S800000x128.Idx) :
    i ∈ ((cfg2.win 2).blk t).view.set ↔ ∀ a : Fin 2, win2_2.index t a * S8000x128.size a ≤ (i a).val ∧ (i a).val < win2_2.index t a * S8000x128.size a + S8000x128.size a := by
  show i ∈ ((View.whole main_v53).slice (win2_2.rect t)).set ↔ _
  rw [View.set_slice_whole, Rect.mem_set_unit]
  exact Iff.rfl

/-- The point that covers row r is r / 8000. -/
theorem cover (i : S800000x128.Idx) : ∃ t : Fin cfg2.N, (cfg2.win 2).flush t = true ∧ i ∈ ((cfg2.win 2).blk t).view.set := by
  have hi0 : (i 0).val < 800000 := (i 0).isLt
  have hi1 : (i 1).val < 128 := (i 1).isLt
  have hN : cfg2.N = 100 := N_2
  let t : Fin cfg2.N := ⟨(i 0).val / 8000, by rw [hN]; omega⟩
  obtain ⟨e0, e1, e2, e3, e4, e5⟩ := idx_facts t
  have e5' : win2_2.index t (0 : Fin 2) = (i 0).val / 8000 := e5
  refine ⟨t, flush2_2 t, ?_⟩
  rw [mem_blk]
  intro a
  match a with
  | ⟨0, _⟩ => show win2_2.index t (0 : Fin 2) * 8000 ≤ (i 0).val ∧ (i 0).val < win2_2.index t (0 : Fin 2) * 8000 + 8000; omega
  | ⟨1, _⟩ => show win2_2.index t (1 : Fin 2) * 128 ≤ (i 1).val ∧ (i 1).val < win2_2.index t (1 : Fin 2) * 128 + 128; omega

/-- The result array after the region: Spec.edge of the two input arrays as the region finds them. -/
theorem final (c : Dev nD) : (dat2 V c).arrAt 2 cfg2.N
    = Spec.edge (m := 800000) (k := 131) (n := 128) (V c main_v51) (V c main_v52) :=
  (dat2 V c).arrAt_eq_of_cover 2 _ (fun t _ => flushed_eq V c t) cover

end Cert.KernelIdeal.Edge2

end
-- ==== Proof.Edge4.lean ====
/-
  The third edge region. Its grid has 100 points; point t stages rows 8000·t … 8000·t + 7999 of the edge features
  (window 0), the whole weight matrix (window 1), and writes rows 8000·t … of the result (window 2). The body's one
  store is the leaky rectifier of the staged rows against the weight rows, so the block a point writes back is that
  block of ONE function of the whole arrays, Spec.edge; the 100 blocks cover the result array.
-/
import proofs.«165154_j28441273434752_1_alg».proof.Proof.Gen.KernelIdeal.Frame
import proofs.«165154_j28441273434752_1_alg».proof.Proof.LibRowDot
import proofs.«165154_j28441273434752_1_alg».proof.Proof.Spec
import Idealize.ShloMosaic.Lib.Pipeline.Value
import Idealize.ShloMosaic.Lib.ValueIdx

set_option maxRecDepth 16384

noncomputable section

open scoped BigOperators

namespace Cert.KernelIdeal.Edge4

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The body's stored value at (p, q): the leaky rectifier of staged row p against weight row q. -/
theorem pay_apply (x0 : FVec Ideal S8000x131 .bf16) (x1 : FVec Ideal S128x131 .bf16) (p : Fin 8000) (q : Fin 128) :
    k4_pay1 (F := Ideal) x0 x1 (ix2 p q) = Spec.leaky (∑ c : Fin 131, x0 (ix2 p c) * x1 (ix2 q c)) := by
  have hm := Cert.RowDot.matmul_rows_zero dot_S8000x131_S128x131_S8000x128_1_1_0_0_n_n
    (Cert.RowDot.dotDims_eq_transposedRhs _ rfl rfl rfl rfl rfl rfl) none x0 x1 p q
  unfold k4_pay1 Spec.leaky
  simp only [shapeCast_self]
  show Scalar.select (Ideal.cmp .ogt (matmul dot_S8000x131_S128x131_S8000x128_1_1_0_0_n_n none x0 x1 (constant S8000x128 .f32 0x00000000#32) (ix2 p q)) _)
      (matmul dot_S8000x131_S128x131_S8000x128_1_1_0_0_n_n none x0 x1 (constant S8000x128 .f32 0x00000000#32) (ix2 p q))
      (_ * matmul dot_S8000x131_S128x131_S8000x128_1_1_0_0_n_n none x0 x1 (constant S8000x128 .f32 0x00000000#32) (ix2 p q)) = _
  rw [hm]
  rfl

/-- The printed index maps over the grid: the staged rows move with the written rows; everything else stays at 0. -/
theorem idx_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) = t.val :=
  (by decide +kernel : ∀ t : Fin grid4.N, _)

variable (V : (c : Dev nD) → (b : Ref sig .tc) → Buf (Elt Ideal) ((c : Thread nD τ).loc b))

/-- What point t writes back is block t of Spec.edge of the two input arrays as the region finds them. -/
theorem flushed_eq (c : Dev nD) (t : Fin cfg4.N) :
    (dat4 V c).flushed 2 t = ((cfg4.win 2).blk t).view.read (Elt Ideal)
      (Spec.edge (m := 800000) (k := 131) (n := 128) (V c main_v79) (V c main_v80)) := by
  show (cfg4.win 2).cut (grid4.coords t) ((dat4 V c).after 2 t) = _
  rw [after4_2]
  unfold out4_2
  rw [View.canon_unit_zero hz]
  simp only [View.ld_unit_zero (S := S8000x131) hz, View.ld_unit_zero (S := S128x131) hz]
  obtain ⟨e0, e1, e2, e3, e4, e5⟩ := idx_facts t
  funext j
  obtain ⟨p, q, rfl⟩ : ∃ (p : Fin 8000) (q : Fin 128), j = ix2 p q := ⟨j 0, j 1, eq_ix2 j⟩
  show k4_pay1 (F := Ideal) (iblk4 V c 0 t) (iblk4 V c 1 t) (ix2 p q)
    = Spec.edge (m := 800000) (k := 131) (n := 128) (V c main_v79) (V c main_v80) (((cfg4.win 2).blk t).view.emb (ix2 p q))
  refine (pay_apply (iblk4 V c 0 t) (iblk4 V c 1 t) p q).trans ?_
  refine congrArg Spec.leaky (Finset.sum_congr rfl fun c' _ => ?_)
  have h0 : ((cfg4.win 0).blk t).view.emb (ix2 p c') = ix2 (((cfg4.win 2).blk t).view.emb (ix2 p q) 0) c' := by
    funext a; apply Fin.ext
    match a with
    | ⟨0, _⟩ => show win4_0.index t (0 : Fin 2) * 8000 + 1 * p.val = win4_2.index t (0 : Fin 2) * 8000 + 1 * p.val; omega
    | ⟨1, _⟩ => show win4_0.index t (1 : Fin 2) * 131 + 1 * c'.val = c'.val; omega
  have h1 : ((cfg4.win 1).blk t).view.emb (ix2 q c') = ix2 (((cfg4.win 2).blk t).view.emb (ix2 p q) 1) c' := by
    funext a; apply Fin.ext
    match a with
    | ⟨0, _⟩ => show win4_1.index t (0 : Fin 2) * 128 + 1 * q.val = win4_2.index t (1 : Fin 2) * 128 + 1 * q.val; omega
    | ⟨1, _⟩ => show win4_1.index t (1 : Fin 2) * 131 + 1 * c'.val = c'.val; omega
  have r0 : iblk4 V c 0 t (ix2 p c') = V c main_v79 (ix2 (((cfg4.win 2).blk t).view.emb (ix2 p q) 0) c') := by
    show V c main_v79 (((cfg4.win 0).blk t).view.emb (ix2 p c')) = _
    exact congrArg (V c main_v79) h0
  have r1 : iblk4 V c 1 t (ix2 q c') = V c main_v80 (ix2 (((cfg4.win 2).blk t).view.emb (ix2 p q) 1) c') := by
    show V c main_v80 (((cfg4.win 1).blk t).view.emb (ix2 q c')) = _
    exact congrArg (V c main_v80) h1
  rw [r0, r1]

/-- An index of the result is in point t's block iff each coordinate is in the block's range on its axis. -/
theorem mem_blk (t : Fin cfg4.N) (i : S800000x128.Idx) :
    i ∈ ((cfg4.win 2).blk t).view.set ↔ ∀ a : Fin 2, win4_2.index t a * S8000x128.size a ≤ (i a).val ∧ (i a).val < win4_2.index t a * S8000x128.size a + S8000x128.size a := by
  show i ∈ ((View.whole main_v81).slice (win4_2.rect t)).set ↔ _
  rw [View.set_slice_whole, Rect.mem_set_unit]
  exact Iff.rfl

/-- The point that covers row r is r / 8000. -/
theorem cover (i : S800000x128.Idx) : ∃ t : Fin cfg4.N, (cfg4.win 2).flush t = true ∧ i ∈ ((cfg4.win 2).blk t).view.set := by
  have hi0 : (i 0).val < 800000 := (i 0).isLt
  have hi1 : (i 1).val < 128 := (i 1).isLt
  have hN : cfg4.N = 100 := N_4
  let t : Fin cfg4.N := ⟨(i 0).val / 8000, by rw [hN]; omega⟩
  obtain ⟨e0, e1, e2, e3, e4, e5⟩ := idx_facts t
  have e5' : win4_2.index t (0 : Fin 2) = (i 0).val / 8000 := e5
  refine ⟨t, flush4_2 t, ?_⟩
  rw [mem_blk]
  intro a
  match a with
  | ⟨0, _⟩ => show win4_2.index t (0 : Fin 2) * 8000 ≤ (i 0).val ∧ (i 0).val < win4_2.index t (0 : Fin 2) * 8000 + 8000; omega
  | ⟨1, _⟩ => show win4_2.index t (1 : Fin 2) * 128 ≤ (i 1).val ∧ (i 1).val < win4_2.index t (1 : Fin 2) * 128 + 128; omega

/-- The result array after the region: Spec.edge of the two input arrays as the region finds them. -/
theorem final (c : Dev nD) : (dat4 V c).arrAt 2 cfg4.N
    = Spec.edge (m := 800000) (k := 131) (n := 128) (V c main_v79) (V c main_v80) :=
  (dat4 V c).arrAt_eq_of_cover 2 _ (fun t _ => flushed_eq V c t) cover

end Cert.KernelIdeal.Edge4

end
-- ==== Proof.Node1.lean ====
/-
  The first node region. Its grid has 5 points; point t stages rows 10000·t … 10000·t + 9999 of the node features
  (window 0), the whole weight matrix (window 1) and the bias row (window 2), and writes rows 10000·t … of the result
  (window 3). The body's one store is the staged rows against the weight rows, plus the bias row, cut off below at
  zero, so the block a point writes back is that block of ONE function of the whole arrays, Spec.node; the 5 blocks
  cover the result array.
-/
import proofs.«165154_j28441273434752_1_alg».proof.Proof.Gen.KernelIdeal.Frame
import proofs.«165154_j28441273434752_1_alg».proof.Proof.LibRowDot
import proofs.«165154_j28441273434752_1_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Node1

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The body's stored value at (p, q): staged row p against weight row q, plus the bias entry q, cut off at zero. -/
theorem pay_apply (x0 : FVec Ideal S10000x160 .bf16) (x1 : FVec Ideal S128x160 .bf16) (x2 : FVec Ideal S1x128 .f32)
    (p : Fin 10000) (q : Fin 128) :
    k1_pay1 (F := Ideal) x0 x1 x2 (ix2 p q)
      = max ((∑ c : Fin 160, x0 (ix2 p c) * x1 (ix2 q c)) + x2 (ix2 (0 : Fin 1) q)) (Ideal.ofBits .f32 0x00000000#32) := by
  have hm := Cert.RowDot.matmul_rows_zero dot_S10000x160_S128x160_S10000x128_1_1_0_0_n_n
    (Cert.RowDot.dotDims_eq_transposedRhs _ rfl rfl rfl rfl rfl rfl) none x0 x1 p q
  have hb := broadcastTo_1b_ab_apply x2 broadcasts_S1x128_S10000x128 p q
  unfold k1_pay1
  simp only [shapeCast_self]
  show max (matmul dot_S10000x160_S128x160_S10000x128_1_1_0_0_n_n none x0 x1 (constant S10000x128 .f32 0x00000000#32) (ix2 p q)
      + broadcastTo S10000x128 x2 broadcasts_S1x128_S10000x128 (ix2 p q)) _ = _
  rw [hm, hb]
  rfl

/-- The printed index maps over the grid: the staged rows move with the written rows; everything else stays at 0. -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

variable (V : (c : Dev nD) → (b : Ref sig .tc) → Buf (Elt Ideal) ((c : Thread nD τ).loc b))

/-- What point t writes back is block t of Spec.node of the three input arrays as the region finds them. -/
theorem flushed_eq (c : Dev nD) (t : Fin cfg1.N) :
    (dat1 V c).flushed 3 t = ((cfg1.win 3).blk t).view.read (Elt Ideal)
      (Spec.node (m := 50000) (k := 160) (n := 128) (V c main_v33) (V c main_v34) (V c main_v35)) := by
  show (cfg1.win 3).cut (grid1.coords t) ((dat1 V c).after 3 t) = _
  rw [after1_3]
  unfold out1_3
  rw [View.canon_unit_zero hz]
  simp only [View.ld_unit_zero (S := S10000x160) hz, View.ld_unit_zero (S := S128x160) hz, View.ld_unit_zero (S := S1x128) hz]
  obtain ⟨e0, e1, e2, e3, e4, e5, e6, e7⟩ := idx_facts t
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (iblk1 V c 2 t) (ix2 p q)
    = Spec.node (m := 50000) (k := 160) (n := 128) (V c main_v33) (V c main_v34) (V c main_v35) (((cfg1.win 3).blk t).view.emb (ix2 p q))
  refine (pay_apply (iblk1 V c 0 t) (iblk1 V c 1 t) (iblk1 V c 2 t) p q).trans ?_
  have hs : (∑ c' : Fin 160, (show EReal from iblk1 V c 0 t (ix2 p c')) * (show EReal from iblk1 V c 1 t (ix2 q c')))
      = Spec.rowsDot (m := 50000) (k := 160) (n := 128) (V c main_v33) (V c main_v34) (((cfg1.win 3).blk t).view.emb (ix2 p q)) := by
    refine Finset.sum_congr rfl fun c' _ => ?_
    have h0 : ((cfg1.win 0).blk t).view.emb (ix2 p c') = ix2 (((cfg1.win 3).blk t).view.emb (ix2 p q) 0) c' := by
      funext a; apply Fin.ext
      match a with
      | ⟨0, _⟩ => show win1_0.index t (0 : Fin 2) * 10000 + 1 * p.val = win1_3.index t (0 : Fin 2) * 10000 + 1 * p.val; omega
      | ⟨1, _⟩ => show win1_0.index t (1 : Fin 2) * 160 + 1 * c'.val = c'.val; omega
    have h1 : ((cfg1.win 1).blk t).view.emb (ix2 q c') = ix2 (((cfg1.win 3).blk t).view.emb (ix2 p q) 1) c' := by
      funext a; apply Fin.ext
      match a with
      | ⟨0, _⟩ => show win1_1.index t (0 : Fin 2) * 128 + 1 * q.val = win1_3.index t (1 : Fin 2) * 128 + 1 * q.val; omega
      | ⟨1, _⟩ => show win1_1.index t (1 : Fin 2) * 160 + 1 * c'.val = c'.val; omega
    have r0 : iblk1 V c 0 t (ix2 p c') = V c main_v33 (ix2 (((cfg1.win 3).blk t).view.emb (ix2 p q) 0) c') := by
      show V c main_v33 (((cfg1.win 0).blk t).view.emb (ix2 p c')) = _
      exact congrArg (V c main_v33) h0
    have r1 : iblk1 V c 1 t (ix2 q c') = V c main_v34 (ix2 (((cfg1.win 3).blk t).view.emb (ix2 p q) 1) c') := by
      show V c main_v34 (((cfg1.win 1).blk t).view.emb (ix2 q c')) = _
      exact congrArg (V c main_v34) h1
    rw [r0, r1]
  have hb : iblk1 V c 2 t (ix2 (0 : Fin 1) q)
      = V c main_v35 (ix2 (0 : Fin 1) (((cfg1.win 3).blk t).view.emb (ix2 p q) 1)) := by
    have h2 : ((cfg1.win 2).blk t).view.emb (ix2 (0 : Fin 1) q) = ix2 (0 : Fin 1) (((cfg1.win 3).blk t).view.emb (ix2 p q) 1) := by
      funext a; apply Fin.ext
      match a with
      | ⟨0, _⟩ => show win1_2.index t (0 : Fin 2) * 1 + 1 * 0 = 0; omega
      | ⟨1, _⟩ => show win1_2.index t (1 : Fin 2) * 128 + 1 * q.val = win1_3.index t (1 : Fin 2) * 128 + 1 * q.val; omega
    show V c main_v35 (((cfg1.win 2).blk t).view.emb (ix2 (0 : Fin 1) q)) = _
    exact congrArg (V c main_v35) h2
  rw [hs, hb]
  rfl

/-- An index of the result is in point t's block iff each coordinate is in the block's range on its axis. -/
theorem mem_blk (t : Fin cfg1.N) (i : S50000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v36).slice (win1_3.rect t)).set ↔ _
  rw [View.set_slice_whole, Rect.mem_set_unit]
  exact Iff.rfl

/-- The point that covers row r is r / 10000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 5 := N_1
  let t : Fin cfg1.N := ⟨(i 0).val / 10000, by rw [hN]; omega⟩
  obtain ⟨e0, e1, e2, e3, e4, e5, e6, e7⟩ := idx_facts t
  have e7' : win1_3.index t (0 : Fin 2) = (i 0).val / 10000 := e7
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The result array after the region: Spec.node of the three input arrays as the region finds them. -/
theorem final (c : Dev nD) : (dat1 V c).arrAt 3 cfg1.N
    = Spec.node (m := 50000) (k := 160) (n := 128) (V c main_v33) (V c main_v34) (V c main_v35) :=
  (dat1 V c).arrAt_eq_of_cover 3 _ (fun t _ => flushed_eq V c t) cover

end Cert.KernelIdeal.Node1

end
-- ==== Proof.Node3.lean ====
/-
  The second node region. Its grid has 5 points; point t stages rows 10000·t … 10000·t + 9999 of the node features
  (window 0), the whole weight matrix (window 1) and the bias row (window 2), and writes rows 10000·t … of the result
  (window 3). The body's one store is the staged rows against the weight rows, plus the bias row, cut off below at
  zero, so the block a point writes back is that block of ONE function of the whole arrays, Spec.node; the 5 blocks
  cover the result array.
-/
import proofs.«165154_j28441273434752_1_alg».proof.Proof.Gen.KernelIdeal.Frame
import proofs.«165154_j28441273434752_1_alg».proof.Proof.LibRowDot
import proofs.«165154_j28441273434752_1_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Node3

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The body's stored value at (p, q): staged row p against weight row q, plus the bias entry q, cut off at zero. -/
theorem pay_apply (x0 : FVec Ideal S10000x256 .bf16) (x1 : FVec Ideal S128x256 .bf16) (x2 : FVec Ideal S1x128 .f32)
    (p : Fin 10000) (q : Fin 128) :
    k3_pay1 (F := Ideal) x0 x1 x2 (ix2 p q)
      = max ((∑ c : Fin 256, x0 (ix2 p c) * x1 (ix2 q c)) + x2 (ix2 (0 : Fin 1) q)) (Ideal.ofBits .f32 0x00000000#32) := by
  have hm := Cert.RowDot.matmul_rows_zero dot_S10000x256_S128x256_S10000x128_1_1_0_0_n_n
    (Cert.RowDot.dotDims_eq_transposedRhs _ rfl rfl rfl rfl rfl rfl) none x0 x1 p q
  have hb := broadcastTo_1b_ab_apply x2 broadcasts_S1x128_S10000x128 p q
  unfold k3_pay1
  simp only [shapeCast_self]
  show max (matmul dot_S10000x256_S128x256_S10000x128_1_1_0_0_n_n none x0 x1 (constant S10000x128 .f32 0x00000000#32) (ix2 p q)
      + broadcastTo S10000x128 x2 broadcasts_S1x128_S10000x128 (ix2 p q)) _ = _
  rw [hm, hb]
  rfl

/-- The printed index maps over the grid: the staged rows move with the written rows; everything else stays at 0. -/
theorem idx_facts : ∀ t : Fin cfg3.N, win3_0.index t (0 : Fin 2) = win3_3.index t (0 : Fin 2)
    ∧ win3_0.index t (1 : Fin 2) = 0 ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) = t.val :=
  (by decide +kernel : ∀ t : Fin grid3.N, _)

variable (V : (c : Dev nD) → (b : Ref sig .tc) → Buf (Elt Ideal) ((c : Thread nD τ).loc b))

/-- What point t writes back is block t of Spec.node of the three input arrays as the region finds them. -/
theorem flushed_eq (c : Dev nD) (t : Fin cfg3.N) :
    (dat3 V c).flushed 3 t = ((cfg3.win 3).blk t).view.read (Elt Ideal)
      (Spec.node (m := 50000) (k := 256) (n := 128) (V c main_v61) (V c main_v62) (V c main_v63)) := by
  show (cfg3.win 3).cut (grid3.coords t) ((dat3 V c).after 3 t) = _
  rw [after3_3]
  unfold out3_3
  rw [View.canon_unit_zero hz]
  simp only [View.ld_unit_zero (S := S10000x256) hz, View.ld_unit_zero (S := S128x256) hz, View.ld_unit_zero (S := S1x128) hz]
  obtain ⟨e0, e1, e2, e3, e4, e5, e6, e7⟩ := idx_facts t
  funext j
  obtain ⟨p, q, rfl⟩ : ∃ (p : Fin 10000) (q : Fin 128), j = ix2 p q := ⟨j 0, j 1, eq_ix2 j⟩
  show k3_pay1 (F := Ideal) (iblk3 V c 0 t) (iblk3 V c 1 t) (iblk3 V c 2 t) (ix2 p q)
    = Spec.node (m := 50000) (k := 256) (n := 128) (V c main_v61) (V c main_v62) (V c main_v63) (((cfg3.win 3).blk t).view.emb (ix2 p q))
  refine (pay_apply (iblk3 V c 0 t) (iblk3 V c 1 t) (iblk3 V c 2 t) p q).trans ?_
  have hs : (∑ c' : Fin 256, (show EReal from iblk3 V c 0 t (ix2 p c')) * (show EReal from iblk3 V c 1 t (ix2 q c')))
      = Spec.rowsDot (m := 50000) (k := 256) (n := 128) (V c main_v61) (V c main_v62) (((cfg3.win 3).blk t).view.emb (ix2 p q)) := by
    refine Finset.sum_congr rfl fun c' _ => ?_
    have h0 : ((cfg3.win 0).blk t).view.emb (ix2 p c') = ix2 (((cfg3.win 3).blk t).view.emb (ix2 p q) 0) c' := by
      funext a; apply Fin.ext
      match a with
      | ⟨0, _⟩ => show win3_0.index t (0 : Fin 2) * 10000 + 1 * p.val = win3_3.index t (0 : Fin 2) * 10000 + 1 * p.val; omega
      | ⟨1, _⟩ => show win3_0.index t (1 : Fin 2) * 256 + 1 * c'.val = c'.val; omega
    have h1 : ((cfg3.win 1).blk t).view.emb (ix2 q c') = ix2 (((cfg3.win 3).blk t).view.emb (ix2 p q) 1) c' := by
      funext a; apply Fin.ext
      match a with
      | ⟨0, _⟩ => show win3_1.index t (0 : Fin 2) * 128 + 1 * q.val = win3_3.index t (1 : Fin 2) * 128 + 1 * q.val; omega
      | ⟨1, _⟩ => show win3_1.index t (1 : Fin 2) * 256 + 1 * c'.val = c'.val; omega
    have r0 : iblk3 V c 0 t (ix2 p c') = V c main_v61 (ix2 (((cfg3.win 3).blk t).view.emb (ix2 p q) 0) c') := by
      show V c main_v61 (((cfg3.win 0).blk t).view.emb (ix2 p c')) = _
      exact congrArg (V c main_v61) h0
    have r1 : iblk3 V c 1 t (ix2 q c') = V c main_v62 (ix2 (((cfg3.win 3).blk t).view.emb (ix2 p q) 1) c') := by
      show V c main_v62 (((cfg3.win 1).blk t).view.emb (ix2 q c')) = _
      exact congrArg (V c main_v62) h1
    rw [r0, r1]
  have hb : iblk3 V c 2 t (ix2 (0 : Fin 1) q)
      = V c main_v63 (ix2 (0 : Fin 1) (((cfg3.win 3).blk t).view.emb (ix2 p q) 1)) := by
    have h2 : ((cfg3.win 2).blk t).view.emb (ix2 (0 : Fin 1) q) = ix2 (0 : Fin 1) (((cfg3.win 3).blk t).view.emb (ix2 p q) 1) := by
      funext a; apply Fin.ext
      match a with
      | ⟨0, _⟩ => show win3_2.index t (0 : Fin 2) * 1 + 1 * 0 = 0; omega
      | ⟨1, _⟩ => show win3_2.index t (1 : Fin 2) * 128 + 1 * q.val = win3_3.index t (1 : Fin 2) * 128 + 1 * q.val; omega
    show V c main_v63 (((cfg3.win 2).blk t).view.emb (ix2 (0 : Fin 1) q)) = _
    exact congrArg (V c main_v63) h2
  rw [hs, hb]
  rfl

/-- An index of the result is in point t's block iff each coordinate is in the block's range on its axis. -/
theorem mem_blk (t : Fin cfg3.N) (i : S50000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v64).slice (win3_3.rect t)).set ↔ _
  rw [View.set_slice_whole, Rect.mem_set_unit]
  exact Iff.rfl

/-- The point that covers row r is r / 10000. -/
theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 5 := N_3
  let t : Fin cfg3.N := ⟨(i 0).val / 10000, by rw [hN]; omega⟩
  obtain ⟨e0, e1, e2, e3, e4, e5, e6, e7⟩ := idx_facts t
  have e7' : win3_3.index t (0 : Fin 2) = (i 0).val / 10000 := e7
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 128 ≤ (i 1).val ∧ (i 1).val < win3_3.index t (1 : Fin 2) * 128 + 128; omega

/-- The result array after the region: Spec.node of the three input arrays as the region finds them. -/
theorem final (c : Dev nD) : (dat3 V c).arrAt 3 cfg3.N
    = Spec.node (m := 50000) (k := 256) (n := 128) (V c main_v61) (V c main_v62) (V c main_v63) :=
  (dat3 V c).arrAt_eq_of_cover 3 _ (fun t _ => flushed_eq V c t) cover

end Cert.KernelIdeal.Node3

end
-- ==== Proof.Node5.lean ====
/-
  The third node region. Its grid has 5 points; point t stages rows 10000·t … 10000·t + 9999 of the node features
  (window 0), the whole weight matrix (window 1) and the bias row (window 2), and writes rows 10000·t … of the result
  (window 3). The body's one store is the staged rows against the weight rows, plus the bias row, cut off below at
  zero, so the block a point writes back is that block of ONE function of the whole arrays, Spec.node; the 5 blocks
  cover the result array.
-/
import proofs.«165154_j28441273434752_1_alg».proof.Proof.Gen.KernelIdeal.Frame
import proofs.«165154_j28441273434752_1_alg».proof.Proof.LibRowDot
import proofs.«165154_j28441273434752_1_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Node5

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The body's stored value at (p, q): staged row p against weight row q, plus the bias entry q, cut off at zero. -/
theorem pay_apply (x0 : FVec Ideal S10000x256 .bf16) (x1 : FVec Ideal S128x256 .bf16) (x2 : FVec Ideal S1x128 .f32)
    (p : Fin 10000) (q : Fin 128) :
    k5_pay1 (F := Ideal) x0 x1 x2 (ix2 p q)
      = max ((∑ c : Fin 256, x0 (ix2 p c) * x1 (ix2 q c)) + x2 (ix2 (0 : Fin 1) q)) (Ideal.ofBits .f32 0x00000000#32) := by
  have hm := Cert.RowDot.matmul_rows_zero dot_S10000x256_S128x256_S10000x128_1_1_0_0_n_n
    (Cert.RowDot.dotDims_eq_transposedRhs _ rfl rfl rfl rfl rfl rfl) none x0 x1 p q
  have hb := broadcastTo_1b_ab_apply x2 broadcasts_S1x128_S10000x128 p q
  unfold k5_pay1
  simp only [shapeCast_self]
  show max (matmul dot_S10000x256_S128x256_S10000x128_1_1_0_0_n_n none x0 x1 (constant S10000x128 .f32 0x00000000#32) (ix2 p q)
      + broadcastTo S10000x128 x2 broadcasts_S1x128_S10000x128 (ix2 p q)) _ = _
  rw [hm, hb]
  rfl

/-- The printed index maps over the grid: the staged rows move with the written rows; everything else stays at 0. -/
theorem idx_facts : ∀ t : Fin cfg5.N, win5_0.index t (0 : Fin 2) = win5_3.index t (0 : Fin 2)
    ∧ win5_0.index t (1 : Fin 2) = 0 ∧ win5_1.index t (0 : Fin 2) = 0 ∧ win5_1.index t (1 : Fin 2) = 0
    ∧ win5_2.index t (0 : Fin 2) = 0 ∧ win5_2.index t (1 : Fin 2) = 0
    ∧ win5_3.index t (1 : Fin 2) = 0 ∧ win5_3.index t (0 : Fin 2) = t.val :=
  (by decide +kernel : ∀ t : Fin grid5.N, _)

variable (V : (c : Dev nD) → (b : Ref sig .tc) → Buf (Elt Ideal) ((c : Thread nD τ).loc b))

set_option maxHeartbeats 1600000 in
/-- What point t writes back is block t of Spec.node of the three input arrays as the region finds them. -/
theorem flushed_eq (c : Dev nD) (t : Fin cfg5.N) :
    (dat5 V c).flushed 3 t = ((cfg5.win 3).blk t).view.read (Elt Ideal)
      (Spec.node (m := 50000) (k := 256) (n := 128) (V c main_v89) (V c main_v90) (V c main_v91)) := by
  show (cfg5.win 3).cut (grid5.coords t) ((dat5 V c).after 3 t) = _
  rw [after5_3]
  unfold out5_3
  rw [View.canon_unit_zero hz]
  simp only [View.ld_unit_zero (S := S10000x256) hz, View.ld_unit_zero (S := S128x256) hz, View.ld_unit_zero (S := S1x128) hz]
  obtain ⟨e0, e1, e2, e3, e4, e5, e6, e7⟩ := idx_facts t
  funext j
  obtain ⟨p, q, rfl⟩ : ∃ (p : Fin 10000) (q : Fin 128), j = ix2 p q := ⟨j 0, j 1, eq_ix2 j⟩
  show k5_pay1 (F := Ideal) (iblk5 V c 0 t) (iblk5 V c 1 t) (iblk5 V c 2 t) (ix2 p q)
    = Spec.node (m := 50000) (k := 256) (n := 128) (V c main_v89) (V c main_v90) (V c main_v91) (((cfg5.win 3).blk t).view.emb (ix2 p q))
  refine (pay_apply (iblk5 V c 0 t) (iblk5 V c 1 t) (iblk5 V c 2 t) p q).trans ?_
  have hs : (∑ c' : Fin 256, (show EReal from iblk5 V c 0 t (ix2 p c')) * (show EReal from iblk5 V c 1 t (ix2 q c')))
      = Spec.rowsDot (m := 50000) (k := 256) (n := 128) (V c main_v89) (V c main_v90) (((cfg5.win 3).blk t).view.emb (ix2 p q)) := by
    refine Finset.sum_congr rfl fun c' _ => ?_
    have h0 : ((cfg5.win 0).blk t).view.emb (ix2 p c') = ix2 (((cfg5.win 3).blk t).view.emb (ix2 p q) 0) c' := by
      funext a; apply Fin.ext
      match a with
      | ⟨0, _⟩ => show win5_0.index t (0 : Fin 2) * 10000 + 1 * p.val = win5_3.index t (0 : Fin 2) * 10000 + 1 * p.val; omega
      | ⟨1, _⟩ => show win5_0.index t (1 : Fin 2) * 256 + 1 * c'.val = c'.val; omega
    have h1 : ((cfg5.win 1).blk t).view.emb (ix2 q c') = ix2 (((cfg5.win 3).blk t).view.emb (ix2 p q) 1) c' := by
      funext a; apply Fin.ext
      match a with
      | ⟨0, _⟩ => show win5_1.index t (0 : Fin 2) * 128 + 1 * q.val = win5_3.index t (1 : Fin 2) * 128 + 1 * q.val; omega
      | ⟨1, _⟩ => show win5_1.index t (1 : Fin 2) * 256 + 1 * c'.val = c'.val; omega
    have r0 : iblk5 V c 0 t (ix2 p c') = V c main_v89 (ix2 (((cfg5.win 3).blk t).view.emb (ix2 p q) 0) c') := by
      show V c main_v89 (((cfg5.win 0).blk t).view.emb (ix2 p c')) = _
      exact congrArg (V c main_v89) h0
    have r1 : iblk5 V c 1 t (ix2 q c') = V c main_v90 (ix2 (((cfg5.win 3).blk t).view.emb (ix2 p q) 1) c') := by
      show V c main_v90 (((cfg5.win 1).blk t).view.emb (ix2 q c')) = _
      exact congrArg (V c main_v90) h1
    rw [r0, r1]
  have hb : iblk5 V c 2 t (ix2 (0 : Fin 1) q)
      = V c main_v91 (ix2 (0 : Fin 1) (((cfg5.win 3).blk t).view.emb (ix2 p q) 1)) := by
    have h2 : ((cfg5.win 2).blk t).view.emb (ix2 (0 : Fin 1) q) = ix2 (0 : Fin 1) (((cfg5.win 3).blk t).view.emb (ix2 p q) 1) := by
      funext a; apply Fin.ext
      match a with
      | ⟨0, _⟩ => show win5_2.index t (0 : Fin 2) * 1 + 1 * 0 = 0; omega
      | ⟨1, _⟩ => show win5_2.index t (1 : Fin 2) * 128 + 1 * q.val = win5_3.index t (1 : Fin 2) * 128 + 1 * q.val; omega
    show V c main_v91 (((cfg5.win 2).blk t).view.emb (ix2 (0 : Fin 1) q)) = _
    exact congrArg (V c main_v91) h2
  rw [hs, hb]
  rfl

/-- An index of the result is in point t's block iff each coordinate is in the block's range on its axis. -/
theorem mem_blk (t : Fin cfg5.N) (i : S50000x128.Idx) :
    i ∈ ((cfg5.win 3).blk t).view.set ↔ ∀ a : Fin 2, win5_3.index t a * S10000x128.size a ≤ (i a).val ∧ (i a).val < win5_3.index t a * S10000x128.size a + S10000x128.size a := by
  show i ∈ ((View.whole main_v92).slice (win5_3.rect t)).set ↔ _
  rw [View.set_slice_whole, Rect.mem_set_unit]
  exact Iff.rfl

/-- The point that covers row r is r / 10000. -/
theorem cover (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 5 := N_5
  let t : Fin cfg5.N := ⟨(i 0).val / 10000, by rw [hN]; omega⟩
  obtain ⟨e0, e1, e2, e3, e4, e5, e6, e7⟩ := idx_facts t
  have e7' : win5_3.index t (0 : Fin 2) = (i 0).val / 10000 := e7
  refine ⟨t, flush5_3 t, ?_⟩
  rw [mem_blk]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 128 ≤ (i 1).val ∧ (i 1).val < win5_3.index t (1 : Fin 2) * 128 + 128; omega

/-- The result array after the region: Spec.node of the three input arrays as the region finds them. -/
theorem final (c : Dev nD) : (dat5 V c).arrAt 3 cfg5.N
    = Spec.node (m := 50000) (k := 256) (n := 128) (V c main_v89) (V c main_v90) (V c main_v91) :=
  (dat5 V c).arrAt_eq_of_cover 3 _ (fun t _ => flushed_eq V c t) cover

end Cert.KernelIdeal.Node5

end
-- ==== Proof.RefVal.lean ====
/- The reference program's result as a pure function of its eleven arguments: the operations' fold at the result
   buffer, read window by window, is the three-layer composition `refVal` of the named pieces below. -/
import proofs.«165154_j28441273434752_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The pieces -/

/-- An index vector of 50000 entries into a table of 32 rows: a negative index is shifted up by 32, and the result
    is laid out as a column. -/
def refIdx50000 (a : (⟨S50000, .i32⟩ : BufTy).Contents (Elt F)) : (⟨S50000x1, .i32⟩ : BufTy).Contents (Elt F) :=
  broadcastInDim S50000x1 ![0] bcast_S50000_S50000x1_0
    (select (cmpi .slt a (broadcastInDim S50000 ![] bcast_S_S50000 (constantI S_ 32 0#32)))
      (addi a (broadcastInDim S50000 ![] bcast_S_S50000 (constantI S_ 32 32#32))) a)

/-- An index vector of 800000 entries into a table of 50000 rows: a negative index is shifted up by 50000, and the
    result is laid out as a column. -/
def refIdx800000 (a : (⟨S800000, .i32⟩ : BufTy).Contents (Elt F)) : (⟨S800000x1, .i32⟩ : BufTy).Contents (Elt F) :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- The node features the layers start from: row `a0 n` of the table `a4` for node `n`. -/
def refH0 (a0 : (⟨S50000, .i32⟩ : BufTy).Contents (Elt F)) (a4 : (⟨S32x32, .f32⟩ : BufTy).Contents (Elt F)) : (⟨S50000x32, .f32⟩ : BufTy).Contents (Elt F) :=
  Host.gather gather_S32x32_S50000x1_S50000x32_1_0_n_n_0_1_132 a4 (refIdx50000 a0)

/-- Per edge, the 32 features of its source node. -/
def refGather32 (h : (⟨S50000x32, .f32⟩ : BufTy).Contents (Elt F)) (a1 : (⟨S800000, .i32⟩ : BufTy).Contents (Elt F)) : (⟨S800000x32, .f32⟩ : BufTy).Contents (Elt F) :=
  Host.gather gather_S50000x32_S800000x1_S800000x32_1_0_n_n_0_1_132 h (refIdx800000 a1)

/-- Per edge, the 128 features of its source node. -/
def refGather128 (h : (⟨S50000x128, .f32⟩ : BufTy).Contents (Elt F)) (a1 : (⟨S800000, .i32⟩ : BufTy).Contents (Elt F)) : (⟨S800000x128, .f32⟩ : BufTy).Contents (Elt F) :=
  Host.gather gather_S50000x128_S800000x1_S800000x128_1_0_n_n_0_1_1128 h (refIdx800000 a1)

/-- The destination indices `a2` as a column of index vectors. -/
def refDst (a2 : (⟨S800000, .i32⟩ : BufTy).Contents (Elt F)) : (⟨S800000x1, .i32⟩ : BufTy).Contents (Elt F) :=
  broadcastInDim S800000x1 ![0] bcast_S800000_S800000x1_0 a2

/-- Per node, the number of edges arriving at it, and 1 where none does. -/
def refCnt (a2 : (⟨S800000, .i32⟩ : BufTy).Contents (Elt F)) : (⟨S50000, .f32⟩ : BufTy).Contents (Elt F) :=
  maximumf
    (Host.scatterAdd scatter_S50000_S800000x1_S800000_n_0_0_1 (broadcastInDim S50000 ![] bcast_S_S50000 (constant S_ .f32 0x00000000#32)) (refDst a2)
      (broadcastInDim S800000 ![] bcast_S_S800000 (constant S_ .f32 0x3F800000#32)))
    (broadcastInDim S50000 ![] bcast_S_S50000 (constant S_ .f32 0x3F800000#32))

/-- Per node, the sum of the rows of `u` over the edges arriving at it. -/
def refSeg (a2 : (⟨S800000, .i32⟩ : BufTy).Contents (Elt F)) (u : (⟨S800000x128, .f32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant S_ .f32 0x00000000#32)) (refDst a2) u

/-- The first layer's edge messages: the 35 edge inputs times the transposed weights, kept where at least zero and
    scaled by a hundredth elsewhere. -/
def refEdge35 (x : (⟨S800000x35, .f32⟩ : BufTy).Contents (Elt F)) (w : (⟨S128x35, .f32⟩ : BufTy).Contents (Elt F)) : (⟨S800000x128, .f32⟩ : BufTy).Contents (Elt F) :=
  select (cmpf .oge (Host.dotGeneral dot_S800000x35_S35x128_S800000x128_1_0_0_1_n_n none x (transpose S35x128 [1, 0] w transposes_S128x35_S35x128_1_0)) (broadcastInDim S800000x128 ![] bcast_S_S800000x128 (constant S_ .f32 0x00000000#32))) (Host.dotGeneral dot_S800000x35_S35x128_S800000x128_1_0_0_1_n_n none x (transpose S35x128 [1, 0] w transposes_S128x35_S35x128_1_0))
    (mulf (broadcastInDim S800000x128 ![] bcast_S_S800000x128 (constant S_ .f32 0x3C23D70A#32)) (Host.dotGeneral dot_S800000x35_S35x128_S800000x128_1_0_0_1_n_n none x (transpose S35x128 [1, 0] w transposes_S128x35_S35x128_1_0)))

/-- A later layer's edge messages, over 131 edge inputs. -/
def refEdge131 (x : (⟨S800000x131, .f32⟩ : BufTy).Contents (Elt F)) (w : (⟨S128x131, .f32⟩ : BufTy).Contents (Elt F)) : (⟨S800000x128, .f32⟩ : BufTy).Contents (Elt F) :=
  select (cmpf .oge (Host.dotGeneral dot_S800000x131_S131x128_S800000x128_1_0_0_1_n_n none x (transpose S131x128 [1, 0] w transposes_S128x131_S131x128_1_0)) (broadcastInDim S800000x128 ![] bcast_S_S800000x128 (constant S_ .f32 0x00000000#32))) (Host.dotGeneral dot_S800000x131_S131x128_S800000x128_1_0_0_1_n_n none x (transpose S131x128 [1, 0] w transposes_S128x131_S131x128_1_0))
    (mulf (broadcastInDim S800000x128 ![] bcast_S_S800000x128 (constant S_ .f32 0x3C23D70A#32)) (Host.dotGeneral dot_S800000x131_S131x128_S800000x128_1_0_0_1_n_n none x (transpose S131x128 [1, 0] w transposes_S128x131_S131x128_1_0)))

/-- Per node, the summed messages divided by the node's count, the count repeated along the 128 features. -/
def refMean (s : (⟨S50000x128, .f32⟩ : BufTy).Contents (Elt F)) (cnt : (⟨S50000, .f32⟩ : BufTy).Contents (Elt F)) : (⟨S50000x128, .f32⟩ : BufTy).Contents (Elt F) :=
  Host.divf s (broadcastInDim S50000x128 ![0, 1] bcast_S50000x1_S50000x128_0_1
    (broadcastInDim S50000x1 ![0] bcast_S50000_S50000x1_0 cnt))

/-- The first layer's node update: the 160 node inputs times the transposed weights, plus the bias on every row,
    positive part. -/
def refNode160 (x : (⟨S50000x160, .f32⟩ : BufTy).Contents (Elt F)) (w : (⟨S128x160, .f32⟩ : BufTy).Contents (Elt F)) (b : (⟨S128, .f32⟩ : BufTy).Contents (Elt F)) : (⟨S50000x128, .f32⟩ : BufTy).Contents (Elt F) :=
  maximumf (addf (Host.dotGeneral dot_S50000x160_S160x128_S50000x128_1_0_0_1_n_n none x
      (transpose S160x128 [1, 0] w transposes_S128x160_S160x128_1_0))
    (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- A later layer's node update, over 256 node inputs. -/
def refNode256 (x : (⟨S50000x256, .f32⟩ : BufTy).Contents (Elt F)) (w : (⟨S128x256, .f32⟩ : BufTy).Contents (Elt F)) (b : (⟨S128, .f32⟩ : BufTy).Contents (Elt F)) : (⟨S50000x128, .f32⟩ : BufTy).Contents (Elt F) :=
  maximumf (addf (Host.dotGeneral dot_S50000x256_S256x128_S50000x128_1_0_0_1_n_n none x
      (transpose S256x128 [1, 0] w transposes_S128x256_S256x128_1_0))
    (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The later layers' weights and biases: entry 0 or 1 along the leading axis of the stacked arrays. -/
def refW8_0 (a8 : (⟨S2x128x131, .f32⟩ : BufTy).Contents (Elt F)) : (⟨S128x131, .f32⟩ : BufTy).Contents (Elt F) :=
  shapeCast S128x131 (extractStridedSlice S1x128x131 ![0, 0, 0] a8 slices_S2x128x131_S1x128x131_0_0_0) shapeCasts_S1x128x131_S128x131
def refW8_1 (a8 : (⟨S2x128x131, .f32⟩ : BufTy).Contents (Elt F)) : (⟨S128x131, .f32⟩ : BufTy).Contents (Elt F) :=
  shapeCast S128x131 (extractStridedSlice S1x128x131 ![1, 0, 0] a8 slices_S2x128x131_S1x128x131_1_0_0) shapeCasts_S1x128x131_S128x131
def refW9_0 (a9 : (⟨S2x128x256, .f32⟩ : BufTy).Contents (Elt F)) : (⟨S128x256, .f32⟩ : BufTy).Contents (Elt F) :=
  shapeCast S128x256 (extractStridedSlice S1x128x256 ![0, 0, 0] a9 slices_S2x128x256_S1x128x256_0_0_0) shapeCasts_S1x128x256_S128x256
def refW9_1 (a9 : (⟨S2x128x256, .f32⟩ : BufTy).Contents (Elt F)) : (⟨S128x256, .f32⟩ : BufTy).Contents (Elt F) :=
  shapeCast S128x256 (extractStridedSlice S1x128x256 ![1, 0, 0] a9 slices_S2x128x256_S1x128x256_1_0_0) shapeCasts_S1x128x256_S128x256
def refB10_0 (a10 : (⟨S2x128, .f32⟩ : BufTy).Contents (Elt F)) : (⟨S128, .f32⟩ : BufTy).Contents (Elt F) :=
  shapeCast S128 (extractStridedSlice S1x128 ![0, 0] a10 slices_S2x128_S1x128_0_0) shapeCasts_S1x128_S128
def refB10_1 (a10 : (⟨S2x128, .f32⟩ : BufTy).Contents (Elt F)) : (⟨S128, .f32⟩ : BufTy).Contents (Elt F) :=
  shapeCast S128 (extractStridedSlice S1x128 ![1, 0] a10 slices_S2x128_S1x128_1_0) shapeCasts_S1x128_S128

/-- The first layer: gather the 32 features by source, append the 3 edge weights, edge messages, mean over the
    arriving edges, append to the node's own features, node update. -/
def refLayer1 (a1 a2 : (⟨S800000, .i32⟩ : BufTy).Contents (Elt F)) (a3 : (⟨S800000x3, .f32⟩ : BufTy).Contents (Elt F)) (h : (⟨S50000x32, .f32⟩ : BufTy).Contents (Elt F))
    (w1 : (⟨S128x35, .f32⟩ : BufTy).Contents (Elt F)) (w2 : (⟨S128x160, .f32⟩ : BufTy).Contents (Elt F)) (b : (⟨S128, .f32⟩ : BufTy).Contents (Elt F)) : (⟨S50000x128, .f32⟩ : BufTy).Contents (Elt F) :=
  refNode160
    (concatenate S50000x160 1 [⟨S50000x32, h⟩, ⟨S50000x128,
      refMean (refSeg a2 (refEdge35
        (concatenate S800000x35 1 [⟨S800000x32, refGather32 h a1⟩, ⟨S800000x3, a3⟩] concatenates_S800000x32_S800000x3_S800000x35_d1) w1))
        (refCnt a2)⟩] concatenates_S50000x32_S50000x128_S50000x160_d1) w2 b

/-- A later layer from the gathered source features `g` on. -/
def refLayerRest (a2 : (⟨S800000, .i32⟩ : BufTy).Contents (Elt F)) (a3 : (⟨S800000x3, .f32⟩ : BufTy).Contents (Elt F)) (h : (⟨S50000x128, .f32⟩ : BufTy).Contents (Elt F))
    (g : (⟨S800000x128, .f32⟩ : BufTy).Contents (Elt F)) (w1 : (⟨S128x131, .f32⟩ : BufTy).Contents (Elt F)) (w2 : (⟨S128x256, .f32⟩ : BufTy).Contents (Elt F)) (b : (⟨S128, .f32⟩ : BufTy).Contents (Elt F)) : (⟨S50000x128, .f32⟩ : BufTy).Contents (Elt F) :=
  refNode256
    (concatenate S50000x256 1 [⟨S50000x128, h⟩, ⟨S50000x128,
      refMean (refSeg a2 (refEdge131
        (concatenate S800000x131 1 [⟨S800000x128, g⟩, ⟨S800000x3, a3⟩] concatenates_S800000x128_S800000x3_S800000x131_d1) w1))
        (refCnt a2)⟩] concatenates_S50000x128_S50000x128_S50000x256_d1) w2 b

/-- A later layer: as the first, over 128 features. -/
def refLayerN (a1 a2 : (⟨S800000, .i32⟩ : BufTy).Contents (Elt F)) (a3 : (⟨S800000x3, .f32⟩ : BufTy).Contents (Elt F)) (h : (⟨S50000x128, .f32⟩ : BufTy).Contents (Elt F))
    (w1 : (⟨S128x131, .f32⟩ : BufTy).Contents (Elt F)) (w2 : (⟨S128x256, .f32⟩ : BufTy).Contents (Elt F)) (b : (⟨S128, .f32⟩ : BufTy).Contents (Elt F)) : (⟨S50000x128, .f32⟩ : BufTy).Contents (Elt F) :=
  refLayerRest a2 a3 h (refGather128 h a1) w1 w2 b

/-- The reference's result from its arguments: the embedding gather, then the three layers. -/
def refVal (a0 : (⟨S50000, .i32⟩ : BufTy).Contents (Elt F)) (a1 a2 : (⟨S800000, .i32⟩ : BufTy).Contents (Elt F)) (a3 : (⟨S800000x3, .f32⟩ : BufTy).Contents (Elt F)) (a4 : (⟨S32x32, .f32⟩ : BufTy).Contents (Elt F))
    (a5 : (⟨S128x35, .f32⟩ : BufTy).Contents (Elt F)) (a6 : (⟨S128x160, .f32⟩ : BufTy).Contents (Elt F)) (a7 : (⟨S128, .f32⟩ : BufTy).Contents (Elt F)) (a8 : (⟨S2x128x131, .f32⟩ : BufTy).Contents (Elt F))
    (a9 : (⟨S2x128x256, .f32⟩ : BufTy).Contents (Elt F)) (a10 : (⟨S2x128, .f32⟩ : BufTy).Contents (Elt F)) : (⟨S50000x128, .f32⟩ : BufTy).Contents (Elt F) :=
  refLayerN a1 a2 a3
    (refLayerN a1 a2 a3 (refLayer1 a1 a2 a3 (refH0 a0 a4) a5 a6 a7) (refW8_0 a8) (refW9_0 a9) (refB10_0 a10))
    (refW8_1 a8) (refW9_1 a9) (refB10_1 a10)

/-! ## The fold, window by window

Each window's fold at a buffer a later window reads, as the pieces applied to the buffers the window itself reads:
the fold unrolled, each operation's result at its own buffer its function's value and at any other buffer what was
there; the outlined functions' typed references carry casts along equations that hold by computation. -/

attribute [local irreducible] Host.gather Host.scatterAdd Host.divf concatenate transpose broadcastInDim extractStridedSlice shapeCast constant constantI select cmpf cmpi addi mulf addf maximumf in
theorem ops0_v36 (V : Valuation τ sig (Elt F)) : after ops0 V (Proc.devRef .tc main_v36)
    = (refLayer1 (V (Proc.devRef .tc main_arg1)) (V (Proc.devRef .tc main_arg2)) (V (Proc.devRef .tc main_arg3)) (refH0 (V (Proc.devRef .tc main_arg0)) (V (Proc.devRef .tc main_arg4))) (V (Proc.devRef .tc main_arg5)) (V (Proc.devRef .tc main_arg6)) (V (Proc.devRef .tc main_arg7))) := by
  after_results_simp
  rfl

attribute [local irreducible] Host.gather Host.scatterAdd Host.divf concatenate transpose broadcastInDim extractStridedSlice shapeCast constant constantI select cmpf cmpi addi mulf addf maximumf in
theorem ops0_v38 (V : Valuation τ sig (Elt F)) : after ops0 V (Proc.devRef .tc main_v38)
    = refW8_0 (V (Proc.devRef .tc main_arg8)) := by
  after_results_simp
  rfl

attribute [local irreducible] Host.gather Host.scatterAdd Host.divf concatenate transpose broadcastInDim extractStridedSlice shapeCast constant constantI select cmpf cmpi addi mulf addf maximumf in
theorem ops0_v40 (V : Valuation τ sig (Elt F)) : after ops0 V (Proc.devRef .tc main_v40)
    = refW9_0 (V (Proc.devRef .tc main_arg9)) := by
  after_results_simp
  rfl

attribute [local irreducible] Host.gather Host.scatterAdd Host.divf concatenate transpose broadcastInDim extractStridedSlice shapeCast constant constantI select cmpf cmpi addi mulf addf maximumf in
theorem ops0_v42 (V : Valuation τ sig (Elt F)) : after ops0 V (Proc.devRef .tc main_v42)
    = refB10_0 (V (Proc.devRef .tc main_arg10)) := by
  after_results_simp
  rfl

attribute [local irreducible] Host.gather Host.scatterAdd Host.divf concatenate transpose broadcastInDim extractStridedSlice shapeCast constant constantI select cmpf cmpi addi mulf addf maximumf in
theorem ops0_v49 (V : Valuation τ sig (Elt F)) : after ops0 V (Proc.devRef .tc main_v49)
    = refGather128 (refLayer1 (V (Proc.devRef .tc main_arg1)) (V (Proc.devRef .tc main_arg2)) (V (Proc.devRef .tc main_arg3)) (refH0 (V (Proc.devRef .tc main_arg0)) (V (Proc.devRef .tc main_arg4))) (V (Proc.devRef .tc main_arg5)) (V (Proc.devRef .tc main_arg6)) (V (Proc.devRef .tc main_arg7))) (V (Proc.devRef .tc main_arg1)) := by
  after_results_simp
  rfl

attribute [local irreducible] Host.gather Host.scatterAdd Host.divf concatenate transpose broadcastInDim extractStridedSlice shapeCast constant constantI select cmpf cmpi addi mulf addf maximumf in
theorem ops1_v72 (V : Valuation τ sig (Elt F)) : after ops1 V (Proc.devRef .tc main_v72)
    = (refLayerRest (V (Proc.devRef .tc main_arg2)) (V (Proc.devRef .tc main_arg3)) (V (Proc.devRef .tc main_v36)) (V (Proc.devRef .tc main_v49)) (V (Proc.devRef .tc main_v38)) (V (Proc.devRef .tc main_v40)) (V (Proc.devRef .tc main_v42))) := by
  after_results_simp
  rfl

attribute [local irreducible] Host.gather Host.scatterAdd Host.divf concatenate transpose broadcastInDim extractStridedSlice shapeCast constant constantI select cmpf cmpi addi mulf addf maximumf in
theorem ops1_v76 (V : Valuation τ sig (Elt F)) : after ops1 V (Proc.devRef .tc main_v76)
    = refW9_1 (V (Proc.devRef .tc main_arg9)) := by
  after_results_simp
  rfl

attribute [local irreducible] Host.gather Host.scatterAdd Host.divf concatenate transpose broadcastInDim extractStridedSlice shapeCast constant constantI select cmpf cmpi addi mulf addf maximumf in
theorem ops1_v78 (V : Valuation τ sig (Elt F)) : after ops1 V (Proc.devRef .tc main_v78)
    = refB10_1 (V (Proc.devRef .tc main_arg10)) := by
  after_results_simp
  rfl

attribute [local irreducible] Host.gather Host.scatterAdd Host.divf concatenate transpose broadcastInDim extractStridedSlice shapeCast constant constantI select cmpf cmpi addi mulf addf maximumf in
theorem ops1_v92 (V : Valuation τ sig (Elt F)) : after ops1 V (Proc.devRef .tc main_v92)
    = refSeg (V (Proc.devRef .tc main_arg2)) (refEdge131
        (concatenate S800000x131 1 [⟨S800000x128, refGather128 (refLayerRest (V (Proc.devRef .tc main_arg2)) (V (Proc.devRef .tc main_arg3)) (V (Proc.devRef .tc main_v36)) (V (Proc.devRef .tc main_v49)) (V (Proc.devRef .tc main_v38)) (V (Proc.devRef .tc main_v40)) (V (Proc.devRef .tc main_v42))) (V (Proc.devRef .tc main_arg1))⟩, ⟨S800000x3, (V (Proc.devRef .tc main_arg3))⟩] concatenates_S800000x128_S800000x3_S800000x131_d1)
        (refW8_1 (V (Proc.devRef .tc main_arg8)))) := by
  after_results_simp
  rfl

attribute [local irreducible] Host.gather Host.scatterAdd Host.divf concatenate transpose broadcastInDim extractStridedSlice shapeCast constant constantI select cmpf cmpi addi mulf addf maximumf in
theorem ops1_v99 (V : Valuation τ sig (Elt F)) : after ops1 V (Proc.devRef .tc main_v99)
    = broadcastInDim S50000x1 ![0] bcast_S50000_S50000x1_0 (refCnt (V (Proc.devRef .tc main_arg2))) := by
  after_results_simp
  rfl

attribute [local irreducible] Host.gather Host.scatterAdd Host.divf concatenate transpose broadcastInDim extractStridedSlice shapeCast constant constantI select cmpf cmpi addi mulf addf maximumf in
theorem ops2_v108 (V : Valuation τ sig (Elt F)) : after ops2 V (Proc.devRef .tc main_v108)
    = refNode256
        (concatenate S50000x256 1 [⟨S50000x128, (V (Proc.devRef .tc main_v72))⟩, ⟨S50000x128,
          Host.divf (V (Proc.devRef .tc main_v92)) (broadcastInDim S50000x128 ![0, 1] bcast_S50000x1_S50000x128_0_1 (V (Proc.devRef .tc main_v99)))⟩] concatenates_S50000x128_S50000x128_S50000x256_d1)
        (V (Proc.devRef .tc main_v76)) (V (Proc.devRef .tc main_v78)) := by
  after_results_simp
  rfl

/-! ## The result -/

/-- The fold of @main's operations at the result buffer is `refVal` of the arguments' contents. -/
theorem val_eq (W : Valuation τ sig (Elt F)) :
    after ops W (Proc.devRef .tc main_v108)
      = refVal (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  rw [after_ops, ops2_v108, ops1_v72, ops1_v76, ops1_v78, ops1_v92, ops1_v99,
    ops0_v36, ops0_v38, ops0_v40, ops0_v42, ops0_v49,
    ops0_main_arg1, ops0_main_arg2, ops0_main_arg3, ops0_main_arg8, ops0_main_arg9, ops0_main_arg10]
  rfl

end Cert.ReferenceIdeal.RefRun

end
-- ==== Proof.LibRowBlock.lean ====
/-
  General facts about row blocks, at the ideal values.  A matrix product's entry (r, j) is the sum over k of A(r,k)·B(k,j):
  it needs one row of the left operand, so a block of rows times a matrix is that block of rows of the whole product.
  And a length-n vector written as one row and repeated down the rows reads, at (r, j), its entry j — whether the
  repeating is a kernel's shape cast and broadcast or the host's two broadcasts.  Nothing here mentions a program.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.RowBlockLib

open Idealize.ShloMosaic Idealize.ShloMosaic.ValueIdx Idealize.ShloMosaic.Pipeline

/-- Row a of a block of rows times a matrix is row a' of the whole matrix times it, when the block's row a is the whole
    matrix's row a'. -/
theorem dotGeneral_plain_row {M m k n : Nat} {φ₁ φ₁' φ₂ φ₂' : FTy} (prec prec' : Option ContractPrecision)
    (A : FVec Ideal ⟨2, ![M, k]⟩ φ₁) (Ab : FVec Ideal ⟨2, ![m, k]⟩ φ₁') (B : FVec Ideal ⟨2, ![k, n]⟩ φ₂) (Bb : FVec Ideal ⟨2, ![k, n]⟩ φ₂')
    (a : Fin m) (a' : Fin M) (b : Fin n)
    (hA : ∀ c : Fin k, (Ab (ix2 a c) : EReal) = A (ix2 a' c)) (hB : ∀ c : Fin k, (Bb (ix2 c b) : EReal) = B (ix2 c b)) :
    (Host.dotGeneral (DotDims.plain m k n) prec Ab Bb (ix2 a b) : EReal) = Host.dotGeneral (DotDims.plain M k n) prec' A B (ix2 a' b) := by
  rw [StackMember.dotGeneral_plain_apply, StackMember.dotGeneral_plain_apply]
  exact Finset.sum_congr rfl fun c _ => by rw [hA c, hB c]

/-- A length-n vector stored as one row and broadcast down m rows reads, at (p, j), the vector's entry j. -/
theorem bias_rows_apply {α : Type} {m n : Nat} (hn : n ≠ 1) (v : (⟨1, ![n]⟩ : Shape).Idx → α)
    (h1 : (⟨1, ![n]⟩ : Shape).ShapeCasts ⟨2, ![1, n]⟩) (h2 : (⟨2, ![1, n]⟩ : Shape).Broadcasts ⟨2, ![m, n]⟩) (p : Fin m) (j : Fin n) :
    broadcastTo ⟨2, ![m, n]⟩ (shapeCast ⟨2, ![1, n]⟩ v h1) h2 (ix2 p j) = v (ix1 j) := by
  refine (broadcastTo_apply _ h2 (ix2 p j) (ix2 (0 : Fin 1) j) fun ax => ?_).trans ?_
  · match ax with
    | ⟨0, _⟩ => show (0 : Nat) = if (1 : Nat) = 1 then 0 else p.val; rw [if_pos rfl]
    | ⟨1, _⟩ => show j.val = if n = 1 then 0 else j.val; rw [if_neg hn]
  · refine (shapeCast_addUnit_apply ![n] v h1 (ix2 (0 : Fin 1) j)).trans (congrArg v (funext fun a => ?_))
    match a with
    | ⟨0, _⟩ => rfl

/-- The same read of the host's two broadcasts ([n] to [1, n] along axis 1, then to [M, n]). -/
theorem bias_rows_host_apply {α : Type} {M n : Nat} (hn : n ≠ 1) (v : (⟨1, ![n]⟩ : Shape).Idx → α)
    (h1 : (⟨1, ![n]⟩ : Shape).BroadcastsInDim ⟨2, ![1, n]⟩ ![1]) (h2 : (⟨2, ![1, n]⟩ : Shape).BroadcastsInDim ⟨2, ![M, n]⟩ ![0, 1])
    (r : Fin M) (j : Fin n) :
    broadcastInDim ⟨2, ![M, n]⟩ ![0, 1] h2 (broadcastInDim ⟨2, ![1, n]⟩ ![1] h1 v) (ix2 r j) = v (ix1 j) := by
  refine (broadcastInDim_apply _ h2 _ (ix2 r j) (ix2 (0 : Fin 1) j) fun a => ?_).trans
    (broadcastInDim_apply _ h1 v (ix2 (0 : Fin 1) j) (ix1 j) fun a => ?_)
  · match a with
    | ⟨0, _⟩ => show (0 : Nat) = if (1 : Nat) = 1 then 0 else r.val; rw [if_pos rfl]
    | ⟨1, _⟩ => show j.val = if n = 1 then 0 else j.val; rw [if_neg hn]
  · match a with
    | ⟨0, _⟩ => show j.val = if n = 1 then 0 else j.val; rw [if_neg hn]

end Cert.RowBlockLib

end
-- ==== Proof.LibScalarLaws.lean ====
/-
  Three laws of single extended-real entries. (1) The leaky rectifier written with "strictly above zero" and the one
  written with "at least zero" agree: they differ only at zero, where one branch gives 0 and the other c·0 = 0.
  (2) Multiplying by the reciprocal 1 / max(n, 1) is dividing by max(n, 1): the divisor is at least one, so it is
  not zero, and off zero the quotient is the product with the inverse. (3) The binary words of 0 and 1.
-/
import Idealize.ShloMosaic.PureOps.Ideal.Laws
import Idealize.ShloMosaic.Lib.ValueIdx

noncomputable section

namespace Cert.ScalarLaws

open Idealize.ShloMosaic

/-- The binary32 word of one denotes the real number one. -/
theorem ofBits_one_f32 : Ideal.ofBits .f32 0x3F800000#32 = 1 := by
  simp [Ideal.ofBits, Ideal.ieee]
  first
    | (norm_cast; norm_num)
    | (rw [← EReal.coe_mul, ← EReal.coe_one]; exact congrArg _ (by norm_num))

/-- The two spellings of the leaky rectifier agree on every extended real. -/
theorem leaky_gt_eq_ge (t c : EReal) :
    Scalar.select (Ideal.cmp .ogt t 0) t (c * t) = Scalar.select (Ideal.cmp .oge t 0) t (c * t) := by
  unfold Ideal.cmp Scalar.select
  by_cases h : (0 : EReal) < t
  · simp [h, h.le]
  · by_cases h0 : t = 0
    · subst h0; simp
    · have h' : ¬ (0 : EReal) ≤ t := fun hle => h (lt_of_le_of_ne hle (Ne.symm h0))
      simp [h, h']

/-- The product with the reciprocal of max(n, 1) is the quotient by max(n, 1), on every extended real. -/
theorem mul_recip_max (x n : EReal) : x * Ideal.div 1 (max n 1) = Ideal.div x (max n 1) := by
  have hy : max n 1 ≠ 0 := (lt_of_lt_of_le zero_lt_one (le_max_right n 1)).ne'
  unfold Ideal.div
  rw [if_neg hy, if_neg hy, one_mul]

end Cert.ScalarLaws

end
-- ==== Proof.HostStages.lean ====
/-
  The host's spelling of the two row-local stages, and of the mean, against the whole-array functions of Spec.
  Edge: the plain product of x with the transposed weights is rows against rows; jax's leaky rectifier tests
  "at least zero" where the kernel tests "above zero", and the two agree (they differ only at zero, where both give 0).
  Node: the bias broadcast [n] → [1, n] → [m, n] reads entry q at (a, q); the rectifier is the maximum with zero.
  Mean: multiplying by the broadcast reciprocal 1 / max(cnt, 1) is dividing by the broadcast max(cnt, 1), entry by
  entry, because the divisor is at least one.
-/
import proofs.«165154_j28441273434752_1_alg».proof.Proof.LibRowDot
import proofs.«165154_j28441273434752_1_alg».proof.Proof.LibRowBlock
import proofs.«165154_j28441273434752_1_alg».proof.Proof.LibScalarLaws
import proofs.«165154_j28441273434752_1_alg».proof.Proof.Spec
import Idealize.ShloMosaic.Lib.IdealHost

noncomputable section

open scoped BigOperators

namespace Cert.HostStages

open Idealize.ShloMosaic Idealize.ShloMosaic.ValueIdx

/-- The host's edge stage is Spec.edge. -/
theorem host_edge {m k n : Nat} (D : DotDims ⟨2, ![m, k]⟩ ⟨2, ![k, n]⟩ ⟨2, ![m, n]⟩) (hD : D = DotDims.plain m k n)
    (x : FVec Ideal ⟨2, ![m, k]⟩ .f32) (w : FVec Ideal ⟨2, ![n, k]⟩ .f32)
    (ht : (⟨2, ![n, k]⟩ : Shape).Transposes [1, 0] ⟨2, ![k, n]⟩)
    (hb : (⟨0, ![]⟩ : Shape).BroadcastsInDim ⟨2, ![m, n]⟩ ![]) :
    select (cmpf .oge (Host.dotGeneral D none x (transpose ⟨2, ![k, n]⟩ [1, 0] w ht))
        (broadcastInDim ⟨2, ![m, n]⟩ ![] hb (constant (F := Ideal) ⟨0, ![]⟩ .f32 0x00000000#32)))
      (Host.dotGeneral D none x (transpose ⟨2, ![k, n]⟩ [1, 0] w ht))
      (mulf (broadcastInDim ⟨2, ![m, n]⟩ ![] hb (constant (F := Ideal) ⟨0, ![]⟩ .f32 0x3C23D70A#32))
        (Host.dotGeneral D none x (transpose ⟨2, ![k, n]⟩ [1, 0] w ht)))
      = Spec.edge x w := by
  funext j
  obtain ⟨a, b, rfl⟩ : ∃ (a : Fin m) (b : Fin n), j = ix2 a b := ⟨j 0, j 1, eq_ix2 j⟩
  have hd := Cert.RowDot.dotGeneral_transpose D hD none x w ht a b
  show Scalar.select (Ideal.cmp .oge (Host.dotGeneral D none x (transpose ⟨2, ![k, n]⟩ [1, 0] w ht) (ix2 a b)) (Ideal.ofBits .f32 0x00000000#32))
      (Host.dotGeneral D none x (transpose ⟨2, ![k, n]⟩ [1, 0] w ht) (ix2 a b))
      (Ideal.ofBits .f32 0x3C23D70A#32 * Host.dotGeneral D none x (transpose ⟨2, ![k, n]⟩ [1, 0] w ht) (ix2 a b))
    = Spec.leaky (∑ c : Fin k, x (ix2 a c) * w (ix2 b c))
  rw [hd]
  unfold Spec.leaky
  rw [Ideal.ofBits_zero_f32]
  exact (Cert.ScalarLaws.leaky_gt_eq_ge _ _).symm

/-- The host's node stage is Spec.node of the bias written as one row. -/
theorem host_node {m k n : Nat} (hn : n ≠ 1) (D : DotDims ⟨2, ![m, k]⟩ ⟨2, ![k, n]⟩ ⟨2, ![m, n]⟩) (hD : D = DotDims.plain m k n)
    (x : FVec Ideal ⟨2, ![m, k]⟩ .f32) (w : FVec Ideal ⟨2, ![n, k]⟩ .f32) (b : FVec Ideal ⟨1, ![n]⟩ .f32)
    (brow : FVec Ideal ⟨2, ![1, n]⟩ .f32) (hrow : ∀ q : Fin n, brow (ix2 (0 : Fin 1) q) = b (ix1 q))
    (ht : (⟨2, ![n, k]⟩ : Shape).Transposes [1, 0] ⟨2, ![k, n]⟩)
    (h1 : (⟨1, ![n]⟩ : Shape).BroadcastsInDim ⟨2, ![1, n]⟩ ![1])
    (h2 : (⟨2, ![1, n]⟩ : Shape).BroadcastsInDim ⟨2, ![m, n]⟩ ![0, 1])
    (hb : (⟨0, ![]⟩ : Shape).BroadcastsInDim ⟨2, ![m, n]⟩ ![]) :
    maximumf (addf (Host.dotGeneral D none x (transpose ⟨2, ![k, n]⟩ [1, 0] w ht))
        (broadcastInDim ⟨2, ![m, n]⟩ ![0, 1] h2 (broadcastInDim ⟨2, ![1, n]⟩ ![1] h1 b)))
      (broadcastInDim ⟨2, ![m, n]⟩ ![] hb (constant (F := Ideal) ⟨0, ![]⟩ .f32 0x00000000#32))
      = Spec.node x w brow := by
  funext j
  obtain ⟨a, q, rfl⟩ : ∃ (a : Fin m) (q : Fin n), j = ix2 a q := ⟨j 0, j 1, eq_ix2 j⟩
  have hd := Cert.RowDot.dotGeneral_transpose D hD none x w ht a q
  have hbias := Cert.RowBlockLib.bias_rows_host_apply hn b h1 h2 a q
  show max (Host.dotGeneral D none x (transpose ⟨2, ![k, n]⟩ [1, 0] w ht) (ix2 a q)
        + broadcastInDim ⟨2, ![m, n]⟩ ![0, 1] h2 (broadcastInDim ⟨2, ![1, n]⟩ ![1] h1 b) (ix2 a q)) (Ideal.ofBits .f32 0x00000000#32)
    = max ((∑ c : Fin k, x (ix2 a c) * w (ix2 q c)) + brow (ix2 (0 : Fin 1) q)) (Ideal.ofBits .f32 0x00000000#32)
  rw [hd, hbias, hrow]

/-- The mean: the product with the broadcast reciprocal of max(cnt, 1) is the quotient by the broadcast max(cnt, 1). -/
theorem host_mean {N M : Nat} (s : FVec Ideal ⟨2, ![N, M]⟩ .f32) (cnt : FVec Ideal ⟨1, ![N]⟩ .f32)
    (h0 : (⟨0, ![]⟩ : Shape).BroadcastsInDim ⟨1, ![N]⟩ ![])
    (h1 : (⟨1, ![N]⟩ : Shape).BroadcastsInDim ⟨2, ![N, 1]⟩ ![0])
    (h2 : (⟨2, ![N, 1]⟩ : Shape).BroadcastsInDim ⟨2, ![N, M]⟩ ![0, 1]) :
    mulf s (broadcastInDim ⟨2, ![N, M]⟩ ![0, 1] h2 (broadcastInDim ⟨2, ![N, 1]⟩ ![0] h1
        (Host.divf (broadcastInDim ⟨1, ![N]⟩ ![] h0 (constant (F := Ideal) ⟨0, ![]⟩ .f32 0x3F800000#32))
          (maximumf cnt (broadcastInDim ⟨1, ![N]⟩ ![] h0 (constant (F := Ideal) ⟨0, ![]⟩ .f32 0x3F800000#32))))))
      = Host.divf s (broadcastInDim ⟨2, ![N, M]⟩ ![0, 1] h2 (broadcastInDim ⟨2, ![N, 1]⟩ ![0] h1
          (maximumf cnt (broadcastInDim ⟨1, ![N]⟩ ![] h0 (constant (F := Ideal) ⟨0, ![]⟩ .f32 0x3F800000#32))))) := by
  funext j
  show s j * Ideal.div (Ideal.ofBits .f32 0x3F800000#32) (max (cnt _) (Ideal.ofBits .f32 0x3F800000#32))
    = Ideal.div (s j) (max (cnt _) (Ideal.ofBits .f32 0x3F800000#32))
  rw [Cert.ScalarLaws.ofBits_one_f32]
  exact Cert.ScalarLaws.mul_recip_max _ _

end Cert.HostStages

end
-- ==== Proof.Bridge.lean ====
/-
  The two programs compute one function of the arguments. Layer by layer both gather the source rows, append the
  edge weights, apply the edge stage, sum over each destination, take the mean, append it to the node rows and apply
  the node stage. They differ in three places only. The kernel's regions are Spec.edge / Spec.node of arrays rounded to
  bf16 (at the ideal values rounding is the identity); the reference spells the same two stages with a transposed
  plain product, jax's leaky rectifier and relu (HostStages.host_edge, host_node). And the kernel multiplies the sum
  by the reciprocal of max(count, 1) where the reference divides by max(count, 1) (HostStages.host_mean). Everything
  else is the same operation on both sides.
-/
import proofs.«165154_j28441273434752_1_alg».proof.Proof.KernelChainDefs
import proofs.«165154_j28441273434752_1_alg».proof.Proof.RefVal
import proofs.«165154_j28441273434752_1_alg».proof.Proof.HostStages
import proofs.«165154_j28441273434752_1_alg».proof.Proof.Spec
import Idealize.ShloMosaic.Lib.ValueLayout
import Idealize.ShloMosaic.Lib.ValueIdx

noncomputable section

namespace Cert.Bridge

open Idealize.ShloMosaic Idealize.ShloMosaic.ValueIdx
open Cert.KernelIdeal.KChain Cert.ReferenceIdeal.RefRun

/-- Rounding to a narrower format is the identity on the extended reals. -/
theorem truncf_id {s : Shape} {φ ψ : FTy} (x : FVec Ideal s φ) (h : ψ.bits < φ.bits) : truncf ψ x h = x := rfl

/-- The kernel's four region functions. -/
abbrev E35 : FVec Ideal Cert.KernelIdeal.S800000x35 .bf16 → FVec Ideal Cert.KernelIdeal.S128x35 .bf16 → FVec Ideal Cert.KernelIdeal.S800000x128 .f32 :=
  fun x w => Spec.edge (m := 800000) (k := 35) (n := 128) x w
abbrev E131 : FVec Ideal Cert.KernelIdeal.S800000x131 .bf16 → FVec Ideal Cert.KernelIdeal.S128x131 .bf16 → FVec Ideal Cert.KernelIdeal.S800000x128 .f32 :=
  fun x w => Spec.edge (m := 800000) (k := 131) (n := 128) x w
abbrev N160 : FVec Ideal Cert.KernelIdeal.S50000x160 .bf16 → FVec Ideal Cert.KernelIdeal.S128x160 .bf16 → FVec Ideal Cert.KernelIdeal.S1x128 .f32 → FVec Ideal Cert.KernelIdeal.S50000x128 .f32 :=
  fun x w b => Spec.node (m := 50000) (k := 160) (n := 128) x w b
abbrev N256 : FVec Ideal Cert.KernelIdeal.S50000x256 .bf16 → FVec Ideal Cert.KernelIdeal.S128x256 .bf16 → FVec Ideal Cert.KernelIdeal.S1x128 .f32 → FVec Ideal Cert.KernelIdeal.S50000x128 .f32 :=
  fun x w b => Spec.node (m := 50000) (k := 256) (n := 128) x w b

/-- The reference's edge stages are Spec.edge. -/
theorem edge35_eq (x : FVec Ideal Cert.ReferenceIdeal.S800000x35 .f32) (w : FVec Ideal Cert.ReferenceIdeal.S128x35 .f32) :
    refEdge35 (F := Ideal) x w = Spec.edge (m := 800000) (k := 35) (n := 128) x w := by
  unfold refEdge35
  exact Cert.HostStages.host_edge _ (Cert.RowDot.dotDims_eq_plain _ rfl rfl rfl rfl rfl rfl) x w _ _
theorem edge131_eq (x : FVec Ideal Cert.ReferenceIdeal.S800000x131 .f32) (w : FVec Ideal Cert.ReferenceIdeal.S128x131 .f32) :
    refEdge131 (F := Ideal) x w = Spec.edge (m := 800000) (k := 131) (n := 128) x w := by
  unfold refEdge131
  exact Cert.HostStages.host_edge _ (Cert.RowDot.dotDims_eq_plain _ rfl rfl rfl rfl rfl rfl) x w _ _

/-- The bias written as one row reads the bias entry. -/
theorem bias_row (b : FVec Ideal Cert.KernelIdeal.S128 .f32) (q : Fin 128) :
    kBias (F := Ideal) b (ix2 (0 : Fin 1) q) = b (ix1 q) := by
  unfold kBias
  exact shapeCast_a_1a_apply b _ (0 : Fin 1) q

/-- The reference's node stages are Spec.node of the bias written as one row. -/
theorem node160_eq (x : FVec Ideal Cert.ReferenceIdeal.S50000x160 .f32) (w : FVec Ideal Cert.ReferenceIdeal.S128x160 .f32)
    (b : FVec Ideal Cert.ReferenceIdeal.S128 .f32) :
    refNode160 (F := Ideal) x w b = Spec.node (m := 50000) (k := 160) (n := 128) x w (kBias (F := Ideal) b) := by
  unfold refNode160
  exact Cert.HostStages.host_node (by decide) _ (Cert.RowDot.dotDims_eq_plain _ rfl rfl rfl rfl rfl rfl) x w b _ (bias_row b) _ _ _ _
theorem node256_eq (x : FVec Ideal Cert.ReferenceIdeal.S50000x256 .f32) (w : FVec Ideal Cert.ReferenceIdeal.S128x256 .f32)
    (b : FVec Ideal Cert.ReferenceIdeal.S128 .f32) :
    refNode256 (F := Ideal) x w b = Spec.node (m := 50000) (k := 256) (n := 128) x w (kBias (F := Ideal) b) := by
  unfold refNode256
  exact Cert.HostStages.host_node (by decide) _ (Cert.RowDot.dotDims_eq_plain _ rfl rfl rfl rfl rfl rfl) x w b _ (bias_row b) _ _ _ _

/-- The kernel's mean (a product with the reciprocal count) is the reference's (a quotient by the count). -/
theorem mean_eq (s : FVec Ideal Cert.KernelIdeal.S50000x128 .f32) (a2 : IVec Cert.KernelIdeal.S800000 32) :
    kMean (F := Ideal) s (kCntInv (F := Ideal) a2) = refMean (F := Ideal) s (refCnt (F := Ideal) a2) := by
  unfold kMean kCntInv refMean refCnt
  exact Cert.HostStages.host_mean s _ _ _ _

end Cert.Bridge

end
-- ==== Proof.Layers.lean ====
/-
  One layer of the kernel's program is one layer of the reference, for the same node rows, and hence the two
  programs' results are one function of the eleven arguments.
-/
import proofs.«165154_j28441273434752_1_alg».proof.Proof.Bridge

noncomputable section

namespace Cert.Bridge

open Idealize.ShloMosaic Idealize.ShloMosaic.ValueIdx
open Cert.KernelIdeal.KChain Cert.ReferenceIdeal.RefRun

/-- Layer 0 (node rows of width 32). -/
theorem layer0_eq (h : FVec Ideal Cert.KernelIdeal.S50000x32 .f32) (a1 a2 : IVec Cert.KernelIdeal.S800000 32)
    (a3 : FVec Ideal Cert.KernelIdeal.S800000x3 .f32) (a5 : FVec Ideal Cert.KernelIdeal.S128x35 .f32)
    (a6 : FVec Ideal Cert.KernelIdeal.S128x160 .f32) (a7 : FVec Ideal Cert.KernelIdeal.S128 .f32) :
    kLayer0 (F := Ideal) E35 N160 h a1 a2 a3 (kCntInv (F := Ideal) a2) a5 a6 a7 = refLayer1 (F := Ideal) a1 a2 a3 h a5 a6 a7 := by
  unfold kLayer0 refLayer1
  rw [node160_eq, edge35_eq, mean_eq]
  unfold kNodeIn160 kW160 kW35 kEdgeIn35
  rfl

/-- A later layer (node rows of width 128). -/
theorem layerN_eq (h : FVec Ideal Cert.KernelIdeal.S50000x128 .f32) (a1 a2 : IVec Cert.KernelIdeal.S800000 32)
    (a3 : FVec Ideal Cert.KernelIdeal.S800000x3 .f32) (w1 : FVec Ideal Cert.KernelIdeal.S128x131 .f32)
    (w2 : FVec Ideal Cert.KernelIdeal.S128x256 .f32) (b : FVec Ideal Cert.KernelIdeal.S128 .f32) :
    kLayer (F := Ideal) E131 N256 h a1 a2 a3 (kCntInv (F := Ideal) a2) w1 w2 b = refLayerN (F := Ideal) a1 a2 a3 h w1 w2 b := by
  unfold kLayer refLayerN refLayerRest
  rw [node256_eq, edge131_eq, mean_eq]
  unfold kNodeIn256 kW256 kW131 kEdgeIn131
  rfl

/-- The two programs' results are one function of the arguments. -/
theorem val_eq (a0 : IVec Cert.KernelIdeal.S50000 32) (a1 a2 : IVec Cert.KernelIdeal.S800000 32)
    (a3 : FVec Ideal Cert.KernelIdeal.S800000x3 .f32) (a4 : FVec Ideal Cert.KernelIdeal.S32x32 .f32)
    (a5 : FVec Ideal Cert.KernelIdeal.S128x35 .f32) (a6 : FVec Ideal Cert.KernelIdeal.S128x160 .f32)
    (a7 : FVec Ideal Cert.KernelIdeal.S128 .f32) (a8 : FVec Ideal Cert.KernelIdeal.S2x128x131 .f32)
    (a9 : FVec Ideal Cert.KernelIdeal.S2x128x256 .f32) (a10 : FVec Ideal Cert.KernelIdeal.S2x128 .f32) :
    kerVal (F := Ideal) E35 N160 E131 N256 E131 N256 a0 a1 a2 a3 a4 a5 a6 a7 a8 a9 a10
      = refVal (F := Ideal) a0 a1 a2 a3 a4 a5 a6 a7 a8 a9 a10 := by
  unfold kerVal kR3 kR1 refVal
  rw [layerN_eq, layerN_eq, layer0_eq]
  rfl

end Cert.Bridge

end
-- ==== Proof.Algebraic.lean ====
/-
  The value claim. The idealized kernel ends with its result array at kerVal of the six region functions and the
  arguments (the run of its twelve segments, the regions' closed forms, the host stretches read back); the idealized
  reference ends with its result at refVal of the arguments (its run, read back); and the two are one function
  (Bridge.val_eq) of arguments that agree.
-/
import proofs.«165154_j28441273434752_1_alg».proof.Defs
import proofs.«165154_j28441273434752_1_alg».proof.Proof.KernelRun
import proofs.«165154_j28441273434752_1_alg».proof.Proof.KernelChain
import proofs.«165154_j28441273434752_1_alg».proof.Proof.Edge0
import proofs.«165154_j28441273434752_1_alg».proof.Proof.Edge2
import proofs.«165154_j28441273434752_1_alg».proof.Proof.Edge4
import proofs.«165154_j28441273434752_1_alg».proof.Proof.Node1
import proofs.«165154_j28441273434752_1_alg».proof.Proof.Node3
import proofs.«165154_j28441273434752_1_alg».proof.Proof.Node5
import proofs.«165154_j28441273434752_1_alg».proof.Proof.RefVal
import proofs.«165154_j28441273434752_1_alg».proof.Proof.Layers
import proofs.«165154_j28441273434752_1_alg».proof.Proof.Gen.Pre_finite_inputs

noncomputable section

namespace Cert.Proof.Value

open Idealize.ShloMosaic Idealize.SL.Sem
open Cert.Bridge

theorem algebraic : Cert.algebraic_KernelIdeal_ReferenceIdeal := by
  intro m ρ m' ρ' _ hagree
  refine ⟨fun c => Cert.KernelIdeal.KChain.kerVal (F := Ideal) E35 N160 E131 N256 E131 N256 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run (Cert.KernelIdeal.defs (F := Ideal)) _ _).mono
      (fun r h c => And.intro ((h c).1.trans
        (Cert.KernelIdeal.KChain.chain (F := Ideal) m ρ E35 N160 E131 N256 E131 N256
          Cert.KernelIdeal.Edge0.final Cert.KernelIdeal.Node1.final Cert.KernelIdeal.Edge2.final
          Cert.KernelIdeal.Node3.final Cert.KernelIdeal.Edge4.final Cert.KernelIdeal.Node5.final c)) (h c).2)
      (Cert.KernelIdeal.KRun.run (F := Ideal) m ρ)
  refine (θ_run (Cert.ReferenceIdeal.defs (F := Ideal)) _ _).mono (fun r h c => ⟨(h c).1.trans ?_, (h c).2⟩)
    (Cert.ReferenceIdeal.RefRun.run (F := Ideal) m' ρ')
  have key : Cert.ReferenceIdeal.RefRun.refVal (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      = Cert.KernelIdeal.KChain.kerVal (F := Ideal) E35 N160 E131 N256 E131 N256 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact (Cert.Bridge.val_eq _ _ _ _ _ _ _ _ _ _ _).symm
  exact (Cert.ReferenceIdeal.RefRun.val_eq (F := Ideal) (fun b => m' (c, b))).trans key

end Cert.Proof.Value

end
-- ==== Proof.lean ====
/- The certificate of the three-layer message-passing network: the idealized kernel program and the idealized reference
   compute one function of the eleven arguments on the extended reals.
   Frames: each kernel program's frame is its frame certificate over the twelve segments of @main (six host stretches, six
   regions); the reference's frame is its run with the result forgotten (Proof/Frames.lean).
   The ledger of the idealization is empty, so there is nothing to preserve.
   Value: the kernel's six regions are the row-local stages Spec.edge (the leaky rectifier of rows against weight rows) and
   Spec.node (rows against weight rows, plus bias, cut off at zero), each the same function on every block of rows
   (Proof/Edge*.lean, Proof/Node*.lean); between them both programs gather, concatenate and sum over destinations with the
   same operations. They differ in how the stages are spelt on the host and in the mean: the kernel multiplies by
   1 / max(count, 1) where the reference divides by max(count, 1), and the two agree on every extended real because the
   divisor is at least one (Proof/HostStages.lean, Proof/Bridge.lean, Proof/Layers.lean, Proof/Algebraic.lean). No
   finiteness of the inputs is needed. -/
import proofs.«165154_j28441273434752_1_alg».proof.Defs
import proofs.«165154_j28441273434752_1_alg».proof.Proof.Gen.Kernel
import proofs.«165154_j28441273434752_1_alg».proof.Proof.Gen.KernelIdeal
import proofs.«165154_j28441273434752_1_alg».proof.Proof.Gen.ReferenceIdeal
import proofs.«165154_j28441273434752_1_alg».proof.Proof.Gen.Pre_finite_inputs
import proofs.«165154_j28441273434752_1_alg».proof.Proof.Frames
import proofs.«165154_j28441273434752_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, Frames.preserves, Value.algebraic⟩

end Cert.Proof

end
